-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4096 : Shape := ⟨2, ![512, 4096]⟩
abbrev S14336x4096 : Shape := ⟨2, ![14336, 4096]⟩
abbrev S224x4096 : Shape := ⟨2, ![224, 4096]⟩
abbrev S4096x14336 : Shape := ⟨2, ![4096, 14336]⟩
abbrev S64x14336 : Shape := ⟨2, ![64, 14336]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S224x4096 : S_.BroadcastsInDim S224x4096 (![] : Fin 0 → Fin S224x4096.rank)
  reducesTo_S224x4096_S_d0_1 : S224x4096.ReducesTo [0, 1] S_
  bcast_S_S64x14336 : S_.BroadcastsInDim S64x14336 (![] : Fin 0 → Fin S64x14336.rank)
  reducesTo_S64x14336_S_d0_1 : S64x14336.ReducesTo [0, 1] S_

variable [Facts]

def fn_part1 {F : FTy → Type} [FloatOps F] (main_arg6 : FVec F S64x14336 .f32) (main_arg8 : FVec F S224x4096 .f32) (main_arg9 : FVec F S224x4096 .f32) (main_v13 : IVec S_ 1) (main_v16 : IVec S64x14336 1) : IVec S_ 1 :=
  let main_c_5 : IVec S_ 1 := constantI S_ 1 1#1
  let main_v17 : IVec S_ 1 := (fun x v => Host.reduce IntOp.andi x v reducesTo_S64x14336_S_d0_1 h_S_) main_v16 main_c_5
  let main_v18 : IVec S_ 1 := andi main_v13 main_v17
  let main_v19 : FVec F S64x14336 .f32 := Host.absf main_arg6
  let main_cst_6 : FVec F S_ .f32 := constant S_ .f32 0x7F800000#32
  let main_v20 : FVec F S64x14336 .f32 := broadcastInDim S64x14336 ![] bcast_S_S64x14336 main_cst_6
  let main_v21 : IVec S64x14336 1 := cmpf .olt main_v19 main_v20
  let main_c_7 : IVec S_ 1 := constantI S_ 1 1#1
  let main_v22 : IVec S_ 1 := (fun x v => Host.reduce IntOp.andi x v reducesTo_S64x14336_S_d0_1 h_S_) main_v21 main_c_7
  let main_v23 : IVec S_ 1 := andi main_v18 main_v22
  let main_v24 : FVec F S224x4096 .f32 := Host.absf main_arg8
  let main_cst_8 : FVec F S_ .f32 := constant S_ .f32 0x7F800000#32
  let main_v25 : FVec F S224x4096 .f32 := broadcastInDim S224x4096 ![] bcast_S_S224x4096 main_cst_8
  let main_v26 : IVec S224x4096 1 := cmpf .olt main_v24 main_v25
  let main_c_9 : IVec S_ 1 := constantI S_ 1 1#1
  let main_v27 : IVec S_ 1 := (fun x v => Host.reduce IntOp.andi x v reducesTo_S224x4096_S_d0_1 h_S_) main_v26 main_c_9
  let main_v28 : IVec S_ 1 := andi main_v23 main_v27
  let main_v29 : FVec F S224x4096 .f32 := Host.absf main_arg9
  let main_cst_10 : FVec F S_ .f32 := constant S_ .f32 0x7F800000#32
  let main_v30 : FVec F S224x4096 .f32 := broadcastInDim S224x4096 ![] bcast_S_S224x4096 main_cst_10
  let main_v31 : IVec S224x4096 1 := cmpf .olt main_v29 main_v30
  let main_c_11 : IVec S_ 1 := constantI S_ 1 1#1
  let main_v32 : IVec S_ 1 := (fun x v => Host.reduce IntOp.andi x v reducesTo_S224x4096_S_d0_1 h_S_) main_v31 main_c_11
  let main_v33 : IVec S_ 1 := andi main_v28 main_v32
  main_v33

def fn {F : FTy → Type} [FloatOps F] (main_arg0 : FVec F S512x4096 .f32) (main_arg1 : IVec S14336x4096 32) (main_arg2 : FVec F S224x4096 .f32) (main_arg3 : FVec F S224x4096 .f32) (main_arg4 : IVec S4096x14336 32) (main_arg5 : FVec F S64x14336 .f32) (main_arg6 : FVec F S64x14336 .f32) (main_arg7 : IVec S14336x4096 32) (main_arg8 : FVec F S224x4096 .f32) (main_arg9 : FVec F S224x4096 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S224x4096 .f32 := Host.absf main_arg2
  let main_cst_0 : FVec F S_ .f32 := constant S_ .f32 0x7F800000#32
  let main_v5 : FVec F S224x4096 .f32 := broadcastInDim S224x4096 ![] bcast_S_S224x4096 main_cst_0
  let main_v6 : IVec S224x4096 1 := cmpf .olt main_v4 main_v5
  let main_c_1 : IVec S_ 1 := constantI S_ 1 1#1
  let main_v7 : IVec S_ 1 := (fun x v => Host.reduce IntOp.andi x v reducesTo_S224x4096_S_d0_1 h_S_) main_v6 main_c_1
  let main_v8 : IVec S_ 1 := andi main_v3 main_v7
  let main_v9 : FVec F S224x4096 .f32 := Host.absf main_arg3
  let main_cst_2 : FVec F S_ .f32 := constant S_ .f32 0x7F800000#32
  let main_v10 : FVec F S224x4096 .f32 := broadcastInDim S224x4096 ![] bcast_S_S224x4096 main_cst_2
  let main_v11 : IVec S224x4096 1 := cmpf .olt main_v9 main_v10
  let main_c_3 : IVec S_ 1 := constantI S_ 1 1#1
  let main_v12 : IVec S_ 1 := (fun x v => Host.reduce IntOp.andi x v reducesTo_S224x4096_S_d0_1 h_S_) main_v11 main_c_3
  let main_v13 : IVec S_ 1 := andi main_v8 main_v12
  let main_v14 : FVec F S64x14336 .f32 := Host.absf main_arg5
  let main_cst_4 : FVec F S_ .f32 := constant S_ .f32 0x7F800000#32
  let main_v15 : FVec F S64x14336 .f32 := broadcastInDim S64x14336 ![] bcast_S_S64x14336 main_cst_4
  let main_v16 : IVec S64x14336 1 := cmpf .olt main_v14 main_v15
  fn_part1 (F := F) main_arg6 main_arg8 main_arg9 main_v13 main_v16
-- ==== Kernel.lean ====
abbrev S512x4096 : Shape := ⟨2, ![512, 4096]⟩
abbrev S14336x4096 : Shape := ⟨2, ![14336, 4096]⟩
abbrev S224x4096 : Shape := ⟨2, ![224, 4096]⟩
abbrev S4096x14336 : Shape := ⟨2, ![4096, 14336]⟩
abbrev S64x14336 : Shape := ⟨2, ![64, 14336]⟩
abbrev S512x14336 : Shape := ⟨2, ![512, 14336]⟩
abbrev S8x4096 : Shape := ⟨2, ![8, 4096]⟩
abbrev S512x512 : Shape := ⟨2, ![512, 512]⟩
abbrev S8x64x4096 : Shape := ⟨3, ![8, 64, 4096]⟩
abbrev S8x1x4096 : Shape := ⟨3, ![8, 1, 4096]⟩
abbrev S512x2048 : Shape := ⟨2, ![512, 2048]⟩
abbrev S8x2048 : Shape := ⟨2, ![8, 2048]⟩
abbrev S8x64x2048 : Shape := ⟨3, ![8, 64, 2048]⟩
abbrev S8x1x2048 : Shape := ⟨3, ![8, 1, 2048]⟩

abbrev nBuf : Space → Nat
  | .hbm => 14
  | .vmem => 30
  | .smem => 0
  | _ => 0

abbrev bufTy : (tb : Table) → Fin (tcTables nBuf tb) → BufTy
  | .hbm, ⟨0, _⟩ => ⟨S512x4096, .f32⟩
  | .hbm, ⟨1, _⟩ => ⟨S14336x4096, .i32⟩
  | .hbm, ⟨2, _⟩ => ⟨S224x4096, .f32⟩
  | .hbm, ⟨3, _⟩ => ⟨S224x4096, .f32⟩
  | .hbm, ⟨4, _⟩ => ⟨S4096x14336, .i32⟩
  | .hbm, ⟨5, _⟩ => ⟨S64x14336, .f32⟩
  | .hbm, ⟨6, _⟩ => ⟨S64x14336, .f32⟩
  | .hbm, ⟨7, _⟩ => ⟨S14336x4096, .i32⟩
  | .hbm, ⟨8, _⟩ => ⟨S224x4096, .f32⟩
  | .hbm, ⟨9, _⟩ => ⟨S224x4096, .f32⟩
  | .hbm, ⟨10, _⟩ => ⟨S512x4096, .bf16⟩
  | .hbm, ⟨11, _⟩ => ⟨S512x14336, .bf16⟩
  | .hbm, ⟨12, _⟩ => ⟨S512x14336, .bf16⟩
  | .hbm, ⟨13, _⟩ => ⟨S512x4096, .f32⟩
  | .local _ .vmem, ⟨0, _⟩ => ⟨S512x4096, .bf16⟩
  | .local _ .vmem, ⟨1, _⟩ => ⟨S512x4096, .i32⟩
  | .local _ .vmem, ⟨2, _⟩ => ⟨S512x4096, .i32⟩
  | .local _ .vmem, ⟨3, _⟩ => ⟨S8x4096, .f32⟩
  | .local _ .vmem, ⟨4, _⟩ => ⟨S8x4096, .f32⟩
  | .local _ .vmem, ⟨5, _⟩ => ⟨S8x4096, .f32⟩
  | .local _ .vmem, ⟨6, _⟩ => ⟨S8x4096, .f32⟩
  | .local _ .vmem, ⟨7, _⟩ => ⟨S512x512, .bf16⟩
  | .local _ .vmem, ⟨8, _⟩ => ⟨S512x512, .bf16⟩
  | .local _ .vmem, ⟨9, _⟩ => ⟨S512x4096, .bf16⟩
  | .local _ .vmem, ⟨10, _⟩ => ⟨S512x4096, .i32⟩
  | .local _ .vmem, ⟨11, _⟩ => ⟨S512x4096, .i32⟩
  | .local _ .vmem, ⟨12, _⟩ => ⟨S8x4096, .f32⟩
  | .local _ .vmem, ⟨13, _⟩ => ⟨S8x4096, .f32⟩
  | .local _ .vmem, ⟨14, _⟩ => ⟨S8x4096, .f32⟩
  | .local _ .vmem, ⟨15, _⟩ => ⟨S8x4096, .f32⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x14336, .bf16⟩
  | .local _ .vmem, ⟨21, _⟩ => ⟨S512x2048, .i32⟩
  | .local _ .vmem, ⟨22, _⟩ => ⟨S512x2048, .i32⟩
  | .local _ .vmem, ⟨23, _⟩ => ⟨S8x2048, .f32⟩
  | .local _ .vmem, ⟨24, _⟩ => ⟨S8x2048, .f32⟩
  | .local _ .vmem, ⟨25, _⟩ => ⟨S8x2048, .f32⟩
  | .local _ .vmem, ⟨26, _⟩ => ⟨S8x2048, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc2_scratch0 : Ref sig .tc := ⟨.vmem, 29, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![28], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S512x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![8, 7], ![false, false]⟩

def k2_mult1 (i : grid2.Coords) : BitVec 32 :=
  let arg1 : BitVec 32 := BitVec.ofNat 32 (i 1).val
  let c2048_i32 : BitVec 32 := 2048#32
  let v3 : BitVec 32 := Scalar.muli arg1 c2048_i32
  v3
def k2_off1 (i : grid2.Coords) : Fin 2 → Nat :=
  let c0 : Index := 0#32
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  ![0, v5.toNat]
def k2_cond2 (i : grid2.Coords) : BitVec 1 :=
  let arg1 : BitVec 32 := BitVec.ofNat 32 (i 1).val
  let c6_i32 : BitVec 32 := 6#32
  let v27 : BitVec 1 := Scalar.cmpi .eq arg1 c6_i32
  let v28 : BitVec 32 := Scalar.extui v27
  let c0_i32_11 : BitVec 32 := 0#32
  let v29 : BitVec 1 := Scalar.cmpi .ne v28 c0_i32_11
  v29

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 1 → Memref sig .tc .vmem S512x14336 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S512x2048 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S8x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S8x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S8x4096_S8x4096_0_0 : ∀ a, (![0, 0] : Fin 2 → Nat) a + S8x4096.size a ≤ S8x4096.size a
  h_S8x4096 : 0 < S8x4096.numel
  shapeCasts_S512x4096_S8x64x4096 : S512x4096.ShapeCasts S8x64x4096
  shapeCasts_S8x4096_S8x1x4096 : S8x4096.ShapeCasts S8x1x4096
  broadcasts_S8x1x4096_S8x64x4096 : S8x1x4096.Broadcasts S8x64x4096
  shapeCasts_S8x64x4096_S512x4096 : S8x64x4096.ShapeCasts S512x4096
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  shapeCasts_S512x512_S512x512 : S512x512.ShapeCasts S512x512
  h_S512x2048 : 0 < S512x2048.numel
  shapeCasts_S512x2048_S512x2048 : S512x2048.ShapeCasts S512x2048
  inb_S512x2048_S512x2048_0_0 : ∀ a, (![0, 0] : Fin 2 → Nat) a + S512x2048.size a ≤ S512x2048.size a
  inb_S8x2048_S8x2048_0_0 : ∀ a, (![0, 0] : Fin 2 → Nat) a + S8x2048.size a ≤ S8x2048.size a
  h_S8x2048 : 0 < S8x2048.numel
  shapeCasts_S512x2048_S8x64x2048 : S512x2048.ShapeCasts S8x64x2048
  shapeCasts_S8x2048_S8x1x2048 : S8x2048.ShapeCasts S8x1x2048
  broadcasts_S8x1x2048_S8x64x2048 : S8x1x2048.Broadcasts S8x64x2048
  shapeCasts_S8x64x2048_S512x2048 : S8x64x2048.ShapeCasts S512x2048
  dot_S512x4096_S512x4096_S512x512_1_1_0_0_n_n_wf : DotDims.WF S512x4096 S512x4096 S512x512 [1] [1] [0] [0] [] []
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S512x4096.size a
  hwx0_0 : ∀ i : grid0.Coords, EltTy.bits .bf16 = 32 ∨ (Rect.block (s := S512x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S14336x4096.size a
  hwx0_1 : ∀ i : grid0.Coords, EltTy.bits .i32 = 32 ∨ (Rect.block (s := S14336x4096) S512x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S224x4096.size a
  hwx0_2 : ∀ i : grid0.Coords, EltTy.bits .f32 = 32 ∨ (Rect.block (s := S224x4096) S8x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x4096.size a ≤ S224x4096.size a
  hwx0_3 : ∀ i : grid0.Coords, EltTy.bits .f32 = 32 ∨ (Rect.block (s := S224x4096) S8x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x14336.size a
  hwx0_4 : ∀ i : grid0.Coords, EltTy.bits .bf16 = 32 ∨ (Rect.block (s := S512x14336) S512x512.size (cc0_transform_4 i) (hinb0_4 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S512x4096.size a
  hwx1_0 : ∀ i : grid1.Coords, EltTy.bits .bf16 = 32 ∨ (Rect.block (s := S512x4096) S512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S14336x4096.size a
  hwx1_1 : ∀ i : grid1.Coords, EltTy.bits .i32 = 32 ∨ (Rect.block (s := S14336x4096) S512x4096.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x4096.size a ≤ S224x4096.size a
  hwx1_2 : ∀ i : grid1.Coords, EltTy.bits .f32 = 32 ∨ (Rect.block (s := S224x4096) S8x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x4096.size a ≤ S224x4096.size a
  hwx1_3 : ∀ i : grid1.Coords, EltTy.bits .f32 = 32 ∨ (Rect.block (s := S224x4096) S8x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x14336.size a
  hwx1_4 : ∀ i : grid1.Coords, EltTy.bits .bf16 = 32 ∨ (Rect.block (s := S512x14336) S512x512.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x14336.size a
  hwx1_5 : ∀ i : grid1.Coords, EltTy.bits .bf16 = 32 ∨ (Rect.block (s := S512x14336) S512x512.size (cc1_transform_5 i) (hinb1_5 i)).WholeWords (EltTy.packing .bf16)
  hrank2 : 0 < grid2.rank
  k2_mult1_dvd : ∀ i : grid2.Coords, 2048 ∣ (k2_mult1 i).toNat
  k2_off1_inb : ∀ i : grid2.Coords, ∀ a, (k2_off1 i) a + S512x2048.size a ≤ S512x14336.size a
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x14336.size a ≤ S512x14336.size a
  hwx2_0 : ∀ i : grid2.Coords, EltTy.bits .bf16 = 32 ∨ (Rect.block (s := S512x14336) S512x14336.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S4096x14336.size a
  hwx2_1 : ∀ i : grid2.Coords, EltTy.bits .i32 = 32 ∨ (Rect.block (s := S4096x14336) S512x2048.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x2048.size a ≤ S64x14336.size a
  hwx2_2 : ∀ i : grid2.Coords, EltTy.bits .f32 = 32 ∨ (Rect.block (s := S64x14336) S8x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8x2048.size a ≤ S64x14336.size a
  hwx2_3 : ∀ i : grid2.Coords, EltTy.bits .f32 = 32 ∨ (Rect.block (s := S64x14336) S8x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x512.size a ≤ S512x4096.size a
  hwx2_4 : ∀ i : grid2.Coords, EltTy.bits .f32 = 32 ∨ (Rect.block (s := S512x4096) S512x512.size (cc2_transform_4 i) (hinb2_4 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf
def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_v0) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S512x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S8x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S8x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S512x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2) S512x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v2) S512x14336.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S512x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S8x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S8x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v3) S512x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S512x4096 : Shape := ⟨2, ![512, 4096]⟩
abbrev S14336x4096 : Shape := ⟨2, ![14336, 4096]⟩
abbrev S224x4096 : Shape := ⟨2, ![224, 4096]⟩
abbrev S4096x14336 : Shape := ⟨2, ![4096, 14336]⟩
abbrev S64x14336 : Shape := ⟨2, ![64, 14336]⟩
abbrev S224x64x4096 : Shape := ⟨3, ![224, 64, 4096]⟩
abbrev S224x1x4096 : Shape := ⟨3, ![224, 1, 4096]⟩
abbrev S512x14336 : Shape := ⟨2, ![512, 14336]⟩
abbrev S_ : Shape := ⟨0, ![]⟩
abbrev S64x64x14336 : Shape := ⟨3, ![64, 64, 14336]⟩
abbrev S64x1x14336 : Shape := ⟨3, ![64, 1, 14336]⟩

abbrev nBuf : Space → Nat
  | .hbm => 53
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S14336x4096, .i32⟩
  | .hbm, ⟨2, _⟩ => ⟨S224x4096, .f32⟩
  | .hbm, ⟨3, _⟩ => ⟨S224x4096, .f32⟩
  | .hbm, ⟨4, _⟩ => ⟨S4096x14336, .i32⟩
  | .hbm, ⟨5, _⟩ => ⟨S64x14336, .f32⟩
  | .hbm, ⟨6, _⟩ => ⟨S64x14336, .f32⟩
  | .hbm, ⟨7, _⟩ => ⟨S14336x4096, .i32⟩
  | .hbm, ⟨8, _⟩ => ⟨S224x4096, .f32⟩
  | .hbm, ⟨9, _⟩ => ⟨S224x4096, .f32⟩
  | .hbm, ⟨10, _⟩ => ⟨S224x64x4096, .i32⟩
  | .hbm, ⟨11, _⟩ => ⟨S224x64x4096, .f32⟩
  | .hbm, ⟨12, _⟩ => ⟨S224x1x4096, .f32⟩
  | .hbm, ⟨13, _⟩ => ⟨S224x64x4096, .f32⟩
  | .hbm, ⟨14, _⟩ => ⟨S224x64x4096, .f32⟩
  | .hbm, ⟨15, _⟩ => ⟨S224x1x4096, .f32⟩
  | .hbm, ⟨16, _⟩ => ⟨S224x64x4096, .f32⟩
  | .hbm, ⟨17, _⟩ => ⟨S224x64x4096, .f32⟩
  | .hbm, ⟨18, _⟩ => ⟨S14336x4096, .f32⟩
  | .hbm, ⟨19, _⟩ => ⟨S4096x14336, .f32⟩
  | .hbm, ⟨20, _⟩ => ⟨S512x14336, .f32⟩
  | .hbm, ⟨21, _⟩ => ⟨S224x64x4096, .i32⟩
  | .hbm, ⟨22, _⟩ => ⟨S224x64x4096, .f32⟩
  | .hbm, ⟨23, _⟩ => ⟨S224x1x4096, .f32⟩
  | .hbm, ⟨24, _⟩ => ⟨S224x64x4096, .f32⟩
  | .hbm, ⟨25, _⟩ => ⟨S224x64x4096, .f32⟩
  | .hbm, ⟨26, _⟩ => ⟨S224x1x4096, .f32⟩
  | .hbm, ⟨27, _⟩ => ⟨S224x64x4096, .f32⟩
  | .hbm, ⟨28, _⟩ => ⟨S224x64x4096, .f32⟩
  | .hbm, ⟨29, _⟩ => ⟨S14336x4096, .f32⟩
  | .hbm, ⟨30, _⟩ => ⟨S4096x14336, .f32⟩
  | .hbm, ⟨31, _⟩ => ⟨S512x14336, .f32⟩
  | .hbm, ⟨32, _⟩ => ⟨S512x14336, .f32⟩
  | .hbm, ⟨33, _⟩ => ⟨S512x14336, .f32⟩
  | .hbm, ⟨34, _⟩ => ⟨S_, .f32⟩
  | .hbm, ⟨35, _⟩ => ⟨S512x14336, .f32⟩
  | .hbm, ⟨36, _⟩ => ⟨S512x14336, .f32⟩
  | .hbm, ⟨37, _⟩ => ⟨S_, .f32⟩
  | .hbm, ⟨38, _⟩ => ⟨S512x14336, .f32⟩
  | .hbm, ⟨39, _⟩ => ⟨S512x14336, .f32⟩
  | .hbm, ⟨40, _⟩ => ⟨S512x14336, .f32⟩
  | .hbm, ⟨41, _⟩ => ⟨S512x14336, .f32⟩
  | .hbm, ⟨42, _⟩ => ⟨S64x64x14336, .i32⟩
  | .hbm, ⟨43, _⟩ => ⟨S64x64x14336, .f32⟩
  | .hbm, ⟨44, _⟩ => ⟨S64x1x14336, .f32⟩
  | .hbm, ⟨45, _⟩ => ⟨S64x64x14336, .f32⟩
  | .hbm, ⟨46, _⟩ => ⟨S64x64x14336, .f32⟩
  | .hbm, ⟨47, _⟩ => ⟨S64x1x14336, .f32⟩
  | .hbm, ⟨48, _⟩ => ⟨S64x64x14336, .f32⟩
  | .hbm, ⟨49, _⟩ => ⟨S64x64x14336, .f32⟩
  | .hbm, ⟨50, _⟩ => ⟨S4096x14336, .f32⟩
  | .hbm, ⟨51, _⟩ => ⟨S14336x4096, .f32⟩
  | .hbm, ⟨52, _⟩ => ⟨S512x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]

class Facts₀ : Prop where
  shapeCasts_S14336x4096_S224x64x4096 : S14336x4096.ShapeCasts S224x64x4096
  bcast_S224x4096_S224x1x4096_0_2 : S224x4096.BroadcastsInDim S224x1x4096 (![0, 2] : Fin 2 → Fin S224x1x4096.rank)
  bcast_S224x1x4096_S224x64x4096_0_1_2 : S224x1x4096.BroadcastsInDim S224x64x4096 (![0, 1, 2] : Fin 3 → Fin S224x64x4096.rank)
  shapeCasts_S224x64x4096_S14336x4096 : S224x64x4096.ShapeCasts S14336x4096
  transposes_S14336x4096_S4096x14336_1_0 : S14336x4096.Transposes [1, 0] S4096x14336
  bcast_S_S512x14336 : S_.BroadcastsInDim S512x14336 (![] : Fin 0 → Fin S512x14336.rank)
  shapeCasts_S4096x14336_S64x64x14336 : S4096x14336.ShapeCasts S64x64x14336
  bcast_S64x14336_S64x1x14336_0_2 : S64x14336.BroadcastsInDim S64x1x14336 (![0, 2] : Fin 2 → Fin S64x1x14336.rank)
  bcast_S64x1x14336_S64x64x14336_0_1_2 : S64x1x14336.BroadcastsInDim S64x64x14336 (![0, 1, 2] : Fin 3 → Fin S64x64x14336.rank)
  shapeCasts_S64x64x14336_S4096x14336 : S64x64x14336.ShapeCasts S4096x14336
  transposes_S4096x14336_S14336x4096_1_0 : S4096x14336.Transposes [1, 0] S14336x4096
  dot_S512x4096_S4096x14336_S512x14336_1_0_0_1_n_n_wf : DotDims.WF S512x4096 S4096x14336 S512x14336 [1] [0] [0] [1] [] []
  dot_S512x14336_S14336x4096_S512x4096_1_0_0_1_n_n_wf : DotDims.WF S512x14336 S14336x4096 S512x4096 [1] [0] [0] [1] [] []

variable [Facts₀]

def dot_S512x4096_S4096x14336_S512x14336_1_0_0_1_n_n : DotDims S512x4096 S4096x14336 S512x14336 where
  lhsContracting := [1]
  rhsContracting := [0]
  lhsNonContracting := [0]
  rhsNonContracting := [1]
  lhsBatch := []
  rhsBatch := []
  wf := dot_S512x4096_S4096x14336_S512x14336_1_0_0_1_n_n_wf
def dot_S512x14336_S14336x4096_S512x4096_1_0_0_1_n_n : DotDims S512x14336 S14336x4096 S512x4096 where
  lhsContracting := [1]
  rhsContracting := [0]
  lhsNonContracting := [0]
  rhsNonContracting := [1]
  lhsBatch := []
  rhsBatch := []
  wf := dot_S512x14336_S14336x4096_S512x4096_1_0_0_1_n_n_wf

class Facts : Prop extends Facts₀ where

variable [Facts]
-- ==== Proof.WGate.lean ====
/-
  The gate projection's kernel, one grid point at a time.

  The grid has 28 points; point `t` is handed the whole activation matrix (window 0, never refetched), rows
  `512 t … 512 t + 511` of the gate weight's codes (window 1) and the eight rows of scales and zero points of their
  groups (windows 2 and 3), and leaves in its output block (window 4: all 512 tokens, columns `512 t … 512 t + 511`) one
  store: the product of the activations with the dequantized rows. Nothing is kept between points, so what the output
  buffer holds after the body is a function of the four input blocks alone, and every input buffer is left as found.
-/
import proofs.«103602_j18279380812578_2_alg».proof.Proof.Gen.Kernel.Launch
import proofs.«103602_j18279380812578_2_alg».proof.Proof.Gen.Kernel.Skeleton
import proofs.«103602_j18279380812578_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

/- The contents of the core's buffers when the region is entered: a parameter, fixed when the three regions are chained. -/
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/- An input window's current buffer holds its block at every point, whether the point fetched it or an earlier one did
   (the block's index has not moved since), provided the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body stores through: the whole output block. -/
abbrev r0_out : Rect S512x512 := Rect.unit (s := S512x512) ![0, 0] S512x512.size inb_S512x512_S512x512_0_0
abbrev r0_x : Rect S512x4096 := Rect.unit (s := S512x4096) ![0, 0] S512x4096.size inb_S512x4096_S512x4096_0_0
abbrev r0_g : Rect S8x4096 := Rect.unit (s := S8x4096) ![0, 0] S8x4096.size inb_S8x4096_S8x4096_0_0

/-- What the output buffer holds after the body, from the four input blocks: its one store, read back whole. -/
def out0_4 (x0 : Vec F S512x4096 .bf16) (x1 : Vec F S512x4096 .i32) (x2 x3 : Vec F S8x4096 .f32) : Vec F S512x512 .bf16 :=
  View.canon [⟨r0_out, k0_pay1 (View.ld x0 r0_x) (View.ld x1 r0_x) (View.ld x2 r0_g) (View.ld x3 r0_g)⟩]

/-- The store covers the buffer. -/
theorem cover0_4 (p0 : Vec F S512x512 .bf16) (y : S512x512.Idx) :
    ∃ pc ∈ ([⟨r0_out, p0⟩] : List (View.Piece (Elt F) S512x512 .bf16)), y ∈ pc.1.set :=
  View.cover_of_tiled [⟨r0_out, p0⟩] S512x512.size (by rfl) y

set_option maxHeartbeats 1000000 in
/-- The body on whole buffers — the inputs' at contents `x0 … x3`, the output's at anything — runs to its end, leaves the
    inputs as they were and the output at `out0_4` of them. -/
theorem sound_kernel0 (c : Dev nD) (E : Set ℕ) (i : grid0.Coords)
    (arg1 : Memref sig .tc .vmem S512x4096 .bf16) (harg1 : arg1.IsWhole) (arg2 : Memref sig .tc .vmem S512x4096 .i32) (harg2 : arg2.IsWhole)
    (arg3 : Memref sig .tc .vmem S8x4096 .f32) (harg3 : arg3.IsWhole) (arg4 : Memref sig .tc .vmem S8x4096 .f32) (harg4 : arg4.IsWhole)
    (arg5 : Memref sig .tc .vmem S512x512 .bf16) (harg5 : arg5.IsWhole)
    (x0 : Vec F S512x4096 .bf16) (x1 : Vec F S512x4096 .i32) (x2 x3 : Vec F S8x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__gate_kernel i arg1 harg1 arg2 harg2 arg3 harg3 arg4 harg4 arg5 harg5) K := by
  simp only [cc0__gate_kernel_eq_skeleton]; unfold cc0__gate_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The region's proof data on core `c`: the arrays as found; after the body at point `t` each input's buffer at its
    block and the output's at `out0_4` of the input blocks; the invariant is the scratch-free one (the scoped buffers
    no window stages and the generator register, neither touched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the run above applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.WUp.lean ====
/-
  The up projection's kernel with the gate folded in, one grid point at a time.

  Same grid and the same four input windows as the gate projection (the up weight's codes, scales and zero points in place
  of the gate's), plus a fifth input window holding the block of the gate array the point is about to consume (all 512
  tokens, columns `512 t … 512 t + 511`). The body's one store into the output block (window 5, the same columns of the
  intermediate array) is `silu(gate) * (x · dequantized rows)`. Nothing is kept between points.
-/
import proofs.«103602_j18279380812578_2_alg».proof.Proof.Gen.Kernel.Launch
import proofs.«103602_j18279380812578_2_alg».proof.Proof.Gen.Kernel.Skeleton
import proofs.«103602_j18279380812578_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

/- The contents of the core's buffers when the region is entered: a parameter, fixed when the three regions are chained. -/
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/- An input window's current buffer holds its block at every point, fetched there or earlier, provided the body leaves
   the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_out : Rect S512x512 := Rect.unit (s := S512x512) ![0, 0] S512x512.size inb_S512x512_S512x512_0_0
abbrev r1_x : Rect S512x4096 := Rect.unit (s := S512x4096) ![0, 0] S512x4096.size inb_S512x4096_S512x4096_0_0
abbrev r1_g : Rect S8x4096 := Rect.unit (s := S8x4096) ![0, 0] S8x4096.size inb_S8x4096_S8x4096_0_0

/-- What the output buffer holds after the body, from the five input blocks: its one store, read back whole. -/
def out1_5 (x0 : Vec F S512x4096 .bf16) (x1 : Vec F S512x4096 .i32) (x2 x3 : Vec F S8x4096 .f32) (x4 : Vec F S512x512 .bf16) : Vec F S512x512 .bf16 :=
  View.canon [⟨r1_out, k1_pay1 (View.ld x0 r1_x) (View.ld x1 r1_x) (View.ld x2 r1_g) (View.ld x3 r1_g) (View.ld x4 r1_out)⟩]

theorem cover1_5 (p0 : Vec F S512x512 .bf16) (y : S512x512.Idx) :
    ∃ pc ∈ ([⟨r1_out, p0⟩] : List (View.Piece (Elt F) S512x512 .bf16)), y ∈ pc.1.set :=
  View.cover_of_tiled [⟨r1_out, p0⟩] S512x512.size (by rfl) y

set_option maxHeartbeats 1000000 in
/-- The body on whole buffers — the inputs' at contents `x0 … x4`, the output's at anything — runs to its end, leaves the
    inputs as they were and the output at `out1_5` of them. -/
theorem sound_kernel1 (c : Dev nD) (E : Set ℕ) (i : grid1.Coords)
    (arg1 : Memref sig .tc .vmem S512x4096 .bf16) (harg1 : arg1.IsWhole) (arg2 : Memref sig .tc .vmem S512x4096 .i32) (harg2 : arg2.IsWhole)
    (arg3 : Memref sig .tc .vmem S8x4096 .f32) (harg3 : arg3.IsWhole) (arg4 : Memref sig .tc .vmem S8x4096 .f32) (harg4 : arg4.IsWhole)
    (arg5 : Memref sig .tc .vmem S512x512 .bf16) (harg5 : arg5.IsWhole) (arg6 : Memref sig .tc .vmem S512x512 .bf16) (harg6 : arg6.IsWhole)
    (x0 : Vec F S512x4096 .bf16) (x1 : Vec F S512x4096 .i32) (x2 x3 : Vec F S8x4096 .f32) (x4 : Vec F S512x512 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__up_combine_kernel i arg1 harg1 arg2 harg2 arg3 harg3 arg4 harg4 arg5 harg5 arg6 harg6) K := by
  simp only [cc1__up_combine_kernel_eq_skeleton]; unfold cc1__up_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The region's proof data on core `c`: the arrays as found; after the body at point `t` each input's buffer at its
    block and the output's at `out1_5` of the input blocks; the scratch-free invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.WDownShared.lean ====
/-
  The down projection's kernel: what is shared by its three cases.

  The grid is 8 × 7, the second coordinate innermost: point `(h, f)` is handed the whole intermediate array (window 0,
  fetched once), the block `(h, f)` of the down weight's codes (512 rows, 2048 columns; window 1) and the matching eight
  rows of scales and zero points (windows 2 and 3). A 512 × 512 scratch is carried from point to point. The body zeroes it
  when `f = 0`, adds to it the product of columns `2048 f … 2048 f + 2047` of the intermediate array with the dequantized
  block, and when `f = 6` copies it into the output block (window 4: all tokens, columns `512 h … 512 h + 511`), which is
  written back at those points only. So the body has three cases — first, middle, last point of a row of the grid — and
  what the scratch holds after a point depends on what the point before left.
-/
import proofs.«103602_j18279380812578_2_alg».proof.Proof.Gen.Kernel.Launch
import proofs.«103602_j18279380812578_2_alg».proof.Proof.Gen.Kernel.Skeleton
import proofs.«103602_j18279380812578_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- "This is the first point of its row of the grid": the body's first conditional, as the body computes it from the
    second grid coordinate. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 7 = 0 :=
  (by decide +kernel : ∀ t : Fin grid2.N, cond2_0 (grid2.coords t) ↔ t.val % 7 = 0)
/-- "This is the last point of its row": the body's second conditional. -/
abbrev cond2_1 (i : grid2.Coords) : Prop := k2_cond2 i = 1#1
theorem hcond2_1 : ∀ t : Fin cfg2.N, cond2_1 (grid2.coords t) ↔ t.val % 7 = 6 :=
  (by decide +kernel : ∀ t : Fin grid2.N, cond2_1 (grid2.coords t) ↔ t.val % 7 = 6)

/- The input windows are live at every point; the output window is live exactly at the last point of a row, and only
   there is it written back. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem idleAt2_4_A : ∀ t : Fin cfg2.N, cond2_0 (grid2.coords t) → ¬cond2_1 (grid2.coords t) → cfg2.idle 4 (grid2.coords t) = true := by decide +kernel
theorem noFlush2_4_A : ∀ t : Fin cfg2.N, cond2_0 (grid2.coords t) → ¬cond2_1 (grid2.coords t) → (cfg2.win 4).flush t = false := by decide +kernel
theorem idleAt2_4_B : ∀ t : Fin cfg2.N, ¬cond2_0 (grid2.coords t) → ¬cond2_1 (grid2.coords t) → cfg2.idle 4 (grid2.coords t) = true := by decide +kernel
theorem noFlush2_4_B : ∀ t : Fin cfg2.N, ¬cond2_0 (grid2.coords t) → ¬cond2_1 (grid2.coords t) → (cfg2.win 4).flush t = false := by decide +kernel
theorem liveAt2_4_C : ∀ t : Fin cfg2.N, ¬cond2_0 (grid2.coords t) → cond2_1 (grid2.coords t) → cfg2.idle 4 (grid2.coords t) = false := by decide +kernel

/-- One buffer of the output window, through which its contents are stated (which one does not matter). -/
abbrev VO2_4 : View sig .tc .vmem S512x512 .f32 := (Memref.whole cc2_stg4_0 : Memref sig .tc .vmem S512x512 .f32).view
abbrev ms2_0 (t : Fin cfg2.N) : Memref sig .tc .vmem S512x14336 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x2048 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8x2048 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S8x2048 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x512 .f32 := win2_4.stage (cfg2.slots t 4)
abbrev hs2_4 (t : Fin cfg2.N) : (ms2_4 t).IsWhole := hstage2_4 ((cfg2.slots t 4).cast nbuf2_4)
/-- The accumulator: a whole scoped buffer of the kernel's own, passed beside the windows. -/
abbrev scM2 : Memref sig .tc .vmem S512x512 .f32 := Memref.whole cc2_scratch0
abbrev VS2 : View sig .tc .vmem S512x512 .f32 := scM2.view

/-- The region's scoped buffers that no window stages, split into the accumulator and all the others (the other two
    regions' staging buffers), the latter never opened. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The scratch-free invariant with the accumulator as a buffer owned at some contents. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

end Region2

end Cert.Kernel.Hand

end
-- ==== Proof.WDownFirst.lean ====
/-
  The down projection's kernel, case A: the first point of a row of the grid — the accumulator is zeroed, then added to; the output block is not touched.
-/
import proofs.«103602_j18279380812578_2_alg».proof.Proof.WDownShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output buffer (`L4`) and in the accumulator (`LS`), last store first, with the
    run that finds them: on whole buffers — the inputs' at their contents, the output's at any contents, which it keeps, the
    accumulator at anything — the body runs to its end, the inputs as they were, the accumulator with
    its pieces written. Each conditional is decided by the case's hypotheses. -/
noncomputable def kernelRun2_A (c : Dev nD) (i : grid2.Coords) (arg2 : Memref sig .tc .vmem S512x14336 .bf16) (harg2 : arg2.IsWhole) (arg3 : Memref sig .tc .vmem S512x2048 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S512x512 .f32) (harg6 : arg6.IsWhole) (arg7 : Memref sig .tc .vmem S512x512 .f32) (harg7 : arg7.IsWhole) (hc0 : cond2_0 i) (hc1 : ¬cond2_1 i)
    (x0 : Vec F S512x14336 .bf16) (x1 : Vec F S512x2048 .i32) (x2 x3 : Vec F S8x2048 .f32) :
    Σ' (L4 : List (View.Piece (Elt F) S512x512 .f32)), { LS : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc2__down_kernel i arg2 harg2 arg3 harg3 arg4 harg4 arg5 harg5 arg6 harg6 arg7 harg7) K } := by
  refine ⟨[], ?_, fun xi4 E K => ?run⟩
  case run =>
    simp only [cc2__down_kernel_eq_skeleton]; unfold cc2__down_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Hand

end
-- ==== Proof.WDownMiddle.lean ====
/-
  The down projection's kernel, case B: a middle point of a row — the accumulator is added to; the output block is not touched.
-/
import proofs.«103602_j18279380812578_2_alg».proof.Proof.WDownFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output buffer (`L4`) and in the accumulator (`LS`), last store first, with the
    run that finds them: on whole buffers — the inputs' at their contents, the output's at any contents, which it keeps, the
    accumulator at what the point before left — the body runs to its end, the inputs as they were, the accumulator with
    its pieces written. Each conditional is decided by the case's hypotheses. -/
noncomputable def kernelRun2_B (c : Dev nD) (i : grid2.Coords) (arg2 : Memref sig .tc .vmem S512x14336 .bf16) (harg2 : arg2.IsWhole) (arg3 : Memref sig .tc .vmem S512x2048 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : ¬cond2_1 i)
    (x0 : Vec F S512x14336 .bf16) (x1 : Vec F S512x2048 .i32) (x2 x3 : Vec F S8x2048 .f32) (xs : Vec F S512x512 .f32) :
    Σ' (L4 : List (View.Piece (Elt F) S512x512 .f32)), { LS : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc2__down_kernel i arg2 harg2 arg3 harg3 arg4 harg4 arg5 harg5 arg6 harg6 arg7 harg7) K } := by
  refine ⟨[], ?_, fun xi4 E K => ?run⟩
  case run =>
    simp only [cc2__down_kernel_eq_skeleton]; unfold cc2__down_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Hand

end
-- ==== Proof.WDownLast.lean ====
/-
  The down projection's kernel, case C: the last point of a row — the accumulator is added to and copied into the output block.
-/
import proofs.«103602_j18279380812578_2_alg».proof.Proof.WDownMiddle

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output buffer (`L4`) and in the accumulator (`LS`), last store first, with the
    run that finds them: on whole buffers — the inputs' at their contents, the output's at anything, the
    accumulator at what the point before left — the body runs to its end, the inputs as they were, the output and the accumulator with
    their pieces written. Each conditional is decided by the case's hypotheses. -/
noncomputable def kernelRun2_C (c : Dev nD) (i : grid2.Coords) (arg2 : Memref sig .tc .vmem S512x14336 .bf16) (harg2 : arg2.IsWhole) (arg3 : Memref sig .tc .vmem S512x2048 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : cond2_1 i)
    (x0 : Vec F S512x14336 .bf16) (x1 : Vec F S512x2048 .i32) (x2 x3 : Vec F S8x2048 .f32) (xs : Vec F S512x512 .f32) :
    Σ' (L4 : List (View.Piece (Elt F) S512x512 .f32)), { LS : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc2__down_kernel i arg2 harg2 arg3 harg3 arg4 harg4 arg5 harg5 arg6 harg6 arg7 harg7) K } := by
  refine ⟨?_, ?_, fun E K => ?run⟩
  case run =>
    simp only [cc2__down_kernel_eq_skeleton]; unfold cc2__down_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS

end Cert.Kernel.Hand

end
-- ==== Proof.WDown.lean ====
/-
  The down projection's kernel, point by point: what the output block and the accumulator hold after each point, the
  invariant that carries the accumulator from one point to the next, and the body's obligation at every point.
-/
import proofs.«103602_j18279380812578_2_alg».proof.Proof.WDownLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/- First point of a row: nothing is stored into the output block (a placeholder nobody consults: the block is neither
   written back there nor read at the next point); the accumulator ends at its two stores read back. -/
def out2_A_4 (c : Dev nD) (i : grid2.Coords) (arg2 : Memref sig .tc .vmem S512x14336 .bf16) (harg2 : arg2.IsWhole) (arg3 : Memref sig .tc .vmem S512x2048 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S512x512 .f32) (harg6 : arg6.IsWhole) (arg7 : Memref sig .tc .vmem S512x512 .f32) (harg7 : arg7.IsWhole) (hc0 : cond2_0 i) (hc1 : ¬cond2_1 i) (x0 : Vec F S512x14336 .bf16) (x1 : Vec F S512x2048 .i32) (x2 x3 : Vec F S8x2048 .f32) : Vec F S512x512 .f32 :=
  VO2_4.read (Elt F) (VO2_4.writes (Elt F) VO2_4.junk (kernelRun2_A c i arg2 harg2 arg3 harg3 arg4 harg4 arg5 harg5 arg6 harg6 arg7 harg7 hc0 hc1 x0 x1 x2 x3).1)
theorem scover2_A (c : Dev nD) (i : grid2.Coords) (arg2 : Memref sig .tc .vmem S512x14336 .bf16) (harg2 : arg2.IsWhole) (arg3 : Memref sig .tc .vmem S512x2048 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S512x512 .f32) (harg6 : arg6.IsWhole) (arg7 : Memref sig .tc .vmem S512x512 .f32) (harg7 : arg7.IsWhole) (hc0 : cond2_0 i) (hc1 : ¬cond2_1 i) (x0 : Vec F S512x14336 .bf16) (x1 : Vec F S512x2048 .i32) (x2 x3 : Vec F S8x2048 .f32) (y : S512x512.Idx) :
    ∃ pc ∈ (kernelRun2_A c i arg2 harg2 arg3 harg3 arg4 harg4 arg5 harg5 arg6 harg6 arg7 harg7 hc0 hc1 x0 x1 x2 x3).2.1, y ∈ pc.1.set :=
  View.cover_of_tiledL (kernelRun2_A c i arg2 harg2 arg3 harg3 arg4 harg4 arg5 harg5 arg6 harg6 arg7 harg7 hc0 hc1 x0 x1 x2 x3).2.1 S512x512.size (by sl_kernel_rfl) y
def sout2_A (c : Dev nD) (i : grid2.Coords) (arg2 : Memref sig .tc .vmem S512x14336 .bf16) (harg2 : arg2.IsWhole) (arg3 : Memref sig .tc .vmem S512x2048 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S512x512 .f32) (harg6 : arg6.IsWhole) (arg7 : Memref sig .tc .vmem S512x512 .f32) (harg7 : arg7.IsWhole) (hc0 : cond2_0 i) (hc1 : ¬cond2_1 i) (x0 : Vec F S512x14336 .bf16) (x1 : Vec F S512x2048 .i32) (x2 x3 : Vec F S8x2048 .f32) : Vec F S512x512 .f32 :=
  VS2.read (Elt F) (VS2.writes (Elt F) VS2.junk (kernelRun2_A c i arg2 harg2 arg3 harg3 arg4 harg4 arg5 harg5 arg6 harg6 arg7 harg7 hc0 hc1 x0 x1 x2 x3).2.1)
/- Middle point of a row: the same, the accumulator's one store over what the point before left (`xs`). -/
def out2_B_4 (c : Dev nD) (i : grid2.Coords) (arg2 : Memref sig .tc .vmem S512x14336 .bf16) (harg2 : arg2.IsWhole) (arg3 : Memref sig .tc .vmem S512x2048 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : ¬cond2_1 i) (x0 : Vec F S512x14336 .bf16) (x1 : Vec F S512x2048 .i32) (x2 x3 : Vec F S8x2048 .f32) (xs : Vec F S512x512 .f32) : Vec F S512x512 .f32 :=
  VO2_4.read (Elt F) (VO2_4.writes (Elt F) VO2_4.junk (kernelRun2_B c i arg2 harg2 arg3 harg3 arg4 harg4 arg5 harg5 arg6 harg6 arg7 harg7 hc0 hc1 x0 x1 x2 x3 xs).1)
theorem scover2_B (c : Dev nD) (i : grid2.Coords) (arg2 : Memref sig .tc .vmem S512x14336 .bf16) (harg2 : arg2.IsWhole) (arg3 : Memref sig .tc .vmem S512x2048 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : ¬cond2_1 i) (x0 : Vec F S512x14336 .bf16) (x1 : Vec F S512x2048 .i32) (x2 x3 : Vec F S8x2048 .f32) (xs : Vec F S512x512 .f32) (y : S512x512.Idx) :
    ∃ pc ∈ (kernelRun2_B c i arg2 harg2 arg3 harg3 arg4 harg4 arg5 harg5 arg6 harg6 arg7 harg7 hc0 hc1 x0 x1 x2 x3 xs).2.1, y ∈ pc.1.set :=
  View.cover_of_tiledL (kernelRun2_B c i arg2 harg2 arg3 harg3 arg4 harg4 arg5 harg5 arg6 harg6 arg7 harg7 hc0 hc1 x0 x1 x2 x3 xs).2.1 S512x512.size (by sl_kernel_rfl) y
def sout2_B (c : Dev nD) (i : grid2.Coords) (arg2 : Memref sig .tc .vmem S512x14336 .bf16) (harg2 : arg2.IsWhole) (arg3 : Memref sig .tc .vmem S512x2048 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : ¬cond2_1 i) (x0 : Vec F S512x14336 .bf16) (x1 : Vec F S512x2048 .i32) (x2 x3 : Vec F S8x2048 .f32) (xs : Vec F S512x512 .f32) : Vec F S512x512 .f32 :=
  VS2.read (Elt F) (VS2.writes (Elt F) VS2.junk (kernelRun2_B c i arg2 harg2 arg3 harg3 arg4 harg4 arg5 harg5 arg6 harg6 arg7 harg7 hc0 hc1 x0 x1 x2 x3 xs).2.1)
/- Last point of a row: the output block ends at its one store read back, the accumulator as in a middle point. -/
theorem cover2_C_4 (c : Dev nD) (i : grid2.Coords) (arg2 : Memref sig .tc .vmem S512x14336 .bf16) (harg2 : arg2.IsWhole) (arg3 : Memref sig .tc .vmem S512x2048 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : cond2_1 i) (x0 : Vec F S512x14336 .bf16) (x1 : Vec F S512x2048 .i32) (x2 x3 : Vec F S8x2048 .f32) (xs : Vec F S512x512 .f32) (y : S512x512.Idx) :
    ∃ pc ∈ (kernelRun2_C c i arg2 harg2 arg3 harg3 arg4 harg4 arg5 harg5 arg6 harg6 arg7 harg7 hc0 hc1 x0 x1 x2 x3 xs).1, y ∈ pc.1.set :=
  View.cover_of_tiledL (kernelRun2_C c i arg2 harg2 arg3 harg3 arg4 harg4 arg5 harg5 arg6 harg6 arg7 harg7 hc0 hc1 x0 x1 x2 x3 xs).1 S512x512.size (by sl_kernel_rfl) y
def out2_C_4 (c : Dev nD) (i : grid2.Coords) (arg2 : Memref sig .tc .vmem S512x14336 .bf16) (harg2 : arg2.IsWhole) (arg3 : Memref sig .tc .vmem S512x2048 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : cond2_1 i) (x0 : Vec F S512x14336 .bf16) (x1 : Vec F S512x2048 .i32) (x2 x3 : Vec F S8x2048 .f32) (xs : Vec F S512x512 .f32) : Vec F S512x512 .f32 :=
  VO2_4.read (Elt F) (VO2_4.writes (Elt F) VO2_4.junk (kernelRun2_C c i arg2 harg2 arg3 harg3 arg4 harg4 arg5 harg5 arg6 harg6 arg7 harg7 hc0 hc1 x0 x1 x2 x3 xs).1)
theorem scover2_C (c : Dev nD) (i : grid2.Coords) (arg2 : Memref sig .tc .vmem S512x14336 .bf16) (harg2 : arg2.IsWhole) (arg3 : Memref sig .tc .vmem S512x2048 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : cond2_1 i) (x0 : Vec F S512x14336 .bf16) (x1 : Vec F S512x2048 .i32) (x2 x3 : Vec F S8x2048 .f32) (xs : Vec F S512x512 .f32) (y : S512x512.Idx) :
    ∃ pc ∈ (kernelRun2_C c i arg2 harg2 arg3 harg3 arg4 harg4 arg5 harg5 arg6 harg6 arg7 harg7 hc0 hc1 x0 x1 x2 x3 xs).2.1, y ∈ pc.1.set :=
  View.cover_of_tiledL (kernelRun2_C c i arg2 harg2 arg3 harg3 arg4 harg4 arg5 harg5 arg6 harg6 arg7 harg7 hc0 hc1 x0 x1 x2 x3 xs).2.1 S512x512.size (by sl_kernel_rfl) y
def sout2_C (c : Dev nD) (i : grid2.Coords) (arg2 : Memref sig .tc .vmem S512x14336 .bf16) (harg2 : arg2.IsWhole) (arg3 : Memref sig .tc .vmem S512x2048 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : cond2_1 i) (x0 : Vec F S512x14336 .bf16) (x1 : Vec F S512x2048 .i32) (x2 x3 : Vec F S8x2048 .f32) (xs : Vec F S512x512 .f32) : Vec F S512x512 .f32 :=
  VS2.read (Elt F) (VS2.writes (Elt F) VS2.junk (kernelRun2_C c i arg2 harg2 arg3 harg3 arg4 harg4 arg5 harg5 arg6 harg6 arg7 harg7 hc0 hc1 x0 x1 x2 x3 xs).2.1)

/-- What the output block's buffer and the accumulator hold after the body at position `n` (a pair, in that order): the
    case the position's residue mod 7 selects, run on the point's buffers and input blocks, the accumulator starting from
    what position `n - 1` left. -/
def outsAt2 (c : Dev nD) : (n : ℕ) → n < cfg2.N → Vec F S512x512 .f32 × Vec F S512x512 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 7 = 0 then
      if h1 : (n + 1) % 7 = 6 then
        False.elim (by omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 7 = 6 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

theorem outsAt2_A (c : Dev nD) (t : Fin cfg2.N) (h0 : t.val % 7 = 0) (h1 : ¬t.val % 7 = 6) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => h1 ((hcond2_1 t).mp h)) (iblk2 V c 0 t) (iblk2 V c 1 t) (iblk2 V c 2 t) (iblk2 V c 3 t), sout2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)
theorem outsAt2_B (c : Dev nD) (t : Fin cfg2.N) (h0 : ¬t.val % 7 = 0) (h1 : ¬t.val % 7 = 6) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2, sout2_B c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
theorem outsAt2_C (c : Dev nD) (t : Fin cfg2.N) (h0 : ¬t.val % 7 = 0) (h1 : t.val % 7 = 6) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the scratch-free one (the accumulator at
    anything); afterwards the accumulator at what the point before left, the other scoped buffers unopened, the generator
    register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2)
      ∗ Pipeline.scopedRestBut (Ix := Unit) (Name := ℕ) (U := UR sig nD τ) (Lvl := ℕ) (Val := Elt F) spec2 c [cc2_scratch0]) ∗ (∃ r, prngReg c r))
theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2)
      ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The region's proof data on core `c`: the arrays as found; after the body at point `t` each input's buffer at its
    block and the output's at `outsAt2`'s first component; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. The inputs' buffers hold their blocks; the position's residue mod 7 says which case the point
    is in; the invariant hands the body the accumulator at what the point before left (at anything at the very first
    point) and takes it back at this point's contents; where the output block is idle its buffer is handed back
    untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 56 := lt_of_lt_of_eq t.isLt (show cfg2.N = 56 from N_2)
  by_cases h0 : t.val % 7 = 0
  · by_cases h1 : t.val % 7 = 6
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_A t ((hcond2_0 t).mpr h0) (fun h => h1 ((hcond2_1 t).mp h))) (noFlush2_4_A t ((hcond2_0 t).mpr h0) (fun h => h1 ((hcond2_1 t).mp h)))]
      rw [outsAt2_A V c t h0 h1]
      unfold sout2_A; (try dsimp only)
      by_cases hz : t.val = 0
      · rw [PhiS2_castSucc V c t, PhiS2_zero V c _ _ hz, PhiA2_eq]
        iintro ⟨⟨⟨HS, Hrest⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS Hrest Hg]
        · isplitl [HS Hrest]
          · isplitl [HS]
            · unfold owns; iexists _; isplitr
              swap; · iexact HS
              ipureintro; exact View.read_writes_of_cover _ _ _ _ _ (scover2_A c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
      · rw [PhiS2_castSucc V c t, PhiS2_pos V c _ _ hz]
        iintro ⟨⟨⟨HS, Hrest⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es, HS⟩⟩
        isplitl [HS Hrest Hg]
        · isplitl [HS Hrest]
          · isplitl [HS]
            · unfold owns; iexists _; isplitr
              swap; · iexact HS
              ipureintro; exact View.read_writes_of_cover _ _ _ _ _ (scover2_A c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
  · by_cases h1 : t.val % 7 = 6
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4_C t (fun h => h0 ((hcond2_0 t).mp h)) ((hcond2_1 t).mpr h1)], after2_4]
      rw [outsAt2_C V c t h0 h1]
      unfold out2_C_4 sout2_C; (try dsimp only)
      have hz : t.val ≠ 0 := by omega
      rw [PhiS2_castSucc V c t, PhiS2_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover2_C c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_C_4 c _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_B t (fun h => h0 ((hcond2_0 t).mp h)) (fun h => h1 ((hcond2_1 t).mp h))) (noFlush2_4_B t (fun h => h0 ((hcond2_0 t).mp h)) (fun h => h1 ((hcond2_1 t).mp h)))]
      rw [outsAt2_B V c t h0 h1]
      unfold sout2_B; (try dsimp only)
      have hz : t.val ≠ 0 := by omega
      · rw [PhiS2_castSucc V c t, PhiS2_pos V c _ _ hz]
        iintro ⟨⟨⟨HS, Hrest⟩, Hg⟩, Ho, ⟨%d0, H0⟩, ⟨%d1, H1⟩, ⟨%d2, H2⟩, ⟨%d3, H3⟩, ⟨%d4, H4⟩⟩
        iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2.2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS Hrest Hg]
        · isplitl [HS Hrest]
          · isplitl [HS]
            · unfold owns; iexists _; isplitr
              swap; · iexact HS
              ipureintro; exact View.read_writes_of_cover _ _ _ _ _ (scover2_B c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4

theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.WChain.lean ====
/-
  The three regions in sequence. @main is one host operation (the activations change format), then the gate projection,
  the up projection with the gate folded in, and the down projection, each a pipelined region. Between two of them the
  core holds every unscoped buffer whole: the launch contents, then the host operation's result, then after each region
  its output array at what its write-backs leave and everything else as it was. Each region is entered from that state
  and left at the next one; the run of the whole program follows, and with it the frame: no host operation and no region
  writes an argument array.
-/
import proofs.«103602_j18279380812578_2_alg».proof.Proof.WGate
import proofs.«103602_j18279380812578_2_alg».proof.Proof.WUp
import proofs.«103602_j18279380812578_2_alg».proof.Proof.WDown

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operation: where region 0 is entered. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its arrays at what the pipeline leaves (the inputs as entered, the output's write-backs folded), every
    other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After region 1: its arrays at what the pipeline leaves (the inputs as entered, the output's write-backs folded), every
    other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After region 2: its arrays at what the pipeline leaves (the inputs as entered, the output's write-backs folded), every
    other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/- The arguments end as launched: the host operation writes none, and a region either reads one through an input window
   or does not touch it. -/
theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
      simp only [hostOps0, List.Forall, StableHlo.nullary_writes, StableHlo.unary_writes, StableHlo.binary_writes, StableHlo.reshape_writes, Finset.mem_singleton]
      exact StableHlo.devRef_ne_of_ne (by decide)))).trans rfl
theorem W2_main_arg0 (c : Dev nD) : W2 m ρ c (Proc.devRef .tc main_arg0) = m ((c : Thread nD τ).loc main_arg0) :=
  (W2_of_ne m ρ c main_arg0 (by decide)).trans (W1_main_arg0 m ρ c)
theorem W3_main_arg0 (c : Dev nD) : W3 m ρ c (Proc.devRef .tc main_arg0) = m ((c : Thread nD τ).loc main_arg0) :=
  (W3_of_ne m ρ c main_arg0 (by decide)).trans (W2_main_arg0 m ρ c)
theorem W4_main_arg0 (c : Dev nD) : W4 m ρ c (Proc.devRef .tc main_arg0) = m ((c : Thread nD τ).loc main_arg0) :=
  (W4_of_ne m ρ c main_arg0 (by decide)).trans (W3_main_arg0 m ρ c)
theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
      simp only [hostOps0, List.Forall, StableHlo.nullary_writes, StableHlo.unary_writes, StableHlo.binary_writes, StableHlo.reshape_writes, Finset.mem_singleton]
      exact StableHlo.devRef_ne_of_ne (by decide)))).trans rfl
theorem W2_main_arg1 (c : Dev nD) : W2 m ρ c (Proc.devRef .tc main_arg1) = m ((c : Thread nD τ).loc main_arg1) :=
  ((W2_arr m ρ c 1).trans (((dat0 (V1 m ρ) c).arrAt_in 1 rfl _).trans (A_eq0 (V1 m ρ) c 1))).trans (W1_main_arg1 m ρ c)
theorem W3_main_arg1 (c : Dev nD) : W3 m ρ c (Proc.devRef .tc main_arg1) = m ((c : Thread nD τ).loc main_arg1) :=
  (W3_of_ne m ρ c main_arg1 (by decide)).trans (W2_main_arg1 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
      simp only [hostOps0, List.Forall, StableHlo.nullary_writes, StableHlo.unary_writes, StableHlo.binary_writes, StableHlo.reshape_writes, Finset.mem_singleton]
      exact StableHlo.devRef_ne_of_ne (by decide)))).trans rfl
theorem W2_main_arg2 (c : Dev nD) : W2 m ρ c (Proc.devRef .tc main_arg2) = m ((c : Thread nD τ).loc main_arg2) :=
  ((W2_arr m ρ c 2).trans (((dat0 (V1 m ρ) c).arrAt_in 2 rfl _).trans (A_eq0 (V1 m ρ) c 2))).trans (W1_main_arg2 m ρ c)
theorem W3_main_arg2 (c : Dev nD) : W3 m ρ c (Proc.devRef .tc main_arg2) = m ((c : Thread nD τ).loc main_arg2) :=
  (W3_of_ne m ρ c main_arg2 (by decide)).trans (W2_main_arg2 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W1_main_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
      simp only [hostOps0, List.Forall, StableHlo.nullary_writes, StableHlo.unary_writes, StableHlo.binary_writes, StableHlo.reshape_writes, Finset.mem_singleton]
      exact StableHlo.devRef_ne_of_ne (by decide)))).trans rfl
theorem W2_main_arg3 (c : Dev nD) : W2 m ρ c (Proc.devRef .tc main_arg3) = m ((c : Thread nD τ).loc main_arg3) :=
  ((W2_arr m ρ c 3).trans (((dat0 (V1 m ρ) c).arrAt_in 3 rfl _).trans (A_eq0 (V1 m ρ) c 3))).trans (W1_main_arg3 m ρ c)
theorem W3_main_arg3 (c : Dev nD) : W3 m ρ c (Proc.devRef .tc main_arg3) = m ((c : Thread nD τ).loc main_arg3) :=
  (W3_of_ne m ρ c main_arg3 (by decide)).trans (W2_main_arg3 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W1_main_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
      simp only [hostOps0, List.Forall, StableHlo.nullary_writes, StableHlo.unary_writes, StableHlo.binary_writes, StableHlo.reshape_writes, Finset.mem_singleton]
      exact StableHlo.devRef_ne_of_ne (by decide)))).trans rfl
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) :=
  (W3_of_ne m ρ c main_arg4 (by decide)).trans (W2_main_arg4 m ρ c)
theorem W4_main_arg4 (c : Dev nD) : W4 m ρ c (Proc.devRef .tc main_arg4) = m ((c : Thread nD τ).loc main_arg4) :=
  ((W4_arr m ρ c 1).trans (((dat2 (V3 m ρ) c).arrAt_in 1 rfl _).trans (A_eq2 (V3 m ρ) c 1))).trans (W3_main_arg4 m ρ c)
theorem W1_main_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
      simp only [hostOps0, List.Forall, StableHlo.nullary_writes, StableHlo.unary_writes, StableHlo.binary_writes, StableHlo.reshape_writes, Finset.mem_singleton]
      exact StableHlo.devRef_ne_of_ne (by decide)))).trans rfl
theorem W2_main_arg5 (c : Dev nD) : W2 m ρ c (Proc.devRef .tc main_arg5) = m ((c : Thread nD τ).loc main_arg5) :=
  (W2_of_ne m ρ c main_arg5 (by decide)).trans (W1_main_arg5 m ρ c)
theorem W3_main_arg5 (c : Dev nD) : W3 m ρ c (Proc.devRef .tc main_arg5) = m ((c : Thread nD τ).loc main_arg5) :=
  (W3_of_ne m ρ c main_arg5 (by decide)).trans (W2_main_arg5 m ρ c)
theorem W4_main_arg5 (c : Dev nD) : W4 m ρ c (Proc.devRef .tc main_arg5) = m ((c : Thread nD τ).loc main_arg5) :=
  ((W4_arr m ρ c 2).trans (((dat2 (V3 m ρ) c).arrAt_in 2 rfl _).trans (A_eq2 (V3 m ρ) c 2))).trans (W3_main_arg5 m ρ c)
theorem W1_main_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
      simp only [hostOps0, List.Forall, StableHlo.nullary_writes, StableHlo.unary_writes, StableHlo.binary_writes, StableHlo.reshape_writes, Finset.mem_singleton]
      exact StableHlo.devRef_ne_of_ne (by decide)))).trans rfl
theorem W2_main_arg6 (c : Dev nD) : W2 m ρ c (Proc.devRef .tc main_arg6) = m ((c : Thread nD τ).loc main_arg6) :=
  (W2_of_ne m ρ c main_arg6 (by decide)).trans (W1_main_arg6 m ρ c)
theorem W3_main_arg6 (c : Dev nD) : W3 m ρ c (Proc.devRef .tc main_arg6) = m ((c : Thread nD τ).loc main_arg6) :=
  (W3_of_ne m ρ c main_arg6 (by decide)).trans (W2_main_arg6 m ρ c)
theorem W4_main_arg6 (c : Dev nD) : W4 m ρ c (Proc.devRef .tc main_arg6) = m ((c : Thread nD τ).loc main_arg6) :=
  ((W4_arr m ρ c 3).trans (((dat2 (V3 m ρ) c).arrAt_in 3 rfl _).trans (A_eq2 (V3 m ρ) c 3))).trans (W3_main_arg6 m ρ c)
theorem W1_main_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
      simp only [hostOps0, List.Forall, StableHlo.nullary_writes, StableHlo.unary_writes, StableHlo.binary_writes, StableHlo.reshape_writes, Finset.mem_singleton]
      exact StableHlo.devRef_ne_of_ne (by decide)))).trans rfl
theorem W2_main_arg7 (c : Dev nD) : W2 m ρ c (Proc.devRef .tc main_arg7) = m ((c : Thread nD τ).loc main_arg7) :=
  (W2_of_ne m ρ c main_arg7 (by decide)).trans (W1_main_arg7 m ρ c)
theorem W3_main_arg7 (c : Dev nD) : W3 m ρ c (Proc.devRef .tc main_arg7) = m ((c : Thread nD τ).loc main_arg7) :=
  ((W3_arr m ρ c 1).trans (((dat1 (V2 m ρ) c).arrAt_in 1 rfl _).trans (A_eq1 (V2 m ρ) c 1))).trans (W2_main_arg7 m ρ c)
theorem W4_main_arg7 (c : Dev nD) : W4 m ρ c (Proc.devRef .tc main_arg7) = m ((c : Thread nD τ).loc main_arg7) :=
  (W4_of_ne m ρ c main_arg7 (by decide)).trans (W3_main_arg7 m ρ c)
theorem W1_main_arg8 (c : Dev nD) : W1 m ρ c (Proc.devRef .tc main_arg8) = m ((c : Thread nD τ).loc main_arg8) :=
  (StableHlo.after_of_forall_not_mem (b := Proc.devRef .tc main_arg8) _ _ (List.forall_iff_forall_mem.mp (by
      simp only [hostOps0, List.Forall, StableHlo.nullary_writes, StableHlo.unary_writes, StableHlo.binary_writes, StableHlo.reshape_writes, Finset.mem_singleton]
      exact StableHlo.devRef_ne_of_ne (by decide)))).trans rfl
theorem W2_main_arg8 (c : Dev nD) : W2 m ρ c (Proc.devRef .tc main_arg8) = m ((c : Thread nD τ).loc main_arg8) :=
  (W2_of_ne m ρ c main_arg8 (by decide)).trans (W1_main_arg8 m ρ c)
theorem W3_main_arg8 (c : Dev nD) : W3 m ρ c (Proc.devRef .tc main_arg8) = m ((c : Thread nD τ).loc main_arg8) :=
  ((W3_arr m ρ c 2).trans (((dat1 (V2 m ρ) c).arrAt_in 2 rfl _).trans (A_eq1 (V2 m ρ) c 2))).trans (W2_main_arg8 m ρ c)
theorem W4_main_arg8 (c : Dev nD) : W4 m ρ c (Proc.devRef .tc main_arg8) = m ((c : Thread nD τ).loc main_arg8) :=
  (W4_of_ne m ρ c main_arg8 (by decide)).trans (W3_main_arg8 m ρ c)
theorem W1_main_arg9 (c : Dev nD) : W1 m ρ c (Proc.devRef .tc main_arg9) = m ((c : Thread nD τ).loc main_arg9) :=
  (StableHlo.after_of_forall_not_mem (b := Proc.devRef .tc main_arg9) _ _ (List.forall_iff_forall_mem.mp (by
      simp only [hostOps0, List.Forall, StableHlo.nullary_writes, StableHlo.unary_writes, StableHlo.binary_writes, StableHlo.reshape_writes, Finset.mem_singleton]
      exact StableHlo.devRef_ne_of_ne (by decide)))).trans rfl
theorem W2_main_arg9 (c : Dev nD) : W2 m ρ c (Proc.devRef .tc main_arg9) = m ((c : Thread nD τ).loc main_arg9) :=
  (W2_of_ne m ρ c main_arg9 (by decide)).trans (W1_main_arg9 m ρ c)
theorem W3_main_arg9 (c : Dev nD) : W3 m ρ c (Proc.devRef .tc main_arg9) = m ((c : Thread nD τ).loc main_arg9) :=
  ((W3_arr m ρ c 3).trans (((dat1 (V2 m ρ) c).arrAt_in 3 rfl _).trans (A_eq1 (V2 m ρ) c 3))).trans (W2_main_arg9 m ρ c)
theorem W4_main_arg9 (c : Dev nD) : W4 m ρ c (Proc.devRef .tc main_arg9) = m ((c : Thread nD τ).loc main_arg9) :=
  (W4_of_ne m ρ c main_arg9 (by decide)).trans (W3_main_arg9 m ρ c)
/-- No region has a prefetched table. -/
abbrev adm : (p : Fin 3) → (pcfgs (F := F) p).Adm := fun p => (cfgs p).toPCfg_adm
/-- Every region's proof data, each at the contents it is entered from. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers between regions: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without what is owed: every unscoped buffer at the last contents, the generator register at some state. -/
abbrev Tₙ (c : Dev nD) : sProp 𝕄 := iprop(StableHlo.held (c : Thread nD τ) (Pipeline.ucRefs τ sig) (W4 m ρ c) ∗ ∃ r, prngReg c r)

/-- The down projection's scoped rest with the accumulator as a buffer owned at some contents. -/
theorem scopedRest2_owns (c : Dev nD) :
    (Pipeline.scopedRest (Ix := Unit) (Name := ℕ) (U := UR sig nD τ) (Lvl := ℕ) (Val := Elt F) spec2 c : sProp 𝕄)
      = iprop((∃ d, owns (c : Thread nD τ) scM2 fullShare d)
          ∗ Pipeline.scopedRestBut (Ix := Unit) (Name := ℕ) (U := UR sig nD τ) (Lvl := ℕ) (Val := Elt F) spec2 c [cc2_scratch0]) := by
  rw [scopedRest2_split]; simp only [scM2, owns_whole]; try rfl

set_option backward.isDefEq.respectTransparency.types false in
/-- The gate projection as a segment: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The up projection as a segment: entered at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The down projection as a segment: entered at `W3`, left at `W4`. Its invariant takes the scoped rest in whole and,
    after the last point, gives it back with the accumulator's contents forgotten. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = PhiS2 (V3 m ρ) c (Fin.last cfg2.N).val (Nat.le_of_lt_succ (Fin.last cfg2.N).isLt) from rfl,
      PhiS2_pos (V3 m ρ) c _ _ (by rw [Fin.val_last]; have : cfg2.N = 56 := N_2; omega)]
    rw [show (Pipeline.scopedRest (Ix := Unit) (Name := ℕ) (U := UR sig nD τ) (Lvl := ℕ) (Val := Elt F) (Pipeline.pin (pcfgs (F := F)) adm 2).spec c : sProp 𝕄)
        = iprop((∃ d, owns (c : Thread nD τ) scM2 fullShare d)
          ∗ Pipeline.scopedRestBut (Ix := Unit) (Name := ℕ) (U := UR sig nD τ) (Lvl := ℕ) (Val := Elt F) spec2 c [cc2_scratch0]) from scopedRest2_owns c]
    iintro ⟨⟨HS, Hrest⟩, Hg⟩
    isplitl [Hg]; · iexact Hg
    isplitr; · iempintro
    isplitl [HS]; · iexists _; iexact HS
    iexact Hrest
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's four segments in order. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final state holds every unscoped buffer of every core at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME, at any float instance: the run above, each argument read back to its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c)⟩) (run_all m ρ)

end Cert.Kernel.Hand

end
-- ==== Proof.Gate.lean ====
/-
  The gate projection's kernel, one grid point at a time.

  The grid has 28 points; point `t` is handed the whole activation matrix (window 0, never refetched), rows
  `512 t … 512 t + 511` of the gate weight's codes (window 1) and the eight rows of scales and zero points of their
  groups (windows 2 and 3), and leaves in its output block (window 4: all 512 tokens, columns `512 t … 512 t + 511`) one
  store: the product of the activations with the dequantized rows. Nothing is kept between points, so what the output
  buffer holds after the body is a function of the four input blocks alone, and every input buffer is left as found.
-/
import proofs.«103602_j18279380812578_2_alg».proof.Proof.Gen.KernelIdeal.Launch
import proofs.«103602_j18279380812578_2_alg».proof.Proof.Gen.KernelIdeal.Skeleton
import proofs.«103602_j18279380812578_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

/- The contents of the core's buffers when the region is entered: a parameter, fixed when the three regions are chained. -/
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/- An input window's current buffer holds its block at every point, whether the point fetched it or an earlier one did
   (the block's index has not moved since), provided the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body stores through: the whole output block. -/
abbrev r0_out : Rect S512x512 := Rect.unit (s := S512x512) ![0, 0] S512x512.size inb_S512x512_S512x512_0_0
abbrev r0_x : Rect S512x4096 := Rect.unit (s := S512x4096) ![0, 0] S512x4096.size inb_S512x4096_S512x4096_0_0
abbrev r0_g : Rect S8x4096 := Rect.unit (s := S8x4096) ![0, 0] S8x4096.size inb_S8x4096_S8x4096_0_0

/-- What the output buffer holds after the body, from the four input blocks: its one store, read back whole. -/
def out0_4 (x0 : Vec F S512x4096 .bf16) (x1 : Vec F S512x4096 .i32) (x2 x3 : Vec F S8x4096 .f32) : Vec F S512x512 .bf16 :=
  View.canon [⟨r0_out, k0_pay1 (View.ld x0 r0_x) (View.ld x1 r0_x) (View.ld x2 r0_g) (View.ld x3 r0_g)⟩]

/-- The store covers the buffer. -/
theorem cover0_4 (p0 : Vec F S512x512 .bf16) (y : S512x512.Idx) :
    ∃ pc ∈ ([⟨r0_out, p0⟩] : List (View.Piece (Elt F) S512x512 .bf16)), y ∈ pc.1.set :=
  View.cover_of_tiled [⟨r0_out, p0⟩] S512x512.size (by rfl) y

set_option maxHeartbeats 1000000 in
/-- The body on whole buffers — the inputs' at contents `x0 … x3`, the output's at anything — runs to its end, leaves the
    inputs as they were and the output at `out0_4` of them. -/
theorem sound_kernel0 (c : Dev nD) (E : Set ℕ) (i : grid0.Coords)
    (arg1 : Memref sig .tc .vmem S512x4096 .bf16) (harg1 : arg1.IsWhole) (arg2 : Memref sig .tc .vmem S512x4096 .i32) (harg2 : arg2.IsWhole)
    (arg3 : Memref sig .tc .vmem S8x4096 .f32) (harg3 : arg3.IsWhole) (arg4 : Memref sig .tc .vmem S8x4096 .f32) (harg4 : arg4.IsWhole)
    (arg5 : Memref sig .tc .vmem S512x512 .bf16) (harg5 : arg5.IsWhole)
    (x0 : Vec F S512x4096 .bf16) (x1 : Vec F S512x4096 .i32) (x2 x3 : Vec F S8x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__gate_kernel i arg1 harg1 arg2 harg2 arg3 harg3 arg4 harg4 arg5 harg5) K := by
  simp only [cc0__gate_kernel_eq_skeleton]; unfold cc0__gate_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The region's proof data on core `c`: the arrays as found; after the body at point `t` each input's buffer at its
    block and the output's at `out0_4` of the input blocks; the invariant is the scratch-free one (the scoped buffers
    no window stages and the generator register, neither touched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the run above applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.Up.lean ====
/-
  The up projection's kernel with the gate folded in, one grid point at a time.

  Same grid and the same four input windows as the gate projection (the up weight's codes, scales and zero points in place
  of the gate's), plus a fifth input window holding the block of the gate array the point is about to consume (all 512
  tokens, columns `512 t … 512 t + 511`). The body's one store into the output block (window 5, the same columns of the
  intermediate array) is `silu(gate) * (x · dequantized rows)`. Nothing is kept between points.
-/
import proofs.«103602_j18279380812578_2_alg».proof.Proof.Gen.KernelIdeal.Launch
import proofs.«103602_j18279380812578_2_alg».proof.Proof.Gen.KernelIdeal.Skeleton
import proofs.«103602_j18279380812578_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

/- The contents of the core's buffers when the region is entered: a parameter, fixed when the three regions are chained. -/
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/- An input window's current buffer holds its block at every point, fetched there or earlier, provided the body leaves
   the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_out : Rect S512x512 := Rect.unit (s := S512x512) ![0, 0] S512x512.size inb_S512x512_S512x512_0_0
abbrev r1_x : Rect S512x4096 := Rect.unit (s := S512x4096) ![0, 0] S512x4096.size inb_S512x4096_S512x4096_0_0
abbrev r1_g : Rect S8x4096 := Rect.unit (s := S8x4096) ![0, 0] S8x4096.size inb_S8x4096_S8x4096_0_0

/-- What the output buffer holds after the body, from the five input blocks: its one store, read back whole. -/
def out1_5 (x0 : Vec F S512x4096 .bf16) (x1 : Vec F S512x4096 .i32) (x2 x3 : Vec F S8x4096 .f32) (x4 : Vec F S512x512 .bf16) : Vec F S512x512 .bf16 :=
  View.canon [⟨r1_out, k1_pay1 (View.ld x0 r1_x) (View.ld x1 r1_x) (View.ld x2 r1_g) (View.ld x3 r1_g) (View.ld x4 r1_out)⟩]

theorem cover1_5 (p0 : Vec F S512x512 .bf16) (y : S512x512.Idx) :
    ∃ pc ∈ ([⟨r1_out, p0⟩] : List (View.Piece (Elt F) S512x512 .bf16)), y ∈ pc.1.set :=
  View.cover_of_tiled [⟨r1_out, p0⟩] S512x512.size (by rfl) y

set_option maxHeartbeats 1000000 in
/-- The body on whole buffers — the inputs' at contents `x0 … x4`, the output's at anything — runs to its end, leaves the
    inputs as they were and the output at `out1_5` of them. -/
theorem sound_kernel1 (c : Dev nD) (E : Set ℕ) (i : grid1.Coords)
    (arg1 : Memref sig .tc .vmem S512x4096 .bf16) (harg1 : arg1.IsWhole) (arg2 : Memref sig .tc .vmem S512x4096 .i32) (harg2 : arg2.IsWhole)
    (arg3 : Memref sig .tc .vmem S8x4096 .f32) (harg3 : arg3.IsWhole) (arg4 : Memref sig .tc .vmem S8x4096 .f32) (harg4 : arg4.IsWhole)
    (arg5 : Memref sig .tc .vmem S512x512 .bf16) (harg5 : arg5.IsWhole) (arg6 : Memref sig .tc .vmem S512x512 .bf16) (harg6 : arg6.IsWhole)
    (x0 : Vec F S512x4096 .bf16) (x1 : Vec F S512x4096 .i32) (x2 x3 : Vec F S8x4096 .f32) (x4 : Vec F S512x512 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__up_combine_kernel i arg1 harg1 arg2 harg2 arg3 harg3 arg4 harg4 arg5 harg5 arg6 harg6) K := by
  simp only [cc1__up_combine_kernel_eq_skeleton]; unfold cc1__up_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The region's proof data on core `c`: the arrays as found; after the body at point `t` each input's buffer at its
    block and the output's at `out1_5` of the input blocks; the scratch-free invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.DownShared.lean ====
/-
  The down projection's kernel: what is shared by its three cases.

  The grid is 8 × 7, the second coordinate innermost: point `(h, f)` is handed the whole intermediate array (window 0,
  fetched once), the block `(h, f)` of the down weight's codes (512 rows, 2048 columns; window 1) and the matching eight
  rows of scales and zero points (windows 2 and 3). A 512 × 512 scratch is carried from point to point. The body zeroes it
  when `f = 0`, adds to it the product of columns `2048 f … 2048 f + 2047` of the intermediate array with the dequantized
  block, and when `f = 6` copies it into the output block (window 4: all tokens, columns `512 h … 512 h + 511`), which is
  written back at those points only. So the body has three cases — first, middle, last point of a row of the grid — and
  what the scratch holds after a point depends on what the point before left.
-/
import proofs.«103602_j18279380812578_2_alg».proof.Proof.Gen.KernelIdeal.Launch
import proofs.«103602_j18279380812578_2_alg».proof.Proof.Gen.KernelIdeal.Skeleton
import proofs.«103602_j18279380812578_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- "This is the first point of its row of the grid": the body's first conditional, as the body computes it from the
    second grid coordinate. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 7 = 0 :=
  (by decide +kernel : ∀ t : Fin grid2.N, cond2_0 (grid2.coords t) ↔ t.val % 7 = 0)
/-- "This is the last point of its row": the body's second conditional. -/
abbrev cond2_1 (i : grid2.Coords) : Prop := k2_cond2 i = 1#1
theorem hcond2_1 : ∀ t : Fin cfg2.N, cond2_1 (grid2.coords t) ↔ t.val % 7 = 6 :=
  (by decide +kernel : ∀ t : Fin grid2.N, cond2_1 (grid2.coords t) ↔ t.val % 7 = 6)

/- The input windows are live at every point; the output window is live exactly at the last point of a row, and only
   there is it written back. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem idleAt2_4_A : ∀ t : Fin cfg2.N, cond2_0 (grid2.coords t) → ¬cond2_1 (grid2.coords t) → cfg2.idle 4 (grid2.coords t) = true := by decide +kernel
theorem noFlush2_4_A : ∀ t : Fin cfg2.N, cond2_0 (grid2.coords t) → ¬cond2_1 (grid2.coords t) → (cfg2.win 4).flush t = false := by decide +kernel
theorem idleAt2_4_B : ∀ t : Fin cfg2.N, ¬cond2_0 (grid2.coords t) → ¬cond2_1 (grid2.coords t) → cfg2.idle 4 (grid2.coords t) = true := by decide +kernel
theorem noFlush2_4_B : ∀ t : Fin cfg2.N, ¬cond2_0 (grid2.coords t) → ¬cond2_1 (grid2.coords t) → (cfg2.win 4).flush t = false := by decide +kernel
theorem liveAt2_4_C : ∀ t : Fin cfg2.N, ¬cond2_0 (grid2.coords t) → cond2_1 (grid2.coords t) → cfg2.idle 4 (grid2.coords t) = false := by decide +kernel

/-- One buffer of the output window, through which its contents are stated (which one does not matter). -/
abbrev VO2_4 : View sig .tc .vmem S512x512 .f32 := (Memref.whole cc2_stg4_0 : Memref sig .tc .vmem S512x512 .f32).view
abbrev ms2_0 (t : Fin cfg2.N) : Memref sig .tc .vmem S512x14336 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x2048 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8x2048 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S8x2048 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x512 .f32 := win2_4.stage (cfg2.slots t 4)
abbrev hs2_4 (t : Fin cfg2.N) : (ms2_4 t).IsWhole := hstage2_4 ((cfg2.slots t 4).cast nbuf2_4)
/-- The accumulator: a whole scoped buffer of the kernel's own, passed beside the windows. -/
abbrev scM2 : Memref sig .tc .vmem S512x512 .f32 := Memref.whole cc2_scratch0
abbrev VS2 : View sig .tc .vmem S512x512 .f32 := scM2.view

/-- The region's scoped buffers that no window stages, split into the accumulator and all the others (the other two
    regions' staging buffers), the latter never opened. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The scratch-free invariant with the accumulator as a buffer owned at some contents. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

end Region2

end Cert.KernelIdeal.Hand

end
-- ==== Proof.DownFirst.lean ====
/-
  The down projection's kernel, case A: the first point of a row of the grid — the accumulator is zeroed, then added to; the output block is not touched.
-/
import proofs.«103602_j18279380812578_2_alg».proof.Proof.DownShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output buffer (`L4`) and in the accumulator (`LS`), last store first, with the
    run that finds them: on whole buffers — the inputs' at their contents, the output's at any contents, which it keeps, the
    accumulator at anything — the body runs to its end, the inputs as they were, the accumulator with
    its pieces written. Each conditional is decided by the case's hypotheses. -/
noncomputable def kernelRun2_A (c : Dev nD) (i : grid2.Coords) (arg2 : Memref sig .tc .vmem S512x14336 .bf16) (harg2 : arg2.IsWhole) (arg3 : Memref sig .tc .vmem S512x2048 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S512x512 .f32) (harg6 : arg6.IsWhole) (arg7 : Memref sig .tc .vmem S512x512 .f32) (harg7 : arg7.IsWhole) (hc0 : cond2_0 i) (hc1 : ¬cond2_1 i)
    (x0 : Vec F S512x14336 .bf16) (x1 : Vec F S512x2048 .i32) (x2 x3 : Vec F S8x2048 .f32) :
    Σ' (L4 : List (View.Piece (Elt F) S512x512 .f32)), { LS : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc2__down_kernel i arg2 harg2 arg3 harg3 arg4 harg4 arg5 harg5 arg6 harg6 arg7 harg7) K } := by
  refine ⟨[], ?_, fun xi4 E K => ?run⟩
  case run =>
    simp only [cc2__down_kernel_eq_skeleton]; unfold cc2__down_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Hand

end
-- ==== Proof.DownMiddle.lean ====
/-
  The down projection's kernel, case B: a middle point of a row — the accumulator is added to; the output block is not touched.
-/
import proofs.«103602_j18279380812578_2_alg».proof.Proof.DownFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output buffer (`L4`) and in the accumulator (`LS`), last store first, with the
    run that finds them: on whole buffers — the inputs' at their contents, the output's at any contents, which it keeps, the
    accumulator at what the point before left — the body runs to its end, the inputs as they were, the accumulator with
    its pieces written. Each conditional is decided by the case's hypotheses. -/
noncomputable def kernelRun2_B (c : Dev nD) (i : grid2.Coords) (arg2 : Memref sig .tc .vmem S512x14336 .bf16) (harg2 : arg2.IsWhole) (arg3 : Memref sig .tc .vmem S512x2048 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : ¬cond2_1 i)
    (x0 : Vec F S512x14336 .bf16) (x1 : Vec F S512x2048 .i32) (x2 x3 : Vec F S8x2048 .f32) (xs : Vec F S512x512 .f32) :
    Σ' (L4 : List (View.Piece (Elt F) S512x512 .f32)), { LS : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc2__down_kernel i arg2 harg2 arg3 harg3 arg4 harg4 arg5 harg5 arg6 harg6 arg7 harg7) K } := by
  refine ⟨[], ?_, fun xi4 E K => ?run⟩
  case run =>
    simp only [cc2__down_kernel_eq_skeleton]; unfold cc2__down_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Hand

end
-- ==== Proof.DownLast.lean ====
/-
  The down projection's kernel, case C: the last point of a row — the accumulator is added to and copied into the output block.
-/
import proofs.«103602_j18279380812578_2_alg».proof.Proof.DownMiddle

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output buffer (`L4`) and in the accumulator (`LS`), last store first, with the
    run that finds them: on whole buffers — the inputs' at their contents, the output's at anything, the
    accumulator at what the point before left — the body runs to its end, the inputs as they were, the output and the accumulator with
    their pieces written. Each conditional is decided by the case's hypotheses. -/
noncomputable def kernelRun2_C (c : Dev nD) (i : grid2.Coords) (arg2 : Memref sig .tc .vmem S512x14336 .bf16) (harg2 : arg2.IsWhole) (arg3 : Memref sig .tc .vmem S512x2048 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : cond2_1 i)
    (x0 : Vec F S512x14336 .bf16) (x1 : Vec F S512x2048 .i32) (x2 x3 : Vec F S8x2048 .f32) (xs : Vec F S512x512 .f32) :
    Σ' (L4 : List (View.Piece (Elt F) S512x512 .f32)), { LS : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc2__down_kernel i arg2 harg2 arg3 harg3 arg4 harg4 arg5 harg5 arg6 harg6 arg7 harg7) K } := by
  refine ⟨?_, ?_, fun E K => ?run⟩
  case run =>
    simp only [cc2__down_kernel_eq_skeleton]; unfold cc2__down_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS

end Cert.KernelIdeal.Hand

end
-- ==== Proof.Down.lean ====
/-
  The down projection's kernel, point by point: what the output block and the accumulator hold after each point, the
  invariant that carries the accumulator from one point to the next, and the body's obligation at every point.
-/
import proofs.«103602_j18279380812578_2_alg».proof.Proof.DownLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/- First point of a row: nothing is stored into the output block (a placeholder nobody consults: the block is neither
   written back there nor read at the next point); the accumulator ends at its two stores read back. -/
def out2_A_4 (c : Dev nD) (i : grid2.Coords) (arg2 : Memref sig .tc .vmem S512x14336 .bf16) (harg2 : arg2.IsWhole) (arg3 : Memref sig .tc .vmem S512x2048 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S512x512 .f32) (harg6 : arg6.IsWhole) (arg7 : Memref sig .tc .vmem S512x512 .f32) (harg7 : arg7.IsWhole) (hc0 : cond2_0 i) (hc1 : ¬cond2_1 i) (x0 : Vec F S512x14336 .bf16) (x1 : Vec F S512x2048 .i32) (x2 x3 : Vec F S8x2048 .f32) : Vec F S512x512 .f32 :=
  VO2_4.read (Elt F) (VO2_4.writes (Elt F) VO2_4.junk (kernelRun2_A c i arg2 harg2 arg3 harg3 arg4 harg4 arg5 harg5 arg6 harg6 arg7 harg7 hc0 hc1 x0 x1 x2 x3).1)
theorem scover2_A (c : Dev nD) (i : grid2.Coords) (arg2 : Memref sig .tc .vmem S512x14336 .bf16) (harg2 : arg2.IsWhole) (arg3 : Memref sig .tc .vmem S512x2048 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S512x512 .f32) (harg6 : arg6.IsWhole) (arg7 : Memref sig .tc .vmem S512x512 .f32) (harg7 : arg7.IsWhole) (hc0 : cond2_0 i) (hc1 : ¬cond2_1 i) (x0 : Vec F S512x14336 .bf16) (x1 : Vec F S512x2048 .i32) (x2 x3 : Vec F S8x2048 .f32) (y : S512x512.Idx) :
    ∃ pc ∈ (kernelRun2_A c i arg2 harg2 arg3 harg3 arg4 harg4 arg5 harg5 arg6 harg6 arg7 harg7 hc0 hc1 x0 x1 x2 x3).2.1, y ∈ pc.1.set :=
  View.cover_of_tiledL (kernelRun2_A c i arg2 harg2 arg3 harg3 arg4 harg4 arg5 harg5 arg6 harg6 arg7 harg7 hc0 hc1 x0 x1 x2 x3).2.1 S512x512.size (by sl_kernel_rfl) y
def sout2_A (c : Dev nD) (i : grid2.Coords) (arg2 : Memref sig .tc .vmem S512x14336 .bf16) (harg2 : arg2.IsWhole) (arg3 : Memref sig .tc .vmem S512x2048 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S512x512 .f32) (harg6 : arg6.IsWhole) (arg7 : Memref sig .tc .vmem S512x512 .f32) (harg7 : arg7.IsWhole) (hc0 : cond2_0 i) (hc1 : ¬cond2_1 i) (x0 : Vec F S512x14336 .bf16) (x1 : Vec F S512x2048 .i32) (x2 x3 : Vec F S8x2048 .f32) : Vec F S512x512 .f32 :=
  VS2.read (Elt F) (VS2.writes (Elt F) VS2.junk (kernelRun2_A c i arg2 harg2 arg3 harg3 arg4 harg4 arg5 harg5 arg6 harg6 arg7 harg7 hc0 hc1 x0 x1 x2 x3).2.1)
/- Middle point of a row: the same, the accumulator's one store over what the point before left (`xs`). -/
def out2_B_4 (c : Dev nD) (i : grid2.Coords) (arg2 : Memref sig .tc .vmem S512x14336 .bf16) (harg2 : arg2.IsWhole) (arg3 : Memref sig .tc .vmem S512x2048 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : ¬cond2_1 i) (x0 : Vec F S512x14336 .bf16) (x1 : Vec F S512x2048 .i32) (x2 x3 : Vec F S8x2048 .f32) (xs : Vec F S512x512 .f32) : Vec F S512x512 .f32 :=
  VO2_4.read (Elt F) (VO2_4.writes (Elt F) VO2_4.junk (kernelRun2_B c i arg2 harg2 arg3 harg3 arg4 harg4 arg5 harg5 arg6 harg6 arg7 harg7 hc0 hc1 x0 x1 x2 x3 xs).1)
theorem scover2_B (c : Dev nD) (i : grid2.Coords) (arg2 : Memref sig .tc .vmem S512x14336 .bf16) (harg2 : arg2.IsWhole) (arg3 : Memref sig .tc .vmem S512x2048 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : ¬cond2_1 i) (x0 : Vec F S512x14336 .bf16) (x1 : Vec F S512x2048 .i32) (x2 x3 : Vec F S8x2048 .f32) (xs : Vec F S512x512 .f32) (y : S512x512.Idx) :
    ∃ pc ∈ (kernelRun2_B c i arg2 harg2 arg3 harg3 arg4 harg4 arg5 harg5 arg6 harg6 arg7 harg7 hc0 hc1 x0 x1 x2 x3 xs).2.1, y ∈ pc.1.set :=
  View.cover_of_tiledL (kernelRun2_B c i arg2 harg2 arg3 harg3 arg4 harg4 arg5 harg5 arg6 harg6 arg7 harg7 hc0 hc1 x0 x1 x2 x3 xs).2.1 S512x512.size (by sl_kernel_rfl) y
def sout2_B (c : Dev nD) (i : grid2.Coords) (arg2 : Memref sig .tc .vmem S512x14336 .bf16) (harg2 : arg2.IsWhole) (arg3 : Memref sig .tc .vmem S512x2048 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : ¬cond2_1 i) (x0 : Vec F S512x14336 .bf16) (x1 : Vec F S512x2048 .i32) (x2 x3 : Vec F S8x2048 .f32) (xs : Vec F S512x512 .f32) : Vec F S512x512 .f32 :=
  VS2.read (Elt F) (VS2.writes (Elt F) VS2.junk (kernelRun2_B c i arg2 harg2 arg3 harg3 arg4 harg4 arg5 harg5 arg6 harg6 arg7 harg7 hc0 hc1 x0 x1 x2 x3 xs).2.1)
/- Last point of a row: the output block ends at its one store read back, the accumulator as in a middle point. -/
theorem cover2_C_4 (c : Dev nD) (i : grid2.Coords) (arg2 : Memref sig .tc .vmem S512x14336 .bf16) (harg2 : arg2.IsWhole) (arg3 : Memref sig .tc .vmem S512x2048 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : cond2_1 i) (x0 : Vec F S512x14336 .bf16) (x1 : Vec F S512x2048 .i32) (x2 x3 : Vec F S8x2048 .f32) (xs : Vec F S512x512 .f32) (y : S512x512.Idx) :
    ∃ pc ∈ (kernelRun2_C c i arg2 harg2 arg3 harg3 arg4 harg4 arg5 harg5 arg6 harg6 arg7 harg7 hc0 hc1 x0 x1 x2 x3 xs).1, y ∈ pc.1.set :=
  View.cover_of_tiledL (kernelRun2_C c i arg2 harg2 arg3 harg3 arg4 harg4 arg5 harg5 arg6 harg6 arg7 harg7 hc0 hc1 x0 x1 x2 x3 xs).1 S512x512.size (by sl_kernel_rfl) y
def out2_C_4 (c : Dev nD) (i : grid2.Coords) (arg2 : Memref sig .tc .vmem S512x14336 .bf16) (harg2 : arg2.IsWhole) (arg3 : Memref sig .tc .vmem S512x2048 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : cond2_1 i) (x0 : Vec F S512x14336 .bf16) (x1 : Vec F S512x2048 .i32) (x2 x3 : Vec F S8x2048 .f32) (xs : Vec F S512x512 .f32) : Vec F S512x512 .f32 :=
  VO2_4.read (Elt F) (VO2_4.writes (Elt F) VO2_4.junk (kernelRun2_C c i arg2 harg2 arg3 harg3 arg4 harg4 arg5 harg5 arg6 harg6 arg7 harg7 hc0 hc1 x0 x1 x2 x3 xs).1)
theorem scover2_C (c : Dev nD) (i : grid2.Coords) (arg2 : Memref sig .tc .vmem S512x14336 .bf16) (harg2 : arg2.IsWhole) (arg3 : Memref sig .tc .vmem S512x2048 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : cond2_1 i) (x0 : Vec F S512x14336 .bf16) (x1 : Vec F S512x2048 .i32) (x2 x3 : Vec F S8x2048 .f32) (xs : Vec F S512x512 .f32) (y : S512x512.Idx) :
    ∃ pc ∈ (kernelRun2_C c i arg2 harg2 arg3 harg3 arg4 harg4 arg5 harg5 arg6 harg6 arg7 harg7 hc0 hc1 x0 x1 x2 x3 xs).2.1, y ∈ pc.1.set :=
  View.cover_of_tiledL (kernelRun2_C c i arg2 harg2 arg3 harg3 arg4 harg4 arg5 harg5 arg6 harg6 arg7 harg7 hc0 hc1 x0 x1 x2 x3 xs).2.1 S512x512.size (by sl_kernel_rfl) y
def sout2_C (c : Dev nD) (i : grid2.Coords) (arg2 : Memref sig .tc .vmem S512x14336 .bf16) (harg2 : arg2.IsWhole) (arg3 : Memref sig .tc .vmem S512x2048 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : cond2_1 i) (x0 : Vec F S512x14336 .bf16) (x1 : Vec F S512x2048 .i32) (x2 x3 : Vec F S8x2048 .f32) (xs : Vec F S512x512 .f32) : Vec F S512x512 .f32 :=
  VS2.read (Elt F) (VS2.writes (Elt F) VS2.junk (kernelRun2_C c i arg2 harg2 arg3 harg3 arg4 harg4 arg5 harg5 arg6 harg6 arg7 harg7 hc0 hc1 x0 x1 x2 x3 xs).2.1)

/-- What the output block's buffer and the accumulator hold after the body at position `n` (a pair, in that order): the
    case the position's residue mod 7 selects, run on the point's buffers and input blocks, the accumulator starting from
    what position `n - 1` left. -/
def outsAt2 (c : Dev nD) : (n : ℕ) → n < cfg2.N → Vec F S512x512 .f32 × Vec F S512x512 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 7 = 0 then
      if h1 : (n + 1) % 7 = 6 then
        False.elim (by omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 7 = 6 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

theorem outsAt2_A (c : Dev nD) (t : Fin cfg2.N) (h0 : t.val % 7 = 0) (h1 : ¬t.val % 7 = 6) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => h1 ((hcond2_1 t).mp h)) (iblk2 V c 0 t) (iblk2 V c 1 t) (iblk2 V c 2 t) (iblk2 V c 3 t), sout2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)
theorem outsAt2_B (c : Dev nD) (t : Fin cfg2.N) (h0 : ¬t.val % 7 = 0) (h1 : ¬t.val % 7 = 6) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2, sout2_B c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
theorem outsAt2_C (c : Dev nD) (t : Fin cfg2.N) (h0 : ¬t.val % 7 = 0) (h1 : t.val % 7 = 6) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the scratch-free one (the accumulator at
    anything); afterwards the accumulator at what the point before left, the other scoped buffers unopened, the generator
    register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2)
      ∗ Pipeline.scopedRestBut (Ix := Unit) (Name := ℕ) (U := UR sig nD τ) (Lvl := ℕ) (Val := Elt F) spec2 c [cc2_scratch0]) ∗ (∃ r, prngReg c r))
theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2)
      ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The region's proof data on core `c`: the arrays as found; after the body at point `t` each input's buffer at its
    block and the output's at `outsAt2`'s first component; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. The inputs' buffers hold their blocks; the position's residue mod 7 says which case the point
    is in; the invariant hands the body the accumulator at what the point before left (at anything at the very first
    point) and takes it back at this point's contents; where the output block is idle its buffer is handed back
    untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 56 := lt_of_lt_of_eq t.isLt (show cfg2.N = 56 from N_2)
  by_cases h0 : t.val % 7 = 0
  · by_cases h1 : t.val % 7 = 6
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_A t ((hcond2_0 t).mpr h0) (fun h => h1 ((hcond2_1 t).mp h))) (noFlush2_4_A t ((hcond2_0 t).mpr h0) (fun h => h1 ((hcond2_1 t).mp h)))]
      rw [outsAt2_A V c t h0 h1]
      unfold sout2_A; (try dsimp only)
      by_cases hz : t.val = 0
      · rw [PhiS2_castSucc V c t, PhiS2_zero V c _ _ hz, PhiA2_eq]
        iintro ⟨⟨⟨HS, Hrest⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS Hrest Hg]
        · isplitl [HS Hrest]
          · isplitl [HS]
            · unfold owns; iexists _; isplitr
              swap; · iexact HS
              ipureintro; exact View.read_writes_of_cover _ _ _ _ _ (scover2_A c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
      · rw [PhiS2_castSucc V c t, PhiS2_pos V c _ _ hz]
        iintro ⟨⟨⟨HS, Hrest⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es, HS⟩⟩
        isplitl [HS Hrest Hg]
        · isplitl [HS Hrest]
          · isplitl [HS]
            · unfold owns; iexists _; isplitr
              swap; · iexact HS
              ipureintro; exact View.read_writes_of_cover _ _ _ _ _ (scover2_A c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
  · by_cases h1 : t.val % 7 = 6
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4_C t (fun h => h0 ((hcond2_0 t).mp h)) ((hcond2_1 t).mpr h1)], after2_4]
      rw [outsAt2_C V c t h0 h1]
      unfold out2_C_4 sout2_C; (try dsimp only)
      have hz : t.val ≠ 0 := by omega
      rw [PhiS2_castSucc V c t, PhiS2_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover2_C c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_C_4 c _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_B t (fun h => h0 ((hcond2_0 t).mp h)) (fun h => h1 ((hcond2_1 t).mp h))) (noFlush2_4_B t (fun h => h0 ((hcond2_0 t).mp h)) (fun h => h1 ((hcond2_1 t).mp h)))]
      rw [outsAt2_B V c t h0 h1]
      unfold sout2_B; (try dsimp only)
      have hz : t.val ≠ 0 := by omega
      · rw [PhiS2_castSucc V c t, PhiS2_pos V c _ _ hz]
        iintro ⟨⟨⟨HS, Hrest⟩, Hg⟩, Ho, ⟨%d0, H0⟩, ⟨%d1, H1⟩, ⟨%d2, H2⟩, ⟨%d3, H3⟩, ⟨%d4, H4⟩⟩
        iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2.2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS Hrest Hg]
        · isplitl [HS Hrest]
          · isplitl [HS]
            · unfold owns; iexists _; isplitr
              swap; · iexact HS
              ipureintro; exact View.read_writes_of_cover _ _ _ _ _ (scover2_B c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4

theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.Chain.lean ====
/-
  The three regions in sequence. @main is one host operation (the activations change format), then the gate projection,
  the up projection with the gate folded in, and the down projection, each a pipelined region. Between two of them the
  core holds every unscoped buffer whole: the launch contents, then the host operation's result, then after each region
  its output array at what its write-backs leave and everything else as it was. Each region is entered from that state
  and left at the next one; the run of the whole program follows, and with it the frame: no host operation and no region
  writes an argument array.
-/
import proofs.«103602_j18279380812578_2_alg».proof.Proof.Gate
import proofs.«103602_j18279380812578_2_alg».proof.Proof.Up
import proofs.«103602_j18279380812578_2_alg».proof.Proof.Down

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operation: where region 0 is entered. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its arrays at what the pipeline leaves (the inputs as entered, the output's write-backs folded), every
    other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After region 1: its arrays at what the pipeline leaves (the inputs as entered, the output's write-backs folded), every
    other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After region 2: its arrays at what the pipeline leaves (the inputs as entered, the output's write-backs folded), every
    other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/- The arguments end as launched: the host operation writes none, and a region either reads one through an input window
   or does not touch it. -/
theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
      simp only [hostOps0, List.Forall, StableHlo.nullary_writes, StableHlo.unary_writes, StableHlo.binary_writes, StableHlo.reshape_writes, Finset.mem_singleton]
      exact StableHlo.devRef_ne_of_ne (by decide)))).trans rfl
theorem W2_main_arg0 (c : Dev nD) : W2 m ρ c (Proc.devRef .tc main_arg0) = m ((c : Thread nD τ).loc main_arg0) :=
  (W2_of_ne m ρ c main_arg0 (by decide)).trans (W1_main_arg0 m ρ c)
theorem W3_main_arg0 (c : Dev nD) : W3 m ρ c (Proc.devRef .tc main_arg0) = m ((c : Thread nD τ).loc main_arg0) :=
  (W3_of_ne m ρ c main_arg0 (by decide)).trans (W2_main_arg0 m ρ c)
theorem W4_main_arg0 (c : Dev nD) : W4 m ρ c (Proc.devRef .tc main_arg0) = m ((c : Thread nD τ).loc main_arg0) :=
  (W4_of_ne m ρ c main_arg0 (by decide)).trans (W3_main_arg0 m ρ c)
theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
      simp only [hostOps0, List.Forall, StableHlo.nullary_writes, StableHlo.unary_writes, StableHlo.binary_writes, StableHlo.reshape_writes, Finset.mem_singleton]
      exact StableHlo.devRef_ne_of_ne (by decide)))).trans rfl
theorem W2_main_arg1 (c : Dev nD) : W2 m ρ c (Proc.devRef .tc main_arg1) = m ((c : Thread nD τ).loc main_arg1) :=
  ((W2_arr m ρ c 1).trans (((dat0 (V1 m ρ) c).arrAt_in 1 rfl _).trans (A_eq0 (V1 m ρ) c 1))).trans (W1_main_arg1 m ρ c)
theorem W3_main_arg1 (c : Dev nD) : W3 m ρ c (Proc.devRef .tc main_arg1) = m ((c : Thread nD τ).loc main_arg1) :=
  (W3_of_ne m ρ c main_arg1 (by decide)).trans (W2_main_arg1 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
      simp only [hostOps0, List.Forall, StableHlo.nullary_writes, StableHlo.unary_writes, StableHlo.binary_writes, StableHlo.reshape_writes, Finset.mem_singleton]
      exact StableHlo.devRef_ne_of_ne (by decide)))).trans rfl
theorem W2_main_arg2 (c : Dev nD) : W2 m ρ c (Proc.devRef .tc main_arg2) = m ((c : Thread nD τ).loc main_arg2) :=
  ((W2_arr m ρ c 2).trans (((dat0 (V1 m ρ) c).arrAt_in 2 rfl _).trans (A_eq0 (V1 m ρ) c 2))).trans (W1_main_arg2 m ρ c)
theorem W3_main_arg2 (c : Dev nD) : W3 m ρ c (Proc.devRef .tc main_arg2) = m ((c : Thread nD τ).loc main_arg2) :=
  (W3_of_ne m ρ c main_arg2 (by decide)).trans (W2_main_arg2 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W1_main_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
      simp only [hostOps0, List.Forall, StableHlo.nullary_writes, StableHlo.unary_writes, StableHlo.binary_writes, StableHlo.reshape_writes, Finset.mem_singleton]
      exact StableHlo.devRef_ne_of_ne (by decide)))).trans rfl
theorem W2_main_arg3 (c : Dev nD) : W2 m ρ c (Proc.devRef .tc main_arg3) = m ((c : Thread nD τ).loc main_arg3) :=
  ((W2_arr m ρ c 3).trans (((dat0 (V1 m ρ) c).arrAt_in 3 rfl _).trans (A_eq0 (V1 m ρ) c 3))).trans (W1_main_arg3 m ρ c)
theorem W3_main_arg3 (c : Dev nD) : W3 m ρ c (Proc.devRef .tc main_arg3) = m ((c : Thread nD τ).loc main_arg3) :=
  (W3_of_ne m ρ c main_arg3 (by decide)).trans (W2_main_arg3 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W1_main_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
      simp only [hostOps0, List.Forall, StableHlo.nullary_writes, StableHlo.unary_writes, StableHlo.binary_writes, StableHlo.reshape_writes, Finset.mem_singleton]
      exact StableHlo.devRef_ne_of_ne (by decide)))).trans rfl
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) :=
  (W3_of_ne m ρ c main_arg4 (by decide)).trans (W2_main_arg4 m ρ c)
theorem W4_main_arg4 (c : Dev nD) : W4 m ρ c (Proc.devRef .tc main_arg4) = m ((c : Thread nD τ).loc main_arg4) :=
  ((W4_arr m ρ c 1).trans (((dat2 (V3 m ρ) c).arrAt_in 1 rfl _).trans (A_eq2 (V3 m ρ) c 1))).trans (W3_main_arg4 m ρ c)
theorem W1_main_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
      simp only [hostOps0, List.Forall, StableHlo.nullary_writes, StableHlo.unary_writes, StableHlo.binary_writes, StableHlo.reshape_writes, Finset.mem_singleton]
      exact StableHlo.devRef_ne_of_ne (by decide)))).trans rfl
theorem W2_main_arg5 (c : Dev nD) : W2 m ρ c (Proc.devRef .tc main_arg5) = m ((c : Thread nD τ).loc main_arg5) :=
  (W2_of_ne m ρ c main_arg5 (by decide)).trans (W1_main_arg5 m ρ c)
theorem W3_main_arg5 (c : Dev nD) : W3 m ρ c (Proc.devRef .tc main_arg5) = m ((c : Thread nD τ).loc main_arg5) :=
  (W3_of_ne m ρ c main_arg5 (by decide)).trans (W2_main_arg5 m ρ c)
theorem W4_main_arg5 (c : Dev nD) : W4 m ρ c (Proc.devRef .tc main_arg5) = m ((c : Thread nD τ).loc main_arg5) :=
  ((W4_arr m ρ c 2).trans (((dat2 (V3 m ρ) c).arrAt_in 2 rfl _).trans (A_eq2 (V3 m ρ) c 2))).trans (W3_main_arg5 m ρ c)
theorem W1_main_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
      simp only [hostOps0, List.Forall, StableHlo.nullary_writes, StableHlo.unary_writes, StableHlo.binary_writes, StableHlo.reshape_writes, Finset.mem_singleton]
      exact StableHlo.devRef_ne_of_ne (by decide)))).trans rfl
theorem W2_main_arg6 (c : Dev nD) : W2 m ρ c (Proc.devRef .tc main_arg6) = m ((c : Thread nD τ).loc main_arg6) :=
  (W2_of_ne m ρ c main_arg6 (by decide)).trans (W1_main_arg6 m ρ c)
theorem W3_main_arg6 (c : Dev nD) : W3 m ρ c (Proc.devRef .tc main_arg6) = m ((c : Thread nD τ).loc main_arg6) :=
  (W3_of_ne m ρ c main_arg6 (by decide)).trans (W2_main_arg6 m ρ c)
theorem W4_main_arg6 (c : Dev nD) : W4 m ρ c (Proc.devRef .tc main_arg6) = m ((c : Thread nD τ).loc main_arg6) :=
  ((W4_arr m ρ c 3).trans (((dat2 (V3 m ρ) c).arrAt_in 3 rfl _).trans (A_eq2 (V3 m ρ) c 3))).trans (W3_main_arg6 m ρ c)
theorem W1_main_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
      simp only [hostOps0, List.Forall, StableHlo.nullary_writes, StableHlo.unary_writes, StableHlo.binary_writes, StableHlo.reshape_writes, Finset.mem_singleton]
      exact StableHlo.devRef_ne_of_ne (by decide)))).trans rfl
theorem W2_main_arg7 (c : Dev nD) : W2 m ρ c (Proc.devRef .tc main_arg7) = m ((c : Thread nD τ).loc main_arg7) :=
  (W2_of_ne m ρ c main_arg7 (by decide)).trans (W1_main_arg7 m ρ c)
theorem W3_main_arg7 (c : Dev nD) : W3 m ρ c (Proc.devRef .tc main_arg7) = m ((c : Thread nD τ).loc main_arg7) :=
  ((W3_arr m ρ c 1).trans (((dat1 (V2 m ρ) c).arrAt_in 1 rfl _).trans (A_eq1 (V2 m ρ) c 1))).trans (W2_main_arg7 m ρ c)
theorem W4_main_arg7 (c : Dev nD) : W4 m ρ c (Proc.devRef .tc main_arg7) = m ((c : Thread nD τ).loc main_arg7) :=
  (W4_of_ne m ρ c main_arg7 (by decide)).trans (W3_main_arg7 m ρ c)
theorem W1_main_arg8 (c : Dev nD) : W1 m ρ c (Proc.devRef .tc main_arg8) = m ((c : Thread nD τ).loc main_arg8) :=
  (StableHlo.after_of_forall_not_mem (b := Proc.devRef .tc main_arg8) _ _ (List.forall_iff_forall_mem.mp (by
      simp only [hostOps0, List.Forall, StableHlo.nullary_writes, StableHlo.unary_writes, StableHlo.binary_writes, StableHlo.reshape_writes, Finset.mem_singleton]
      exact StableHlo.devRef_ne_of_ne (by decide)))).trans rfl
theorem W2_main_arg8 (c : Dev nD) : W2 m ρ c (Proc.devRef .tc main_arg8) = m ((c : Thread nD τ).loc main_arg8) :=
  (W2_of_ne m ρ c main_arg8 (by decide)).trans (W1_main_arg8 m ρ c)
theorem W3_main_arg8 (c : Dev nD) : W3 m ρ c (Proc.devRef .tc main_arg8) = m ((c : Thread nD τ).loc main_arg8) :=
  ((W3_arr m ρ c 2).trans (((dat1 (V2 m ρ) c).arrAt_in 2 rfl _).trans (A_eq1 (V2 m ρ) c 2))).trans (W2_main_arg8 m ρ c)
theorem W4_main_arg8 (c : Dev nD) : W4 m ρ c (Proc.devRef .tc main_arg8) = m ((c : Thread nD τ).loc main_arg8) :=
  (W4_of_ne m ρ c main_arg8 (by decide)).trans (W3_main_arg8 m ρ c)
theorem W1_main_arg9 (c : Dev nD) : W1 m ρ c (Proc.devRef .tc main_arg9) = m ((c : Thread nD τ).loc main_arg9) :=
  (StableHlo.after_of_forall_not_mem (b := Proc.devRef .tc main_arg9) _ _ (List.forall_iff_forall_mem.mp (by
      simp only [hostOps0, List.Forall, StableHlo.nullary_writes, StableHlo.unary_writes, StableHlo.binary_writes, StableHlo.reshape_writes, Finset.mem_singleton]
      exact StableHlo.devRef_ne_of_ne (by decide)))).trans rfl
theorem W2_main_arg9 (c : Dev nD) : W2 m ρ c (Proc.devRef .tc main_arg9) = m ((c : Thread nD τ).loc main_arg9) :=
  (W2_of_ne m ρ c main_arg9 (by decide)).trans (W1_main_arg9 m ρ c)
theorem W3_main_arg9 (c : Dev nD) : W3 m ρ c (Proc.devRef .tc main_arg9) = m ((c : Thread nD τ).loc main_arg9) :=
  ((W3_arr m ρ c 3).trans (((dat1 (V2 m ρ) c).arrAt_in 3 rfl _).trans (A_eq1 (V2 m ρ) c 3))).trans (W2_main_arg9 m ρ c)
theorem W4_main_arg9 (c : Dev nD) : W4 m ρ c (Proc.devRef .tc main_arg9) = m ((c : Thread nD τ).loc main_arg9) :=
  (W4_of_ne m ρ c main_arg9 (by decide)).trans (W3_main_arg9 m ρ c)
/-- No region has a prefetched table. -/
abbrev adm : (p : Fin 3) → (pcfgs (F := F) p).Adm := fun p => (cfgs p).toPCfg_adm
/-- Every region's proof data, each at the contents it is entered from. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers between regions: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without what is owed: every unscoped buffer at the last contents, the generator register at some state. -/
abbrev Tₙ (c : Dev nD) : sProp 𝕄 := iprop(StableHlo.held (c : Thread nD τ) (Pipeline.ucRefs τ sig) (W4 m ρ c) ∗ ∃ r, prngReg c r)

/-- The down projection's scoped rest with the accumulator as a buffer owned at some contents. -/
theorem scopedRest2_owns (c : Dev nD) :
    (Pipeline.scopedRest (Ix := Unit) (Name := ℕ) (U := UR sig nD τ) (Lvl := ℕ) (Val := Elt F) spec2 c : sProp 𝕄)
      = iprop((∃ d, owns (c : Thread nD τ) scM2 fullShare d)
          ∗ Pipeline.scopedRestBut (Ix := Unit) (Name := ℕ) (U := UR sig nD τ) (Lvl := ℕ) (Val := Elt F) spec2 c [cc2_scratch0]) := by
  rw [scopedRest2_split]; simp only [scM2, owns_whole]; try rfl

set_option backward.isDefEq.respectTransparency.types false in
/-- The gate projection as a segment: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The up projection as a segment: entered at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The down projection as a segment: entered at `W3`, left at `W4`. Its invariant takes the scoped rest in whole and,
    after the last point, gives it back with the accumulator's contents forgotten. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = PhiS2 (V3 m ρ) c (Fin.last cfg2.N).val (Nat.le_of_lt_succ (Fin.last cfg2.N).isLt) from rfl,
      PhiS2_pos (V3 m ρ) c _ _ (by rw [Fin.val_last]; have : cfg2.N = 56 := N_2; omega)]
    rw [show (Pipeline.scopedRest (Ix := Unit) (Name := ℕ) (U := UR sig nD τ) (Lvl := ℕ) (Val := Elt F) (Pipeline.pin (pcfgs (F := F)) adm 2).spec c : sProp 𝕄)
        = iprop((∃ d, owns (c : Thread nD τ) scM2 fullShare d)
          ∗ Pipeline.scopedRestBut (Ix := Unit) (Name := ℕ) (U := UR sig nD τ) (Lvl := ℕ) (Val := Elt F) spec2 c [cc2_scratch0]) from scopedRest2_owns c]
    iintro ⟨⟨HS, Hrest⟩, Hg⟩
    isplitl [Hg]; · iexact Hg
    isplitr; · iempintro
    isplitl [HS]; · iexists _; iexact HS
    iexact Hrest
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's four segments in order. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final state holds every unscoped buffer of every core at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME, at any float instance: the run above, each argument read back to its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c)⟩) (run_all m ρ)

end Cert.KernelIdeal.Hand

end
-- ==== Proof.Spec.lean ====
/-
  The function both programs compute, written once over the argument arrays, index by index, on the extended reals.

  A quantized linear layer stores a weight matrix as 4-bit codes `q` with one scale and one zero point per GROUP of 64
  consecutive output rows and per input column: row `n`, column `k` of the matrix is `(q[n,k] - z[n/64,k]) * s[n/64,k]`.
  The gated feed-forward block is `out = (silu(x W1ᵀ) ⊙ (x W3ᵀ)) W2ᵀ` with `silu g = g * (1 / (1 + e^(-g)))`.
  Every sum below is a finite sum in the commutative monoid of extended reals, so regrouping one is free.
-/
import Idealize.ShloMosaic.PureOps.Ideal
import Idealize.ShloMosaic.Lib.ValueIdx

noncomputable section

open scoped BigOperators

namespace Cert.Spec

open Idealize.ShloMosaic Idealize.ShloMosaic.ValueIdx

/-- tokens × hidden -/
abbrev STxH : Shape := ⟨2, ![512, 4096]⟩
/-- ffn × hidden: the codes of the gate and up projections -/
abbrev SFxH : Shape := ⟨2, ![14336, 4096]⟩
/-- their groups × hidden -/
abbrev SGFxH : Shape := ⟨2, ![224, 4096]⟩
/-- hidden × ffn: the codes of the down projection -/
abbrev SHxF : Shape := ⟨2, ![4096, 14336]⟩
/-- its groups × ffn -/
abbrev SGHxF : Shape := ⟨2, ![64, 14336]⟩
/-- tokens × ffn -/
abbrev STxF : Shape := ⟨2, ![512, 14336]⟩

/-- The group of an ffn row: 64 consecutive rows share a scale and a zero point. -/
def grpF (n : Fin 14336) : Fin 224 := ⟨n.val / 64, by have := n.isLt; omega⟩
/-- The group of a hidden row. -/
def grpH (h : Fin 4096) : Fin 64 := ⟨h.val / 64, by have := h.isLt; omega⟩

/-- One dequantized entry from its code, zero point and scale. -/
def deq (q : BitVec 32) (z s : EReal) : EReal := (FloatOps.sitofp (F := Ideal) .f32 q - z) * s

/-- Row `n`, column `k` of a dequantized ffn × hidden matrix. -/
def wFH (q : IVec SFxH 32) (s z : FVec Ideal SGFxH .f32) (n : Fin 14336) (k : Fin 4096) : EReal :=
  deq (q (ix2 n k)) (z (ix2 (grpF n) k)) (s (ix2 (grpF n) k))

/-- Row `h`, column `f` of the dequantized hidden × ffn matrix. -/
def wHF (q : IVec SHxF 32) (s z : FVec Ideal SGHxF .f32) (h : Fin 4096) (f : Fin 14336) : EReal :=
  deq (q (ix2 h f)) (z (ix2 (grpH h) f)) (s (ix2 (grpH h) f))

/-- `x Wᵀ` at token `t`, ffn row `n`. -/
def proj (x : FVec Ideal STxH .f32) (q : IVec SFxH 32) (s z : FVec Ideal SGFxH .f32) (t : Fin 512) (n : Fin 14336) : EReal :=
  ∑ k : Fin 4096, x (ix2 t k) * wFH q s z n k

/-- `silu g = g * logistic g`. -/
def silu (g : EReal) : EReal := g * Ideal.logistic g

/-- The gated intermediate at token `t`, ffn row `n`. -/
def inter (x : FVec Ideal STxH .f32) (q1 : IVec SFxH 32) (s1 z1 : FVec Ideal SGFxH .f32)
    (q3 : IVec SFxH 32) (s3 z3 : FVec Ideal SGFxH .f32) (t : Fin 512) (n : Fin 14336) : EReal :=
  silu (proj x q1 s1 z1 t n) * proj x q3 s3 z3 t n

/-- The block's output at token `t`, hidden row `h`. -/
def out (x : FVec Ideal STxH .f32) (q1 : IVec SFxH 32) (s1 z1 : FVec Ideal SGFxH .f32)
    (q2 : IVec SHxF 32) (s2 z2 : FVec Ideal SGHxF .f32)
    (q3 : IVec SFxH 32) (s3 z3 : FVec Ideal SGFxH .f32) (t : Fin 512) (h : Fin 4096) : EReal :=
  ∑ f : Fin 14336, inter x q1 s1 z1 q3 s3 z3 t f * wHF q2 s2 z2 h f

/-- The whole result array, arguments in the programs' order. -/
def G (x : FVec Ideal STxH .f32) (q1 : IVec SFxH 32) (s1 z1 : FVec Ideal SGFxH .f32)
    (q2 : IVec SHxF 32) (s2 z2 : FVec Ideal SGHxF .f32)
    (q3 : IVec SFxH 32) (s3 z3 : FVec Ideal SGFxH .f32) : FVec Ideal STxH .f32 :=
  fun i => out x q1 s1 z1 q2 s2 z2 q3 s3 z3 (i 0) (i 1)

end Cert.Spec

end
-- ==== Proof.PayIdx.lean ====
/-
  The three bodies' stored values read at one index, at the ideal values: each is a sum over the contracted axis of
  an activation times a dequantized weight entry, the weight's row choosing its group of 64.
-/
import proofs.«103602_j18279380812578_2_alg».proof.Proof.Gen.KernelIdeal.Skeleton
import proofs.«103602_j18279380812578_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayIdx

open Cert.KernelIdeal Cert.KernelIdeal.Gen Idealize.ShloMosaic Idealize.ShloMosaic.ValueIdx

/-- The group of a row among 512: 64 consecutive rows share a group. -/
def g8 (n : Fin 512) : Fin 8 := ⟨n.val / 64, by have := n.isLt; omega⟩
/-- The row's place inside its group. -/
def r64 (n : Fin 512) : Fin 64 := ⟨n.val % 64, Nat.mod_lt _ (by decide)⟩

section Layout
variable {α : Type} {K : Nat}

/-- A [8,64,K] vector viewed [512,K] reads row n at (group, place, column). -/
theorem cast3to2_apply (w : (⟨3, ![8, 64, K]⟩ : Shape).Idx → α)
    (h : (⟨3, ![8, 64, K]⟩ : Shape).ShapeCasts ⟨2, ![512, K]⟩) (n : Fin 512) (k : Fin K) :
    shapeCast ⟨2, ![512, K]⟩ w h (ix2 n k) = w (ix3 (g8 n) (r64 n) k) := by
  refine shapeCast_apply w h (ix2 n k) (ix3 (g8 n) (r64 n) k) ?_
  rewrite [Shape.rowMajor_val_two, Shape.rowMajor_val_three]
  show (n.val / 64 * 64 + n.val % 64) * K + k.val = n.val * K + k.val
  rw [Nat.div_add_mod']

/-- A [512,K] vector viewed [8,64,K] reads back row n at (group, place, column). -/
theorem cast2to3_apply (v : (⟨2, ![512, K]⟩ : Shape).Idx → α)
    (h : (⟨2, ![512, K]⟩ : Shape).ShapeCasts ⟨3, ![8, 64, K]⟩) (n : Fin 512) (k : Fin K) :
    shapeCast ⟨3, ![8, 64, K]⟩ v h (ix3 (g8 n) (r64 n) k) = v (ix2 n k) := by
  refine shapeCast_apply v h (ix3 (g8 n) (r64 n) k) (ix2 n k) ?_
  rewrite [Shape.rowMajor_val_two, Shape.rowMajor_val_three]
  show n.val * K + k.val = (n.val / 64 * 64 + n.val % 64) * K + k.val
  rw [Nat.div_add_mod']

/-- A [8,K] vector given a unit middle axis and broadcast along it reads (group, column) whatever the place. -/
theorem bcast_apply (z : (⟨2, ![8, K]⟩ : Shape).Idx → α)
    (h1 : (⟨2, ![8, K]⟩ : Shape).ShapeCasts ⟨3, ![8, 1, K]⟩)
    (h2 : (⟨3, ![8, 1, K]⟩ : Shape).Broadcasts ⟨3, ![8, 64, K]⟩) (a : Fin 8) (b : Fin 64) (k : Fin K) :
    broadcastTo ⟨3, ![8, 64, K]⟩ (shapeCast ⟨3, ![8, 1, K]⟩ z h1) h2 (ix3 a b k) = z (ix2 a k) := by
  have e1 : broadcastTo ⟨3, ![8, 64, K]⟩ (shapeCast ⟨3, ![8, 1, K]⟩ z h1) h2 (ix3 a b k)
      = shapeCast ⟨3, ![8, 1, K]⟩ z h1 (ix3 a (0 : Fin 1) k) := by
    refine broadcastTo_apply _ h2 (ix3 a b k) (ix3 a (0 : Fin 1) k) (fun c => ?_)
    match c with
    | ⟨0, _⟩ => show a.val = if (8 : Nat) = 1 then 0 else a.val; rw [if_neg (by decide)]
    | ⟨1, _⟩ => show (0 : Nat) = if (1 : Nat) = 1 then 0 else b.val; rw [if_pos rfl]
    | ⟨2, _⟩ =>
      show k.val = if K = 1 then 0 else k.val
      by_cases hK : K = 1
      · rw [if_pos hK]; have := k.isLt; omega
      · rw [if_neg hK]
  rw [e1]
  refine shapeCast_apply z h1 (ix3 a (0 : Fin 1) k) (ix2 a k) ?_
  rewrite [Shape.rowMajor_val_two, Shape.rowMajor_val_three]
  show a.val * K + k.val = (a.val * 1 + 0) * K + k.val
  rw [Nat.mul_one, Nat.add_zero]

end Layout

/-- The dequantized operand at row n, column k: the code minus the group's zero point, times the group's scale. -/
theorem deq_apply {K : Nat} (q : IVec ⟨2, ![512, K]⟩ 32) (s z : FVec Ideal ⟨2, ![8, K]⟩ .f32)
    (h1 : (⟨2, ![512, K]⟩ : Shape).ShapeCasts ⟨3, ![8, 64, K]⟩)
    (h2 : (⟨2, ![8, K]⟩ : Shape).ShapeCasts ⟨3, ![8, 1, K]⟩)
    (h3 : (⟨3, ![8, 1, K]⟩ : Shape).Broadcasts ⟨3, ![8, 64, K]⟩)
    (h4 : (⟨3, ![8, 64, K]⟩ : Shape).ShapeCasts ⟨2, ![512, K]⟩)
    (hb : FTy.bits .bf16 < FTy.bits .f32) (n : Fin 512) (k : Fin K) :
    (truncf .bf16 (shapeCast ⟨2, ![512, K]⟩
        (mulf (subf (shapeCast ⟨3, ![8, 64, K]⟩ (sitofp .f32 q : FVec Ideal ⟨2, ![512, K]⟩ .f32) h1)
                    (broadcastTo ⟨3, ![8, 64, K]⟩ (shapeCast ⟨3, ![8, 1, K]⟩ z h2) h3))
              (broadcastTo ⟨3, ![8, 64, K]⟩ (shapeCast ⟨3, ![8, 1, K]⟩ s h2) h3)) h4) hb : FVec Ideal ⟨2, ![512, K]⟩ .bf16) (ix2 n k)
      = Cert.Spec.deq (q (ix2 n k)) (z (ix2 (g8 n) k)) (s (ix2 (g8 n) k)) := by
  rw [truncf_apply, cast3to2_apply, mulf_apply, subf_apply, cast2to3_apply, bcast_apply, bcast_apply]
  rfl

theorem lhs4096_0 (i : S512x512.Idx) (q : dot_S512x4096_S512x4096_S512x512_1_1_0_0_n_n.contr.Idx) : (dot_S512x4096_S512x4096_S512x512_1_1_0_0_n_n.lhsIdx i q 0).val = (i 0).val := by
  unfold DotDims.lhsIdx
  rw [dif_neg (show ¬(0 : Fin S512x4096.rank) ∈ dot_S512x4096_S512x4096_S512x512_1_1_0_0_n_n.lhsBatch by decide), dif_pos (show (0 : Fin S512x4096.rank) ∈ dot_S512x4096_S512x4096_S512x512_1_1_0_0_n_n.lhsNonContracting by decide)]
  rfl
theorem lhs4096_1 (i : S512x512.Idx) (q : dot_S512x4096_S512x4096_S512x512_1_1_0_0_n_n.contr.Idx) : (dot_S512x4096_S512x4096_S512x512_1_1_0_0_n_n.lhsIdx i q 1).val = (q ⟨0, by decide⟩).val :=
  dot_S512x4096_S512x4096_S512x512_1_1_0_0_n_n.lhsIdx_val_of_single rfl i q
theorem rhs4096_0 (i : S512x512.Idx) (q : dot_S512x4096_S512x4096_S512x512_1_1_0_0_n_n.contr.Idx) : (dot_S512x4096_S512x4096_S512x512_1_1_0_0_n_n.rhsIdx i q 0).val = (i 1).val := by
  unfold DotDims.rhsIdx
  rw [dif_neg (show ¬(0 : Fin S512x4096.rank) ∈ dot_S512x4096_S512x4096_S512x512_1_1_0_0_n_n.rhsBatch by decide), dif_pos (show (0 : Fin S512x4096.rank) ∈ dot_S512x4096_S512x4096_S512x512_1_1_0_0_n_n.rhsNonContracting by decide)]
  rfl
theorem rhs4096_1 (i : S512x512.Idx) (q : dot_S512x4096_S512x4096_S512x512_1_1_0_0_n_n.contr.Idx) : (dot_S512x4096_S512x4096_S512x512_1_1_0_0_n_n.rhsIdx i q 1).val = (q ⟨0, by decide⟩).val :=
  dot_S512x4096_S512x4096_S512x512_1_1_0_0_n_n.rhsIdx_val_of_single rfl i q

/-- The 4096-column product into the zero accumulator at (t, n): both operands are read along their rows. -/
theorem mm4096_apply (a b : FVec Ideal S512x4096 .bf16) (t n : Fin 512) :
    matmul (F := Ideal) dot_S512x4096_S512x4096_S512x512_1_1_0_0_n_n none a b (constant S512x512 .f32 0x00000000#32) (ix2 t n)
      = ∑ k : Fin 4096, a (ix2 t k) * b (ix2 n k) := by
  refine (Ideal.matmul_constant_zero_apply dot_S512x4096_S512x4096_S512x512_1_1_0_0_n_n none a b (ix2 t n)).trans ?_
  rw [← Equiv.sum_comp (contrEquiv1 dot_S512x4096_S512x4096_S512x512_1_1_0_0_n_n 4096 rfl rfl).symm]
  refine Finset.sum_congr rfl fun k _ => ?_
  have hk := contrEquiv1_symm_val dot_S512x4096_S512x4096_S512x512_1_1_0_0_n_n 4096 rfl rfl k
  have el : dot_S512x4096_S512x4096_S512x512_1_1_0_0_n_n.lhsIdx (ix2 t n) ((contrEquiv1 dot_S512x4096_S512x4096_S512x512_1_1_0_0_n_n 4096 rfl rfl).symm k) = ix2 t k := funext fun c => Fin.ext (by
    match c with
    | ⟨0, _⟩ => exact lhs4096_0 _ _
    | ⟨1, _⟩ => exact (lhs4096_1 _ _).trans hk)
  have er : dot_S512x4096_S512x4096_S512x512_1_1_0_0_n_n.rhsIdx (ix2 t n) ((contrEquiv1 dot_S512x4096_S512x4096_S512x512_1_1_0_0_n_n 4096 rfl rfl).symm k) = ix2 n k := funext fun c => Fin.ext (by
    match c with
    | ⟨0, _⟩ => exact rhs4096_0 _ _
    | ⟨1, _⟩ => exact (rhs4096_1 _ _).trans hk)
  rw [el, er]

theorem lhs2048_0 (i : S512x512.Idx) (q : dot_S512x2048_S512x2048_S512x512_1_1_0_0_n_n.contr.Idx) : (dot_S512x2048_S512x2048_S512x512_1_1_0_0_n_n.lhsIdx i q 0).val = (i 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl
theorem lhs2048_1 (i : S512x512.Idx) (q : dot_S512x2048_S512x2048_S512x512_1_1_0_0_n_n.contr.Idx) : (dot_S512x2048_S512x2048_S512x512_1_1_0_0_n_n.lhsIdx i q 1).val = (q ⟨0, by decide⟩).val :=
  dot_S512x2048_S512x2048_S512x512_1_1_0_0_n_n.lhsIdx_val_of_single rfl i q
theorem rhs2048_0 (i : S512x512.Idx) (q : dot_S512x2048_S512x2048_S512x512_1_1_0_0_n_n.contr.Idx) : (dot_S512x2048_S512x2048_S512x512_1_1_0_0_n_n.rhsIdx i q 0).val = (i 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl
theorem rhs2048_1 (i : S512x512.Idx) (q : dot_S512x2048_S512x2048_S512x512_1_1_0_0_n_n.contr.Idx) : (dot_S512x2048_S512x2048_S512x512_1_1_0_0_n_n.rhsIdx i q 1).val = (q ⟨0, by decide⟩).val :=
  dot_S512x2048_S512x2048_S512x512_1_1_0_0_n_n.rhsIdx_val_of_single rfl i q

/-- The 2048-column product into the zero accumulator at (t, n): both operands are read along their rows. -/
theorem mm2048_apply (a b : FVec Ideal S512x2048 .bf16) (t n : Fin 512) :
    matmul (F := Ideal) dot_S512x2048_S512x2048_S512x512_1_1_0_0_n_n none a b (constant S512x512 .f32 0x00000000#32) (ix2 t n)
      = ∑ k : Fin 2048, a (ix2 t k) * b (ix2 n k) := by
  refine (Ideal.matmul_constant_zero_apply dot_S512x2048_S512x2048_S512x512_1_1_0_0_n_n none a b (ix2 t n)).trans ?_
  rw [← Equiv.sum_comp (contrEquiv1 dot_S512x2048_S512x2048_S512x512_1_1_0_0_n_n 2048 rfl rfl).symm]
  refine Finset.sum_congr rfl fun k _ => ?_
  have hk := contrEquiv1_symm_val dot_S512x2048_S512x2048_S512x512_1_1_0_0_n_n 2048 rfl rfl k
  have el : dot_S512x2048_S512x2048_S512x512_1_1_0_0_n_n.lhsIdx (ix2 t n) ((contrEquiv1 dot_S512x2048_S512x2048_S512x512_1_1_0_0_n_n 2048 rfl rfl).symm k) = ix2 t k := funext fun c => Fin.ext (by
    match c with
    | ⟨0, _⟩ => exact lhs2048_0 _ _
    | ⟨1, _⟩ => exact (lhs2048_1 _ _).trans hk)
  have er : dot_S512x2048_S512x2048_S512x512_1_1_0_0_n_n.rhsIdx (ix2 t n) ((contrEquiv1 dot_S512x2048_S512x2048_S512x512_1_1_0_0_n_n 2048 rfl rfl).symm k) = ix2 n k := funext fun c => Fin.ext (by
    match c with
    | ⟨0, _⟩ => exact rhs2048_0 _ _
    | ⟨1, _⟩ => exact (rhs2048_1 _ _).trans hk)
  rw [el, er]

/-- The gate body's product: at (t, n) the sum over the 4096 columns of the activation times the dequantized weight. -/
theorem pay0_apply (v0 : Vec Ideal S512x4096 .bf16) (v2 : Vec Ideal S512x4096 .i32) (v3 v4 : Vec Ideal S8x4096 .f32) (t n : Fin 512) :
    k0_pay1 (F := Ideal) v0 v2 v3 v4 (ix2 t n)
      = ∑ k : Fin 4096, v0 (ix2 t k) * Cert.Spec.deq (v2 (ix2 n k)) (v4 (ix2 (g8 n) k)) (v3 (ix2 (g8 n) k)) := by
  unfold k0_pay1
  rw [truncf_apply, shapeCast_self]
  refine (mm4096_apply _ _ t n).trans ?_
  refine Finset.sum_congr rfl fun k _ => ?_
  exact congrArg (v0 (ix2 t k) * ·) (deq_apply v2 v3 v4 _ _ _ _ _ n k)

/-- The up body's gated product: the stored gate through silu, times the same sum over the up weights. -/
theorem pay1_apply (v0 : Vec Ideal S512x4096 .bf16) (v2 : Vec Ideal S512x4096 .i32) (v3 v4 : Vec Ideal S8x4096 .f32)
    (v16 : Vec Ideal S512x512 .bf16) (t n : Fin 512) :
    k1_pay1 (F := Ideal) v0 v2 v3 v4 v16 (ix2 t n)
      = Cert.Spec.silu (v16 (ix2 t n))
        * ∑ k : Fin 4096, v0 (ix2 t k) * Cert.Spec.deq (v2 (ix2 n k)) (v4 (ix2 (g8 n) k)) (v3 (ix2 (g8 n) k)) := by
  unfold k1_pay1
  rw [truncf_apply, mulf_apply, shapeCast_self, shapeCast_self]
  refine congrArg₂ (· * ·) rfl ?_
  refine (mm4096_apply _ _ t n).trans ?_
  refine Finset.sum_congr rfl fun k _ => ?_
  exact congrArg (v0 (ix2 t k) * ·) (deq_apply v2 v3 v4 _ _ _ _ _ n k)

/-- The down body's first store is the zero splat. -/
theorem pay2_zero (t h : Fin 512) : k2_pay1 (F := Ideal) (ix2 t h) = 0 := by
  unfold k2_pay1
  rw [shapeCast_self]
  exact Ideal.ofBits_zero_f32

/-- The down body's accumulation: the block read before, plus the sum over the body's 2048 columns. -/
theorem pay2_apply (v6 : Vec Ideal S512x2048 .bf16) (v8 : Vec Ideal S512x2048 .i32) (v9 v10 : Vec Ideal S8x2048 .f32)
    (v22 : Vec Ideal S512x512 .f32) (t h : Fin 512) :
    k2_pay2 (F := Ideal) v6 v8 v9 v10 v22 (ix2 t h)
      = v22 (ix2 t h) + ∑ k : Fin 2048, v6 (ix2 t k) * Cert.Spec.deq (v8 (ix2 h k)) (v10 (ix2 (g8 h) k)) (v9 (ix2 (g8 h) k)) := by
  unfold k2_pay2
  rw [shapeCast_self, shapeCast_self, addf_apply]
  refine congrArg (v22 (ix2 t h) + ·) ?_
  refine (mm2048_apply _ _ t h).trans ?_
  refine Finset.sum_congr rfl fun k _ => ?_
  exact congrArg (v6 (ix2 t k) * ·) (deq_apply v8 v9 v10 _ _ _ _ _ h k)

end Cert.KernelIdeal.PayIdx

end
-- ==== Proof.GateValue.lean ====
/-
  The gate projection's result array, whole: every grid point writes back the 512 columns of `x W1ᵀ` its rows of the
  weight produce, and the 28 points' column blocks tile the array.
-/
import proofs.«103602_j18279380812578_2_alg».proof.Proof.Gate
import proofs.«103602_j18279380812578_2_alg».proof.Proof.PayIdx
import proofs.«103602_j18279380812578_2_alg».proof.Proof.Spec
import Idealize.ShloMosaic.Lib.Pipeline.Value

noncomputable section

open scoped BigOperators

namespace Cert.KernelIdeal.Val

open Cert.KernelIdeal Cert.KernelIdeal.Gen Cert.KernelIdeal.Hand Cert.KernelIdeal.PayIdx
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- One point's output block from its four input blocks, when those are the blocks of whole arrays: the activations
    whole, the codes' rows `512 u …`, the scales' and zero points' rows `8 u …`. Column `q` of the block is row
    `512 u + q` of the weight, whose group is row `8 u + q / 64` of the scales. -/
theorem gate_point (A0 : FVec Ideal Cert.Spec.STxH .f32) (A1 : IVec Cert.Spec.SFxH 32) (A2 A3 : FVec Ideal Cert.Spec.SGFxH .f32)
    (x0 : Vec Ideal S512x4096 .bf16) (x1 : Vec Ideal S512x4096 .i32) (x2 x3 : Vec Ideal S8x4096 .f32) (u : Nat)
    (h0 : ∀ (p : Fin 512) (k : Fin 4096), x0 (ix2 p k) = A0 (ix2 p k))
    (h1 : ∀ (p : Fin 512) (k : Fin 4096) (n : Fin 14336), n.val = 512 * u + p.val → x1 (ix2 p k) = A1 (ix2 n k))
    (h2 : ∀ (g : Fin 8) (k : Fin 4096) (r : Fin 224), r.val = 8 * u + g.val → x2 (ix2 g k) = A2 (ix2 r k))
    (h3 : ∀ (g : Fin 8) (k : Fin 4096) (r : Fin 224), r.val = 8 * u + g.val → x3 (ix2 g k) = A3 (ix2 r k))
    (y : S512x512.Idx) (m : Fin 512) (n : Fin 14336) (hm : m.val = (y 0).val) (hn : n.val = 512 * u + (y 1).val) :
    out0_4 x0 x1 x2 x3 y = Cert.Spec.proj A0 A1 A2 A3 m n := by
  obtain ⟨p, q, rfl⟩ : ∃ (p : Fin 512) (q : Fin 512), y = ix2 p q := ⟨y 0, y 1, eq_ix2 y⟩
  obtain rfl : m = p := Fin.ext hm
  unfold out0_4
  rw [View.canon_unit_zero hz]
  simp only [View.ld_unit_zero (S := S512x4096) hz, View.ld_unit_zero (S := S8x4096) hz]
  rw [pay0_apply]
  unfold Cert.Spec.proj Cert.Spec.wFH
  refine Finset.sum_congr rfl fun k _ => ?_
  have hg : (Cert.Spec.grpF n).val = 8 * u + (g8 q).val := by
    show n.val / 64 = 8 * u + q.val / 64
    have : n.val = 512 * u + q.val := hn
    omega
  rw [h0 m k, h1 q k n hn, h2 (g8 q) k (Cert.Spec.grpF n) hg, h3 (g8 q) k (Cert.Spec.grpF n) hg]

section Gate

variable (V : (c : Dev nD) → (b : Ref sig .tc) → Buf (Elt Ideal) ((c : Thread nD τ).loc b))

/-- The block indices over the grid: the activations never move, the codes, scales and zero points move down their
    rows with the point, the output moves along its columns with the point. -/
theorem gate_idx : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val :=
  (by decide +kernel : ∀ t : Fin grid0.N, _)

/-- The gate projection `x W1ᵀ` of the arrays as the region finds them, index by index. -/
abbrev gateG (c : Dev nD) : S512x14336.Idx → Elt Ideal .bf16 :=
  fun j => Cert.Spec.proj (V c main_v0) (V c main_arg1) (V c main_arg2) (V c main_arg3) (j 0) (j 1)

/-- What point `t` writes back is block `t` of the projection. -/
theorem gate_flushed (c : Dev nD) (t : Fin cfg0.N) :
    (dat0 (F := Ideal) V c).flushed 4 t = ((cfg0.win 4).blk t).view.read (Elt Ideal) (gateG V c) := by
  show (cfg0.win 4).cut (grid0.coords t) ((dat0 (F := Ideal) V c).after 4 t) = _
  rw [after0_4]
  obtain ⟨e00, e01, e10, e11, e20, e21, e30, e31, e40, e41⟩ := gate_idx t
  funext y
  show out0_4 (iblk0 V c 0 t) (iblk0 V c 1 t) (iblk0 V c 2 t) (iblk0 V c 3 t) y
    = Cert.Spec.proj (V c main_v0) (V c main_arg1) (V c main_arg2) (V c main_arg3)
        ((((cfg0.win 4).blk t).view.emb y) 0) ((((cfg0.win 4).blk t).view.emb y) 1)
  refine gate_point (V c main_v0) (V c main_arg1) (V c main_arg2) (V c main_arg3)
    (iblk0 V c 0 t) (iblk0 V c 1 t) (iblk0 V c 2 t) (iblk0 V c 3 t) t.val ?_ ?_ ?_ ?_ y _ _ ?_ ?_
  · intro p k
    show V c main_v0 (((cfg0.win 0).blk t).view.emb (ix2 p k)) = V c main_v0 (ix2 p k)
    refine congrArg (V c main_v0) (funext fun a => Fin.ext ?_)
    match a with
    | ⟨0, _⟩ => show win0_0.index t (0 : Fin 2) * 512 + 1 * p.val = p.val; omega
    | ⟨1, _⟩ => show win0_0.index t (1 : Fin 2) * 4096 + 1 * k.val = k.val; omega
  · intro p k n hn
    show V c main_arg1 (((cfg0.win 1).blk t).view.emb (ix2 p k)) = V c main_arg1 (ix2 n k)
    refine congrArg (V c main_arg1) (funext fun a => Fin.ext ?_)
    match a with
    | ⟨0, _⟩ => show win0_1.index t (0 : Fin 2) * 512 + 1 * p.val = n.val; omega
    | ⟨1, _⟩ => show win0_1.index t (1 : Fin 2) * 4096 + 1 * k.val = k.val; omega
  · intro g k r hr
    show V c main_arg2 (((cfg0.win 2).blk t).view.emb (ix2 g k)) = V c main_arg2 (ix2 r k)
    refine congrArg (V c main_arg2) (funext fun a => Fin.ext ?_)
    match a with
    | ⟨0, _⟩ => show win0_2.index t (0 : Fin 2) * 8 + 1 * g.val = r.val; omega
    | ⟨1, _⟩ => show win0_2.index t (1 : Fin 2) * 4096 + 1 * k.val = k.val; omega
  · intro g k r hr
    show V c main_arg3 (((cfg0.win 3).blk t).view.emb (ix2 g k)) = V c main_arg3 (ix2 r k)
    refine congrArg (V c main_arg3) (funext fun a => Fin.ext ?_)
    match a with
    | ⟨0, _⟩ => show win0_3.index t (0 : Fin 2) * 8 + 1 * g.val = r.val; omega
    | ⟨1, _⟩ => show win0_3.index t (1 : Fin 2) * 4096 + 1 * k.val = k.val; omega
  · show win0_4.index t (0 : Fin 2) * 512 + 1 * (y 0).val = (y 0).val; omega
  · show win0_4.index t (1 : Fin 2) * 512 + 1 * (y 1).val = 512 * t.val + (y 1).val; omega

/-- An index of the array is in point `t`'s block iff each coordinate is in the block's range on its axis. -/
theorem gate_mem_blk (t : Fin cfg0.N) (i : S512x14336.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v1).slice (win0_4.rect t)).set ↔ _
  rw [View.set_slice_whole, Rect.mem_set_unit]
  exact Iff.rfl

/-- Column `n` of the array is written back by point `n / 512`. -/
theorem gate_cover (i : S512x14336.Idx) :
    ∃ t : Fin cfg0.N, (cfg0.win 4).flush t = true ∧ i ∈ ((cfg0.win 4).blk t).view.set := by
  have hi0 : (i 0).val < 512 := (i 0).isLt
  have hi1 : (i 1).val < 14336 := (i 1).isLt
  have hN : cfg0.N = 28 := rfl
  let t : Fin cfg0.N := ⟨(i 1).val / 512, by rw [hN]; omega⟩
  obtain ⟨e00, e01, e10, e11, e20, e21, e30, e31, e40, e41⟩ := gate_idx t
  have ht : t.val = (i 1).val / 512 := rfl
  refine ⟨t, flush0_4 t, ?_⟩
  rw [gate_mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 512 ≤ (i 1).val ∧ (i 1).val < win0_4.index t (1 : Fin 2) * 512 + 512; omega

/-- The gate array after the region: the projection, whole. -/
theorem gate_final (c : Dev nD) :
    (dat0 (F := Ideal) V c).arrAt 4 cfg0.N
      = fun j => Cert.Spec.proj (V c main_v0) (V c main_arg1) (V c main_arg2) (V c main_arg3) (j 0) (j 1) :=
  (dat0 (F := Ideal) V c).arrAt_eq_of_cover 4 (gateG V c) (fun t _ => gate_flushed V c t) gate_cover

end Gate

end Cert.KernelIdeal.Val

end
-- ==== Proof.UpValue.lean ====
/-
  The gated intermediate's array, whole: every grid point writes back the 512 columns of `silu(gate) ⊙ (x W3ᵀ)` its rows
  of the up weight produce from the gate's block of the same columns, and the 28 points' column blocks tile the array.
-/
import proofs.«103602_j18279380812578_2_alg».proof.Proof.Up
import proofs.«103602_j18279380812578_2_alg».proof.Proof.PayIdx
import proofs.«103602_j18279380812578_2_alg».proof.Proof.Spec
import Idealize.ShloMosaic.Lib.Pipeline.Value

noncomputable section

open scoped BigOperators

namespace Cert.KernelIdeal.Val

open Cert.KernelIdeal Cert.KernelIdeal.Gen Cert.KernelIdeal.Hand Cert.KernelIdeal.PayIdx
open Idealize.ShloMosaic Idealize.ShloMosaic.TcCoe Idealize.ShloMosaic.ValueIdx Idealize.SL.Sem
open Idealize.ShloMosaic.Pipeline (Dat)

theorem hz1 : (![0, 0] : Fin 2 → Nat) = fun _ => 0 := funext fun a => by fin_cases a <;> rfl

/-- One point's output block from its five input blocks, when those are the blocks of whole arrays: the activations
    whole, the codes' rows `512 u …`, the scales' and zero points' rows `8 u …`, the gate's columns `512 u …`. -/
theorem up_point (A0 : FVec Ideal Cert.Spec.STxH .f32) (A1 : IVec Cert.Spec.SFxH 32) (A2 A3 : FVec Ideal Cert.Spec.SGFxH .f32)
    (A4 : FVec Ideal Cert.Spec.STxF .f32)
    (x0 : Vec Ideal S512x4096 .bf16) (x1 : Vec Ideal S512x4096 .i32) (x2 x3 : Vec Ideal S8x4096 .f32)
    (x4 : Vec Ideal S512x512 .bf16) (u : Nat)
    (h0 : ∀ (p : Fin 512) (k : Fin 4096), x0 (ix2 p k) = A0 (ix2 p k))
    (h1 : ∀ (p : Fin 512) (k : Fin 4096) (n : Fin 14336), n.val = 512 * u + p.val → x1 (ix2 p k) = A1 (ix2 n k))
    (h2 : ∀ (g : Fin 8) (k : Fin 4096) (r : Fin 224), r.val = 8 * u + g.val → x2 (ix2 g k) = A2 (ix2 r k))
    (h3 : ∀ (g : Fin 8) (k : Fin 4096) (r : Fin 224), r.val = 8 * u + g.val → x3 (ix2 g k) = A3 (ix2 r k))
    (h4 : ∀ (p q : Fin 512) (n : Fin 14336), n.val = 512 * u + q.val → x4 (ix2 p q) = A4 (ix2 p n))
    (y : S512x512.Idx) (j : Cert.Spec.STxF.Idx) (hm : (j 0).val = (y 0).val) (hn : (j 1).val = 512 * u + (y 1).val) :
    out1_5 x0 x1 x2 x3 x4 y = Cert.Spec.silu (A4 j) * Cert.Spec.proj A0 A1 A2 A3 (j 0) (j 1) := by
  obtain ⟨p, q, rfl⟩ : ∃ (p : Fin 512) (q : Fin 512), y = ix2 p q := ⟨y 0, y 1, eq_ix2 y⟩
  obtain ⟨m, n, rfl⟩ : ∃ (m : Fin 512) (n : Fin 14336), j = ix2 m n := ⟨j 0, j 1, eq_ix2 j⟩
  obtain rfl : m = p := Fin.ext hm
  have hn' : n.val = 512 * u + q.val := hn
  show out1_5 x0 x1 x2 x3 x4 (ix2 m q) = Cert.Spec.silu (A4 (ix2 m n)) * Cert.Spec.proj A0 A1 A2 A3 m n
  unfold out1_5
  rw [View.canon_unit_zero hz1]
  simp only [View.ld_unit_zero (S := S512x4096) hz1, View.ld_unit_zero (S := S8x4096) hz1, View.ld_unit_zero (S := S512x512) hz1]
  rw [pay1_apply, h4 m q n hn']
  refine congrArg (Cert.Spec.silu (A4 (ix2 m n)) * ·) ?_
  unfold Cert.Spec.proj Cert.Spec.wFH
  refine Finset.sum_congr rfl fun k _ => ?_
  have hg : (Cert.Spec.grpF n).val = 8 * u + (g8 q).val := by
    show n.val / 64 = 8 * u + q.val / 64
    omega
  rw [h0 m k, h1 q k n hn', h2 (g8 q) k (Cert.Spec.grpF n) hg, h3 (g8 q) k (Cert.Spec.grpF n) hg]

section Up

variable (V : (c : Dev nD) → (b : Ref sig .tc) → Buf (Elt Ideal) ((c : Thread nD τ).loc b))

/-- The block indices over the grid: the activations never move, the codes, scales and zero points move down their
    rows with the point, the gate's block and the output's move along their columns with the point. -/
theorem up_idx : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = t.val
    ∧ win1_5.index t (0 : Fin 2) = 0 ∧ win1_5.index t (1 : Fin 2) = t.val :=
  (by decide +kernel : ∀ t : Fin grid1.N, _)

/-- `silu(gate) ⊙ (x W3ᵀ)` of the arrays as the region finds them, index by index. -/
abbrev upG (c : Dev nD) : S512x14336.Idx → Elt Ideal .bf16 :=
  fun j => Cert.Spec.silu (V c main_v1 j) * Cert.Spec.proj (V c main_v0) (V c main_arg7) (V c main_arg8) (V c main_arg9) (j 0) (j 1)

/-- What point `t` writes back is block `t` of the gated intermediate. -/
theorem up_flushed (c : Dev nD) (t : Fin cfg1.N) :
    (dat1 (F := Ideal) V c).flushed 5 t = ((cfg1.win 5).blk t).view.read (Elt Ideal) (upG V c) := by
  show (cfg1.win 5).cut (grid1.coords t) ((dat1 (F := Ideal) V c).after 5 t) = _
  rw [after1_5]
  obtain ⟨e00, e01, e10, e11, e20, e21, e30, e31, e40, e41, e50, e51⟩ := up_idx t
  funext y
  show out1_5 (iblk1 V c 0 t) (iblk1 V c 1 t) (iblk1 V c 2 t) (iblk1 V c 3 t) (iblk1 V c 4 t) y
    = Cert.Spec.silu (V c main_v1 (((cfg1.win 5).blk t).view.emb y))
      * Cert.Spec.proj (V c main_v0) (V c main_arg7) (V c main_arg8) (V c main_arg9)
        ((((cfg1.win 5).blk t).view.emb y) 0) ((((cfg1.win 5).blk t).view.emb y) 1)
  refine up_point (V c main_v0) (V c main_arg7) (V c main_arg8) (V c main_arg9) (V c main_v1)
    (iblk1 V c 0 t) (iblk1 V c 1 t) (iblk1 V c 2 t) (iblk1 V c 3 t) (iblk1 V c 4 t) t.val ?_ ?_ ?_ ?_ ?_ y
    (((cfg1.win 5).blk t).view.emb y) ?_ ?_
  · intro p k
    show V c main_v0 (((cfg1.win 0).blk t).view.emb (ix2 p k)) = V c main_v0 (ix2 p k)
    refine congrArg (V c main_v0) (funext fun a => Fin.ext ?_)
    match a with
    | ⟨0, _⟩ => show win1_0.index t (0 : Fin 2) * 512 + 1 * p.val = p.val; omega
    | ⟨1, _⟩ => show win1_0.index t (1 : Fin 2) * 4096 + 1 * k.val = k.val; omega
  · intro p k n hn
    show V c main_arg7 (((cfg1.win 1).blk t).view.emb (ix2 p k)) = V c main_arg7 (ix2 n k)
    refine congrArg (V c main_arg7) (funext fun a => Fin.ext ?_)
    match a with
    | ⟨0, _⟩ => show win1_1.index t (0 : Fin 2) * 512 + 1 * p.val = n.val; omega
    | ⟨1, _⟩ => show win1_1.index t (1 : Fin 2) * 4096 + 1 * k.val = k.val; omega
  · intro g k r hr
    show V c main_arg8 (((cfg1.win 2).blk t).view.emb (ix2 g k)) = V c main_arg8 (ix2 r k)
    refine congrArg (V c main_arg8) (funext fun a => Fin.ext ?_)
    match a with
    | ⟨0, _⟩ => show win1_2.index t (0 : Fin 2) * 8 + 1 * g.val = r.val; omega
    | ⟨1, _⟩ => show win1_2.index t (1 : Fin 2) * 4096 + 1 * k.val = k.val; omega
  · intro g k r hr
    show V c main_arg9 (((cfg1.win 3).blk t).view.emb (ix2 g k)) = V c main_arg9 (ix2 r k)
    refine congrArg (V c main_arg9) (funext fun a => Fin.ext ?_)
    match a with
    | ⟨0, _⟩ => show win1_3.index t (0 : Fin 2) * 8 + 1 * g.val = r.val; omega
    | ⟨1, _⟩ => show win1_3.index t (1 : Fin 2) * 4096 + 1 * k.val = k.val; omega
  · intro p q n hn
    show V c main_v1 (((cfg1.win 4).blk t).view.emb (ix2 p q)) = V c main_v1 (ix2 p n)
    refine congrArg (V c main_v1) (funext fun a => Fin.ext ?_)
    match a with
    | ⟨0, _⟩ => show win1_4.index t (0 : Fin 2) * 512 + 1 * p.val = p.val; omega
    | ⟨1, _⟩ => show win1_4.index t (1 : Fin 2) * 512 + 1 * q.val = n.val; omega
  · show win1_5.index t (0 : Fin 2) * 512 + 1 * (y 0).val = (y 0).val; omega
  · show win1_5.index t (1 : Fin 2) * 512 + 1 * (y 1).val = 512 * t.val + (y 1).val; omega

/-- An index of the array is in point `t`'s block iff each coordinate is in the block's range on its axis. -/
theorem up_mem_blk (t : Fin cfg1.N) (i : S512x14336.Idx) :
    i ∈ ((cfg1.win 5).blk t).view.set ↔ ∀ a : Fin 2, win1_5.index t a * S512x512.size a ≤ (i a).val ∧ (i a).val < win1_5.index t a * S512x512.size a + S512x512.size a := by
  show i ∈ ((View.whole main_v2).slice (win1_5.rect t)).set ↔ _
  rw [View.set_slice_whole, Rect.mem_set_unit]
  exact Iff.rfl

/-- Column `n` of the array is written back by point `n / 512`. -/
theorem up_cover (i : S512x14336.Idx) :
    ∃ t : Fin cfg1.N, (cfg1.win 5).flush t = true ∧ i ∈ ((cfg1.win 5).blk t).view.set := by
  have hi0 : (i 0).val < 512 := (i 0).isLt
  have hi1 : (i 1).val < 14336 := (i 1).isLt
  have hN : cfg1.N = 28 := rfl
  let t : Fin cfg1.N := ⟨(i 1).val / 512, by rw [hN]; omega⟩
  obtain ⟨e00, e01, e10, e11, e20, e21, e30, e31, e40, e41, e50, e51⟩ := up_idx t
  have ht : t.val = (i 1).val / 512 := rfl
  refine ⟨t, flush1_5 t, ?_⟩
  rw [up_mem_blk]
  intro a
  match a with
  | ⟨0, _⟩ => show win1_5.index t (0 : Fin 2) * 512 ≤ (i 0).val ∧ (i 0).val < win1_5.index t (0 : Fin 2) * 512 + 512; omega
  | ⟨1, _⟩ => show win1_5.index t (1 : Fin 2) * 512 ≤ (i 1).val ∧ (i 1).val < win1_5.index t (1 : Fin 2) * 512 + 512; omega

/-- The intermediate's array after the region: the gate as found through silu, times the up projection, whole. -/
theorem up_final (c : Dev nD) :
    (dat1 (F := Ideal) V c).arrAt 5 cfg1.N
      = fun j => Cert.Spec.silu (V c main_v1 j) * Cert.Spec.proj (V c main_v0) (V c main_arg7) (V c main_arg8) (V c main_arg9) (j 0) (j 1) :=
  (dat1 (F := Ideal) V c).arrAt_eq_of_cover 5 (upG V c) (fun t _ => up_flushed V c t) up_cover

end Up

end Cert.KernelIdeal.Val

end
-- ==== Proof.SumBlocks.lean ====
/-
  Regrouping a sum over 14336 terms into 7 consecutive blocks of 2048, and a left-nested seven-term accumulation as a sum.
-/
import Mathlib.Algebra.BigOperators.Fin
import Mathlib.Data.EReal.Basic
import proofs.«103602_j18279380812578_2_alg».proof.Proof.Spec

open scoped BigOperators

namespace Cert.Spec

/-- A sum over `Fin 14336` is the sum over 7 blocks of the sums over the 2048 consecutive entries of each block. -/
theorem sum_blocks (g : Fin 14336 → EReal) :
    ∑ f, g f = ∑ j : Fin 7, ∑ k : Fin 2048,
      g ⟨2048 * j.val + k.val, by have := j.isLt; have := k.isLt; omega⟩ := by
  rw [← Fintype.sum_prod_type']
  symm
  refine Fintype.sum_equiv
    ((finProdFinEquiv (m := 7) (n := 2048)).trans (finCongr (by norm_num : 7 * 2048 = 14336))) _ _ (fun x => ?_)
  refine congrArg g (Fin.ext ?_)
  show 2048 * x.1.val + x.2.val = x.2.val + 2048 * x.1.val
  exact Nat.add_comm _ _

/-- Accumulating seven terms from zero, left to right, is their sum. -/
theorem acc_blocks (p : Fin 7 → EReal) :
    ((((((0 + p 0) + p 1) + p 2) + p 3) + p 4) + p 5) + p 6 = ∑ j, p j := by
  rw [Fin.sum_univ_seven, zero_add]

end Cert.Spec
-- ==== Proof.DownValue.lean ====
/-
  The down projection's accumulator, as a value at the ideal instance.

  The grid is 8 × 7; point `t` is `(h, j) = (t / 7, t % 7)`. At every point the body adds to a 512 × 512 accumulator the
  product of columns `2048 j …` of the intermediate array with rows `512 h …`, the same columns, of the dequantized down
  matrix; the first point of a row starts from zeros, the last copies the accumulator into the output block. So after the
  last point of row `h` the output block holds, at token `p` and column `r`, the sum over the seven column blocks, which
  is the whole contraction `∑ f, inter[p, f] * W2[512 h + r, f]` over the 14336 ffn columns: finite sums of extended
  reals regroup freely.
-/
import proofs.«103602_j18279380812578_2_alg».proof.Proof.Down
import proofs.«103602_j18279380812578_2_alg».proof.Proof.PayIdx
import proofs.«103602_j18279380812578_2_alg».proof.Proof.SumBlocks
import proofs.«103602_j18279380812578_2_alg».proof.Proof.Spec
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Hand Cert.KernelIdeal.PayIdx
open Idealize.ShloMosaic Idealize.ShloMosaic.TcCoe Idealize.ShloMosaic.Tactic Idealize.ShloMosaic.ValueIdx Idealize.SL.Sem
open Idealize.ShloMosaic.Pipeline (Dat)

namespace Acc

variable {F : FTy → Type} [FloatOps F]

theorem hzD : (![0, 0] : Fin 2 → Nat) = fun _ => 0 := funext fun a => by fin_cases a <;> rfl

/-- The 512 × 2048 rectangle of the intermediate array the body loads at grid point `i`: all tokens, the point's 2048 columns. -/
abbrev colsRect (i : grid2.Coords) : Rect S512x14336 :=
  Rect.unit (s := S512x14336) (k2_off1 i) S512x2048.size (k2_off1_inb i)

end Acc

open Acc

variable {F : FTy → Type} [FloatOps F]

/-- Middle point of a row: the accumulator ends at its one store, the accumulation over what the point before left. -/
theorem sout2_B_eq (c : Dev nD) (i : grid2.Coords) (arg2 : Memref sig .tc .vmem S512x14336 .bf16) (harg2 : arg2.IsWhole) (arg3 : Memref sig .tc .vmem S512x2048 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : ¬cond2_1 i) (x0 : Vec F S512x14336 .bf16) (x1 : Vec F S512x2048 .i32) (x2 x3 : Vec F S8x2048 .f32) (xs : Vec F S512x512 .f32) :
    sout2_B c i arg2 harg2 arg3 harg3 arg4 harg4 arg5 harg5 arg6 harg6 arg7 harg7 hc0 hc1 x0 x1 x2 x3 xs = k2_pay2 (View.ld x0 (colsRect i)) x1 x2 x3 xs := by
  unfold sout2_B
  rw [View.read_writes_eq_canon _ _ _ (scover2_B c i arg2 harg2 arg3 harg3 arg4 harg4 arg5 harg5 arg6 harg6 arg7 harg7 hc0 hc1 x0 x1 x2 x3 xs)]
  unfold kernelRun2_B
  dsimp only
  rw [View.canon_unit_zero hzD]
  simp only [View.readAt_eq_ld, harg2.read_unread, harg3.read_unread, harg4.read_unread, harg5.read_unread, harg7.read_unread,
    View.ld_unit_zero (S := S512x2048) hzD, View.ld_unit_zero (S := S8x2048) hzD, View.ld_unit_zero (S := S512x512) hzD]

/-- First point of a row: the accumulator is zeroed, read back, and ends at the accumulation over the zeros. -/
theorem sout2_A_eq (c : Dev nD) (i : grid2.Coords) (arg2 : Memref sig .tc .vmem S512x14336 .bf16) (harg2 : arg2.IsWhole) (arg3 : Memref sig .tc .vmem S512x2048 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S512x512 .f32) (harg6 : arg6.IsWhole) (arg7 : Memref sig .tc .vmem S512x512 .f32) (harg7 : arg7.IsWhole) (hc0 : cond2_0 i) (hc1 : ¬cond2_1 i) (x0 : Vec F S512x14336 .bf16) (x1 : Vec F S512x2048 .i32) (x2 x3 : Vec F S8x2048 .f32) :
    sout2_A c i arg2 harg2 arg3 harg3 arg4 harg4 arg5 harg5 arg6 harg6 arg7 harg7 hc0 hc1 x0 x1 x2 x3 = k2_pay2 (View.ld x0 (colsRect i)) x1 x2 x3 (k2_pay1 (F := F)) := by
  unfold sout2_A
  rw [View.read_writes_eq_canon _ _ _ (scover2_A c i arg2 harg2 arg3 harg3 arg4 harg4 arg5 harg5 arg6 harg6 arg7 harg7 hc0 hc1 x0 x1 x2 x3)]
  unfold kernelRun2_A
  dsimp only
  sl_unfold_words
  rw [View.canon_cons_unit_zero (S := S512x512) hzD, View.readCov_unit_zero (S := S512x512) _ hzD]
  simp only [View.readAt_eq_ld, harg2.read_unread, harg3.read_unread, harg4.read_unread, harg5.read_unread,
    View.ld_unit_zero (S := S512x2048) hzD, View.ld_unit_zero (S := S8x2048) hzD, View.ld_unit_zero (S := S512x512) hzD]
  rfl

/-- Last point of a row: the accumulator as in a middle point, -/
theorem sout2_C_eq (c : Dev nD) (i : grid2.Coords) (arg2 : Memref sig .tc .vmem S512x14336 .bf16) (harg2 : arg2.IsWhole) (arg3 : Memref sig .tc .vmem S512x2048 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : cond2_1 i) (x0 : Vec F S512x14336 .bf16) (x1 : Vec F S512x2048 .i32) (x2 x3 : Vec F S8x2048 .f32) (xs : Vec F S512x512 .f32) :
    sout2_C c i arg2 harg2 arg3 harg3 arg4 harg4 arg5 harg5 arg6 harg6 arg7 harg7 hc0 hc1 x0 x1 x2 x3 xs = k2_pay2 (View.ld x0 (colsRect i)) x1 x2 x3 xs := by
  unfold sout2_C
  rw [View.read_writes_eq_canon _ _ _ (scover2_C c i arg2 harg2 arg3 harg3 arg4 harg4 arg5 harg5 arg6 harg6 arg7 harg7 hc0 hc1 x0 x1 x2 x3 xs)]
  unfold kernelRun2_C
  dsimp only
  sl_unfold_words
  rw [View.canon_unit_zero hzD]
  simp only [View.readAt_eq_ld, harg2.read_unread, harg3.read_unread, harg4.read_unread, harg5.read_unread, harg7.read_unread,
    View.ld_unit_zero (S := S512x2048) hzD, View.ld_unit_zero (S := S8x2048) hzD, View.ld_unit_zero (S := S512x512) hzD]
  rfl

/-- and the output block at the accumulator read back: the same function. -/
theorem out2_C_4_eq (c : Dev nD) (i : grid2.Coords) (arg2 : Memref sig .tc .vmem S512x14336 .bf16) (harg2 : arg2.IsWhole) (arg3 : Memref sig .tc .vmem S512x2048 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S512x512 .f32) (harg6 : arg6.IsWhole) (arg7 : Memref sig .tc .vmem S512x512 .f32) (harg7 : arg7.IsWhole) (hc0 : ¬cond2_0 i) (hc1 : cond2_1 i) (x0 : Vec F S512x14336 .bf16) (x1 : Vec F S512x2048 .i32) (x2 x3 : Vec F S8x2048 .f32) (xs : Vec F S512x512 .f32) :
    out2_C_4 c i arg2 harg2 arg3 harg3 arg4 harg4 arg5 harg5 arg6 harg6 arg7 harg7 hc0 hc1 x0 x1 x2 x3 xs = k2_pay2 (View.ld x0 (colsRect i)) x1 x2 x3 xs := by
  unfold out2_C_4
  rw [View.read_writes_eq_canon _ _ _ (cover2_C_4 c i arg2 harg2 arg3 harg3 arg4 harg4 arg5 harg5 arg6 harg6 arg7 harg7 hc0 hc1 x0 x1 x2 x3 xs)]
  unfold kernelRun2_C
  dsimp only
  sl_unfold_words
  rw [View.canon_unit_zero hzD, View.readCov_unit_zero (S := S512x512) _ hzD]
  simp only [View.readAt_eq_ld, harg2.read_unread, harg3.read_unread, harg4.read_unread, harg5.read_unread, harg7.read_unread,
    View.ld_unit_zero (S := S512x2048) hzD, View.ld_unit_zero (S := S8x2048) hzD, View.ld_unit_zero (S := S512x512) hzD]
  rfl

namespace Acc

/-! ## One point's accumulation, from the blocks of whole arrays -/

/-- Column `k` of block `j` of the ffn axis (total in `j`; the array's blocks are `j < 7`). -/
def col (j : ℕ) (k : Fin 2048) : Fin 14336 := ⟨(2048 * j + k.val) % 14336, Nat.mod_lt _ (by decide)⟩
/-- Row `r` of block `h` of the hidden axis (total in `h`; the array's blocks are `h < 8`). -/
def row (h : ℕ) (r : Fin 512) : Fin 4096 := ⟨(512 * h + r.val) % 4096, Nat.mod_lt _ (by decide)⟩

/-- Block `j`'s share of the output at token `p`, hidden row `r` of block `h`. -/
def blockTerm (X : Vec Ideal S512x14336 .bf16) (Q : IVec Cert.Spec.SHxF 32) (S Z : FVec Ideal Cert.Spec.SGHxF .f32)
    (h j : ℕ) (p r : Fin 512) : EReal :=
  ∑ k : Fin 2048, X (ix2 p (col j k)) * Cert.Spec.wHF Q S Z (row h r) (col j k)

/-- One point adds its block's share to what the accumulator held, when its four inputs are the blocks of whole
    arrays: the intermediate's columns `2048 j …`, the codes' rows `512 h …` and those columns, the scales' and zero
    points' rows `8 h …`. Row `r` of the block is row `512 h + r` of the weight, whose group is `8 h + r / 64`. -/
theorem down_point (X : Vec Ideal S512x14336 .bf16) (Q : IVec Cert.Spec.SHxF 32) (S Z : FVec Ideal Cert.Spec.SGHxF .f32)
    (v6 : Vec Ideal S512x2048 .bf16) (x1 : Vec Ideal S512x2048 .i32) (x2 x3 : Vec Ideal S8x2048 .f32)
    (xs : Vec Ideal S512x512 .f32) (h j : ℕ) (hh : h < 8)
    (e0 : ∀ (p : Fin 512) (k : Fin 2048), v6 (ix2 p k) = X (ix2 p (col j k)))
    (e1 : ∀ (r : Fin 512) (k : Fin 2048), x1 (ix2 r k) = Q (ix2 (row h r) (col j k)))
    (e2 : ∀ (g : Fin 8) (k : Fin 2048) (G : Fin 64), G.val = 8 * h + g.val → x2 (ix2 g k) = S (ix2 G (col j k)))
    (e3 : ∀ (g : Fin 8) (k : Fin 2048) (G : Fin 64), G.val = 8 * h + g.val → x3 (ix2 g k) = Z (ix2 G (col j k)))
    (p r : Fin 512) :
    k2_pay2 (F := Ideal) v6 x1 x2 x3 xs (ix2 p r) = xs (ix2 p r) + blockTerm X Q S Z h j p r := by
  rw [pay2_apply]
  unfold blockTerm Cert.Spec.wHF
  refine congrArg (xs (ix2 p r) + ·) (Finset.sum_congr rfl fun k _ => ?_)
  have hg : (Cert.Spec.grpH (row h r)).val = 8 * h + (g8 r).val := by
    show (512 * h + r.val) % 4096 / 64 = 8 * h + r.val / 64
    have := r.isLt
    omega
  rw [e0 p k, e1 r k, e2 (g8 r) k (Cert.Spec.grpH (row h r)) hg, e3 (g8 r) k (Cert.Spec.grpH (row h r)) hg]

/-- The block indices and the load's offsets over the grid: the intermediate array never moves, the codes, scales and
    zero points follow the point's two coordinates, and the columns loaded start at 2048 times the second. -/
theorem down_idx : ∀ t : Fin cfg2.N,
    win2_0.index t (0 : Fin 2) = 0 ∧ win2_0.index t (1 : Fin 2) = 0
    ∧ win2_1.index t (0 : Fin 2) = t.val / 7 ∧ win2_1.index t (1 : Fin 2) = t.val % 7
    ∧ win2_2.index t (0 : Fin 2) = t.val / 7 ∧ win2_2.index t (1 : Fin 2) = t.val % 7
    ∧ win2_3.index t (0 : Fin 2) = t.val / 7 ∧ win2_3.index t (1 : Fin 2) = t.val % 7
    ∧ k2_off1 (grid2.coords t) (0 : Fin 2) = 0 ∧ k2_off1 (grid2.coords t) (1 : Fin 2) = 2048 * (t.val % 7) :=
  (by decide +kernel : ∀ t : Fin grid2.N, _)

/-! ## The blocks a point is handed are the arrays' entries -/

section Down

variable (V : (c : Dev nD) → (b : Ref sig .tc) → Buf (Elt Ideal) ((c : Thread nD τ).loc b))

/-- The columns a point loads from the intermediate array (its window is the whole array). -/
theorem blk2_0 (c : Dev nD) (t : Fin cfg2.N) (p : Fin 512) (k : Fin 2048) :
    View.ld (iblk2 V c 0 t) (colsRect (grid2.coords t)) (ix2 p k) = V c main_v2 (ix2 p (col (t.val % 7) k)) := by
  obtain ⟨e00, e01, e10, e11, e20, e21, e30, e31, o0, o1⟩ := down_idx t
  have hk := k.isLt
  show V c main_v2 (((cfg2.win 0).blk t).view.emb ((colsRect (grid2.coords t)).emb (ix2 p k)))
    = V c main_v2 (ix2 p (col (t.val % 7) k))
  refine congrArg (V c main_v2) (funext fun a => Fin.ext ?_)
  match a with
  | ⟨0, _⟩ =>
    show win2_0.index t (0 : Fin 2) * 512 + 1 * (k2_off1 (grid2.coords t) (0 : Fin 2) + 1 * p.val) = p.val
    omega
  | ⟨1, _⟩ =>
    show win2_0.index t (1 : Fin 2) * 14336 + 1 * (k2_off1 (grid2.coords t) (1 : Fin 2) + 1 * k.val)
      = (2048 * (t.val % 7) + k.val) % 14336
    omega

/-- The codes' block. -/
theorem blk2_1 (c : Dev nD) (t : Fin cfg2.N) (r : Fin 512) (k : Fin 2048) :
    iblk2 V c 1 t (ix2 r k) = V c main_arg4 (ix2 (row (t.val / 7) r) (col (t.val % 7) k)) := by
  obtain ⟨e00, e01, e10, e11, e20, e21, e30, e31, o0, o1⟩ := down_idx t
  have hN : t.val < 56 := lt_of_lt_of_eq t.isLt (show cfg2.N = 56 from N_2)
  have hk := k.isLt
  have hr := r.isLt
  show V c main_arg4 (((cfg2.win 1).blk t).view.emb (ix2 r k))
    = V c main_arg4 (ix2 (row (t.val / 7) r) (col (t.val % 7) k))
  refine congrArg (V c main_arg4) (funext fun a => Fin.ext ?_)
  match a with
  | ⟨0, _⟩ =>
    show win2_1.index t (0 : Fin 2) * 512 + 1 * r.val = (512 * (t.val / 7) + r.val) % 4096
    omega
  | ⟨1, _⟩ =>
    show win2_1.index t (1 : Fin 2) * 2048 + 1 * k.val = (2048 * (t.val % 7) + k.val) % 14336
    omega

/-- The scales' block. -/
theorem blk2_2 (c : Dev nD) (t : Fin cfg2.N) (g : Fin 8) (k : Fin 2048) (G : Fin 64) (hG : G.val = 8 * (t.val / 7) + g.val) :
    iblk2 V c 2 t (ix2 g k) = V c main_arg5 (ix2 G (col (t.val % 7) k)) := by
  obtain ⟨e00, e01, e10, e11, e20, e21, e30, e31, o0, o1⟩ := down_idx t
  have hk := k.isLt
  show V c main_arg5 (((cfg2.win 2).blk t).view.emb (ix2 g k)) = V c main_arg5 (ix2 G (col (t.val % 7) k))
  refine congrArg (V c main_arg5) (funext fun a => Fin.ext ?_)
  match a with
  | ⟨0, _⟩ =>
    show win2_2.index t (0 : Fin 2) * 8 + 1 * g.val = G.val
    omega
  | ⟨1, _⟩ =>
    show win2_2.index t (1 : Fin 2) * 2048 + 1 * k.val = (2048 * (t.val % 7) + k.val) % 14336
    omega

/-- The zero points' block. -/
theorem blk2_3 (c : Dev nD) (t : Fin cfg2.N) (g : Fin 8) (k : Fin 2048) (G : Fin 64) (hG : G.val = 8 * (t.val / 7) + g.val) :
    iblk2 V c 3 t (ix2 g k) = V c main_arg6 (ix2 G (col (t.val % 7) k)) := by
  obtain ⟨e00, e01, e10, e11, e20, e21, e30, e31, o0, o1⟩ := down_idx t
  have hk := k.isLt
  show V c main_arg6 (((cfg2.win 3).blk t).view.emb (ix2 g k)) = V c main_arg6 (ix2 G (col (t.val % 7) k))
  refine congrArg (V c main_arg6) (funext fun a => Fin.ext ?_)
  match a with
  | ⟨0, _⟩ =>
    show win2_3.index t (0 : Fin 2) * 8 + 1 * g.val = G.val
    omega
  | ⟨1, _⟩ =>
    show win2_3.index t (1 : Fin 2) * 2048 + 1 * k.val = (2048 * (t.val % 7) + k.val) % 14336
    omega

/-- Block `j`'s share at core `c`, of the arrays as the region finds them. -/
abbrev share (c : Dev nD) (h j : ℕ) (p r : Fin 512) : EReal :=
  blockTerm (V c main_v2) (V c main_arg4) (V c main_arg5) (V c main_arg6) h j p r

/-- The body's accumulation at point `t`, over any earlier contents `xs` of the accumulator. -/
theorem acc_step (c : Dev nD) (t : Fin cfg2.N) (xs : Vec Ideal S512x512 .f32) (p r : Fin 512) :
    k2_pay2 (F := Ideal) (View.ld (iblk2 V c 0 t) (colsRect (grid2.coords t))) (iblk2 V c 1 t) (iblk2 V c 2 t) (iblk2 V c 3 t) xs (ix2 p r)
      = xs (ix2 p r) + share V c (t.val / 7) (t.val % 7) p r :=
  down_point (V c main_v2) (V c main_arg4) (V c main_arg5) (V c main_arg6)
    (View.ld (iblk2 V c 0 t) (colsRect (grid2.coords t))) (iblk2 V c 1 t) (iblk2 V c 2 t) (iblk2 V c 3 t) xs
    (t.val / 7) (t.val % 7)
    (by have hN : t.val < 56 := lt_of_lt_of_eq t.isLt (show cfg2.N = 56 from N_2); omega)
    (blk2_0 V c t) (blk2_1 V c t) (blk2_2 V c t) (blk2_3 V c t) p r

/-! ## The accumulator along a row of the grid -/

/-- At the first point of a row the accumulator ends at the first block's share. -/
theorem acc_first (c : Dev nD) (n : ℕ) (hn : n < cfg2.N) (h0 : n % 7 = 0) (p r : Fin 512) :
    (outsAt2 V c n hn).2 (ix2 p r) = share V c (n / 7) 0 p r := by
  have h1 : ¬n % 7 = 6 := by omega
  rw [outsAt2_A V c ⟨n, hn⟩ h0 h1]
  dsimp only
  rw [sout2_A_eq]
  refine (acc_step V c ⟨n, hn⟩ (k2_pay1 (F := Ideal)) p r).trans ?_
  rw [pay2_zero, zero_add]
  show share V c (n / 7) (n % 7) p r = share V c (n / 7) 0 p r
  rw [h0]

/-- At any other point it ends at what the point before left plus the point's block's share. -/
theorem acc_succ (c : Dev nD) (n : ℕ) (hn : n + 1 < cfg2.N) (h0 : ¬(n + 1) % 7 = 0) (p r : Fin 512) :
    (outsAt2 V c (n + 1) hn).2 (ix2 p r)
      = (outsAt2 V c n (Nat.lt_of_succ_lt hn)).2 (ix2 p r) + share V c ((n + 1) / 7) ((n + 1) % 7) p r := by
  by_cases h1 : (n + 1) % 7 = 6
  · rw [outsAt2_C V c ⟨n + 1, hn⟩ h0 h1]
    dsimp only
    rw [sout2_C_eq]
    exact acc_step V c ⟨n + 1, hn⟩ (outsAt2 V c n (Nat.lt_of_succ_lt hn)).2 p r
  · rw [outsAt2_B V c ⟨n + 1, hn⟩ h0 h1]
    dsimp only
    rw [sout2_B_eq]
    exact acc_step V c ⟨n + 1, hn⟩ (outsAt2 V c n (Nat.lt_of_succ_lt hn)).2 p r

/-- After point `n` the accumulator holds the shares of the row's blocks up to the point's. -/
theorem acc_inv (c : Dev nD) : ∀ (n : ℕ) (hn : n < cfg2.N) (p r : Fin 512),
    (outsAt2 V c n hn).2 (ix2 p r) = ∑ j ∈ Finset.range (n % 7 + 1), share V c (n / 7) j p r := by
  intro n
  induction n with
  | zero =>
    intro hn p r
    rw [acc_first V c 0 hn (Nat.zero_mod 7) p r]
    simp
  | succ m ih =>
    intro hn p r
    by_cases h0 : (m + 1) % 7 = 0
    · rw [acc_first V c (m + 1) hn h0 p r, h0]
      simp
    · rw [acc_succ V c m hn h0 p r, ih (Nat.lt_of_succ_lt hn) p r]
      have e1 : (m + 1) / 7 = m / 7 := by omega
      have e2 : (m + 1) % 7 = m % 7 + 1 := by omega
      rw [e1, e2, Finset.sum_range_succ (fun j => share V c (m / 7) j p r) (m % 7 + 1)]

/-- At the last point of a row the output block holds what the accumulator does. -/
theorem out_last (c : Dev nD) (t : Fin cfg2.N) (h1 : t.val % 7 = 6) :
    (outsAt2 V c t.val t.isLt).1 = (outsAt2 V c t.val t.isLt).2 := by
  have h0 : ¬t.val % 7 = 0 := by omega
  rw [outsAt2_C V c t h0 h1]
  dsimp only
  rw [out2_C_4_eq, sout2_C_eq]

/-- At the last point of row `t / 7` of the grid the output block holds, at token `p` and its column `r`, the whole
    contraction over the ffn axis against row `512 (t / 7) + r` of the dequantized down matrix. -/
theorem acc_last_aux (c : Dev nD) (t : Fin cfg2.N) (h1 : t.val % 7 = 6) (p r : Fin 512) :
    (outsAt2 (F := Ideal) V c t.val t.isLt).1 (ix2 p r)
      = ∑ f : Fin 14336, HMul.hMul (α := EReal) (β := EReal) (γ := EReal) ((V c main_v2) (ix2 p f))
          (Cert.Spec.wHF (V c main_arg4) (V c main_arg5) (V c main_arg6)
              ⟨512 * (t.val / 7) + r.val, by
                have := t.isLt; have : cfg2.N = 56 := N_2; have := r.isLt; omega⟩ f) := by
  have hN : t.val < 56 := lt_of_lt_of_eq t.isLt (show cfg2.N = 56 from N_2)
  have hr := r.isLt
  rw [out_last V c t h1, acc_inv V c t.val t.isLt p r, h1, Finset.sum_range, Cert.Spec.sum_blocks]
  refine Finset.sum_congr rfl fun j _ => ?_
  have hj := j.isLt
  unfold share blockTerm
  refine Finset.sum_congr rfl fun k _ => ?_
  have hk := k.isLt
  have ec : col j.val k = ⟨2048 * j.val + k.val, by omega⟩ := Fin.ext (by show (2048 * j.val + k.val) % 14336 = 2048 * j.val + k.val; omega)
  have er : row (t.val / 7) r = ⟨512 * (t.val / 7) + r.val, by omega⟩ :=
    Fin.ext (by show (512 * (t.val / 7) + r.val) % 4096 = 512 * (t.val / 7) + r.val; omega)
  rw [ec, er]

end Down

end Acc

/-- At the last point of row `t / 7` of the grid the output block holds, at token `p` and its column `r`, the whole
    contraction over the ffn axis against row `512 (t / 7) + r` of the dequantized down matrix. -/
theorem acc_last (V : (c : Dev nD) → (b : Ref sig .tc) → Buf (Elt Ideal) ((c : Thread nD τ).loc b)) (c : Dev nD) :
    ∀ (t : Fin cfg2.N), t.val % 7 = 6 → ∀ (p r : Fin 512),
      (outsAt2 (F := Ideal) V c t.val t.isLt).1 (ix2 p r)
        = ∑ f : Fin 14336, HMul.hMul (α := EReal) (β := EReal) (γ := EReal) ((V c main_v2) (ix2 p f))
            (Cert.Spec.wHF (V c main_arg4) (V c main_arg5) (V c main_arg6)
              ⟨512 * (t.val / 7) + r.val, by
                have := t.isLt; have : cfg2.N = 56 := N_2; have := r.isLt; omega⟩ f) :=
  fun t h1 p r => Acc.acc_last_aux V c t h1 p r

end Cert.KernelIdeal.Val

end
-- ==== Proof.DownArray.lean ====
/-
  The block's output array, whole, from what the accumulator holds when a row of the grid ends: the 8 rows' last points
  write back the 8 column blocks of `inter W2ᵀ`, and those tile the array.
-/
import proofs.«103602_j18279380812578_2_alg».proof.Proof.Down
import proofs.«103602_j18279380812578_2_alg».proof.Proof.Spec
import Idealize.ShloMosaic.Lib.Pipeline.Value

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- A 512 × 512 block whose column `r` is the sum for row `512 u + r` of the weight is block `u` of the array of
    those sums. -/
theorem down_point (A : FVec Ideal Cert.Spec.STxF .f32) (W : Fin 4096 → Fin 14336 → EReal)
    (o : Vec Ideal S512x512 .f32) (u : Nat)
    (Ho : ∀ (p r : Fin 512) (n : Fin 4096), n.val = 512 * u + r.val → o (ix2 p r) = ∑ f : Fin 14336, A (ix2 p f) * W n f)
    (y : S512x512.Idx) (j : Cert.Spec.STxH.Idx) (h0 : (j 0).val = (y 0).val) (h1 : (j 1).val = 512 * u + (y 1).val) :
    o y = ∑ f : Fin 14336, A (ix2 (j 0) f) * W (j 1) f := by
  obtain ⟨p, r, rfl⟩ : ∃ (p : Fin 512) (r : Fin 512), y = ix2 p r := ⟨y 0, y 1, eq_ix2 y⟩
  obtain ⟨m, n, rfl⟩ : ∃ (m : Fin 512) (n : Fin 4096), j = ix2 m n := ⟨j 0, j 1, eq_ix2 j⟩
  obtain rfl : m = p := Fin.ext h0
  exact Ho m r n h1

section Down

variable (V : (c : Dev nD) → (b : Ref sig .tc) → Buf (Elt Ideal) ((c : Thread nD τ).loc b))

/-- The output's block index over the grid: all the tokens, the column block of the point's row. -/
theorem down_idx : ∀ t : Fin cfg2.N, win2_4.index t (0 : Fin 2) = 0 ∧ win2_4.index t (1 : Fin 2) = t.val / 7 :=
  (by decide +kernel : ∀ t : Fin grid2.N, _)

/-- `inter W2ᵀ` of the arrays as the region finds them, index by index. -/
abbrev downG (c : Dev nD) : S512x4096.Idx → Elt Ideal .f32 :=
  fun j => ∑ f : Fin 14336, HMul.hMul (α := EReal) (β := EReal) (γ := EReal) ((V c main_v2) (ix2 (j 0) f)) (Cert.Spec.wHF (V c main_arg4) (V c main_arg5) (V c main_arg6) (j 1) f)

/-- What a row's last point writes back is that row's block of the array of sums. -/
theorem down_flushed_of (c : Dev nD)
    (H : ∀ (t : Fin cfg2.N), t.val % 7 = 6 → ∀ (p r : Fin 512),
          (outsAt2 (F := Ideal) V c t.val t.isLt).1 (ix2 p r)
            = ∑ f : Fin 14336, HMul.hMul (α := EReal) (β := EReal) (γ := EReal) ((V c main_v2) (ix2 p f)) (Cert.Spec.wHF (V c main_arg4) (V c main_arg5) (V c main_arg6) ⟨512 * (t.val / 7) + r.val, by have := t.isLt; have : cfg2.N = 56 := N_2; have := r.isLt; omega⟩ f))
    (t : Fin cfg2.N) (hf : (cfg2.win 4).flush t = true) :
    (dat2 (F := Ideal) V c).flushed 4 t = ((cfg2.win 4).blk t).view.read (Elt Ideal) (downG V c) := by
  have h6 : t.val % 7 = 6 := (flush2_4 t).mp hf
  show (cfg2.win 4).cut (grid2.coords t) ((dat2 (F := Ideal) V c).after 4 t) = _
  rw [after2_4]
  obtain ⟨e0, e1⟩ := down_idx t
  funext y
  show (outsAt2 (F := Ideal) V c t.val t.isLt).1 y
    = ∑ f : Fin 14336, HMul.hMul (α := EReal) (β := EReal) (γ := EReal) ((V c main_v2) (ix2 ((((cfg2.win 4).blk t).view.emb y) 0) f))
        (Cert.Spec.wHF (V c main_arg4) (V c main_arg5) (V c main_arg6) ((((cfg2.win 4).blk t).view.emb y) 1) f)
  refine down_point (V c main_v2) (Cert.Spec.wHF (V c main_arg4) (V c main_arg5) (V c main_arg6))
    ((outsAt2 (F := Ideal) V c t.val t.isLt).1) (t.val / 7) ?_ y (((cfg2.win 4).blk t).view.emb y) ?_ ?_
  · intro p r
    have hb : 512 * (t.val / 7) + r.val < 4096 := by have := t.isLt; have : cfg2.N = 56 := N_2; have := r.isLt; omega
    intro n hn
    have e : n = ⟨512 * (t.val / 7) + r.val, hb⟩ := Fin.ext hn
    rw [e]
    exact H t h6 p r
  · show win2_4.index t (0 : Fin 2) * 512 + 1 * (y 0).val = (y 0).val; omega
  · show win2_4.index t (1 : Fin 2) * 512 + 1 * (y 1).val = 512 * (t.val / 7) + (y 1).val; omega

/-- An index of the array is in point `t`'s block iff each coordinate is in the block's range on its axis. -/
theorem down_mem_blk (t : Fin cfg2.N) (i : S512x4096.Idx) :
    i ∈ ((cfg2.win 4).blk t).view.set ↔ ∀ a : Fin 2, win2_4.index t a * S512x512.size a ≤ (i a).val ∧ (i a).val < win2_4.index t a * S512x512.size a + S512x512.size a := by
  show i ∈ ((View.whole main_v3).slice (win2_4.rect t)).set ↔ _
  rw [View.set_slice_whole, Rect.mem_set_unit]
  exact Iff.rfl

/-- Column `n` of the array is written back by the last point of row `n / 512` of the grid. -/
theorem down_cover (i : S512x4096.Idx) :
    ∃ t : Fin cfg2.N, (cfg2.win 4).flush t = true ∧ i ∈ ((cfg2.win 4).blk t).view.set := by
  have hi0 : (i 0).val < 512 := (i 0).isLt
  have hi1 : (i 1).val < 4096 := (i 1).isLt
  have hN : cfg2.N = 56 := N_2
  let t : Fin cfg2.N := ⟨7 * ((i 1).val / 512) + 6, by rw [hN]; omega⟩
  obtain ⟨e0, e1⟩ := down_idx t
  have ht : t.val = 7 * ((i 1).val / 512) + 6 := rfl
  refine ⟨t, (flush2_4 t).mpr (by omega), ?_⟩
  rw [down_mem_blk]
  intro a
  match a with
  | ⟨0, _⟩ => show win2_4.index t (0 : Fin 2) * 512 ≤ (i 0).val ∧ (i 0).val < win2_4.index t (0 : Fin 2) * 512 + 512; omega
  | ⟨1, _⟩ => show win2_4.index t (1 : Fin 2) * 512 ≤ (i 1).val ∧ (i 1).val < win2_4.index t (1 : Fin 2) * 512 + 512; omega

/-- The output array after the region, given what the accumulator holds at each row's last point: the sums, whole. -/
theorem down_final_of (c : Dev nD)
    (H : ∀ (t : Fin cfg2.N), t.val % 7 = 6 → ∀ (p r : Fin 512),
          (outsAt2 (F := Ideal) V c t.val t.isLt).1 (ix2 p r)
            = ∑ f : Fin 14336, HMul.hMul (α := EReal) (β := EReal) (γ := EReal) ((V c main_v2) (ix2 p f)) (Cert.Spec.wHF (V c main_arg4) (V c main_arg5) (V c main_arg6) ⟨512 * (t.val / 7) + r.val, by have := t.isLt; have : cfg2.N = 56 := N_2; have := r.isLt; omega⟩ f)) :
    (dat2 (F := Ideal) V c).arrAt 4 cfg2.N
      = fun j => ∑ f : Fin 14336, HMul.hMul (α := EReal) (β := EReal) (γ := EReal) ((V c main_v2) (ix2 (j 0) f)) (Cert.Spec.wHF (V c main_arg4) (V c main_arg5) (V c main_arg6) (j 1) f) :=
  (dat2 (F := Ideal) V c).arrAt_eq_of_cover 4 (downG V c) (fun t hf => down_flushed_of V c H t hf) down_cover

end Down

end Cert.KernelIdeal.Val

end
-- ==== Proof.KernelValue.lean ====
/-
  The idealized kernel's result is the specification.

  At the ideal instance the host operation before the regions is the identity, so the gate projection reads the activations
  themselves; its output array is `x W1ᵀ`. The up projection reads that array and the activations and leaves
  `silu(x W1ᵀ) ⊙ (x W3ᵀ)`, the intermediate array. The down projection reads the intermediate array and leaves its product
  with the dequantized down weight, summed over the whole ffn axis. Each region's weight arrays are argument arrays, which
  nothing before it has written. Substituting the three region results into one another gives the specification's `G`.
-/
import proofs.«103602_j18279380812578_2_alg».proof.Proof.Chain
import proofs.«103602_j18279380812578_2_alg».proof.Proof.GateValue
import proofs.«103602_j18279380812578_2_alg».proof.Proof.UpValue
import proofs.«103602_j18279380812578_2_alg».proof.Proof.DownValue
import proofs.«103602_j18279380812578_2_alg».proof.Proof.DownArray
import proofs.«103602_j18279380812578_2_alg».proof.Proof.Spec
import Idealize.ShloMosaic.Lib.StableHlo.Run

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The activations as the first region finds them: the host's change of format is the identity on extended reals. -/
theorem entry_x (c : Dev nD) :
    (V1 (F := Ideal) m ρ c main_v0 : S512x4096.Idx → EReal) = (m ((c : Thread nD τ).loc main_arg0) : S512x4096.Idx → EReal) := by
  dsimp only [V1, W1, hostOps0]
  after_results
  rfl

/-- The second region finds the same activations: the first only reads them. -/
theorem entry_x' (c : Dev nD) :
    (V2 (F := Ideal) m ρ c main_v0 : S512x4096.Idx → EReal) = (m ((c : Thread nD τ).loc main_arg0) : S512x4096.Idx → EReal) :=
  ((W2_arr m ρ c 0).trans (((dat0 (V1 m ρ) c).arrAt_in 0 rfl _).trans (A_eq0 (V1 m ρ) c 0))).trans (entry_x m ρ c)

/-- The gate array, as the second region finds it. -/
theorem gate_array (c : Dev nD) :
    (V2 (F := Ideal) m ρ c main_v1 : S512x14336.Idx → EReal)
      = fun j => Cert.Spec.proj (m ((c : Thread nD τ).loc main_arg0)) (m ((c : Thread nD τ).loc main_arg1))
          (m ((c : Thread nD τ).loc main_arg2)) (m ((c : Thread nD τ).loc main_arg3)) (j 0) (j 1) := by
  refine ((W2_arr m ρ c 4).trans (gate_final (V1 m ρ) c)).trans ?_
  rw [entry_x m ρ c, show V1 (F := Ideal) m ρ c main_arg1 = _ from W1_main_arg1 m ρ c,
    show V1 (F := Ideal) m ρ c main_arg2 = _ from W1_main_arg2 m ρ c, show V1 (F := Ideal) m ρ c main_arg3 = _ from W1_main_arg3 m ρ c]

/-- The intermediate array, as the third region finds it. -/
theorem inter_array (c : Dev nD) :
    (V3 (F := Ideal) m ρ c main_v2 : S512x14336.Idx → EReal)
      = fun j => Cert.Spec.inter (m ((c : Thread nD τ).loc main_arg0)) (m ((c : Thread nD τ).loc main_arg1))
          (m ((c : Thread nD τ).loc main_arg2)) (m ((c : Thread nD τ).loc main_arg3)) (m ((c : Thread nD τ).loc main_arg7))
          (m ((c : Thread nD τ).loc main_arg8)) (m ((c : Thread nD τ).loc main_arg9)) (j 0) (j 1) := by
  refine ((W3_arr m ρ c 5).trans (up_final (V2 m ρ) c)).trans ?_
  rw [gate_array m ρ c, entry_x' m ρ c, show V2 (F := Ideal) m ρ c main_arg7 = _ from W2_main_arg7 m ρ c,
    show V2 (F := Ideal) m ρ c main_arg8 = _ from W2_main_arg8 m ρ c, show V2 (F := Ideal) m ρ c main_arg9 = _ from W2_main_arg9 m ρ c]
  rfl

/-- The result array after the last region is the specification of the argument arrays. -/
theorem result_array (c : Dev nD) :
    (W4 (F := Ideal) m ρ c (Proc.devRef .tc main_v3) : S512x4096.Idx → EReal)
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) := by
  refine ((W4_arr m ρ c 4).trans (down_final_of (V3 m ρ) c (acc_last (V3 m ρ) c))).trans ?_
  rw [inter_array m ρ c, show V3 (F := Ideal) m ρ c main_arg4 = _ from W3_main_arg4 m ρ c,
    show V3 (F := Ideal) m ρ c main_arg5 = _ from W3_main_arg5 m ρ c, show V3 (F := Ideal) m ρ c main_arg6 = _ from W3_main_arg6 m ρ c]
  rfl

/-- The idealized kernel's run with its result named: every weakly fair execution terminates with the result array at the
    specification of the launch contents of the arguments, and the arguments as launched. -/
theorem run : θ_run defs (onTc (τ := τ) (main (F := Ideal))) ⟨m, fun _ => 0, ρ⟩ (fun r => ∀ c : Dev nD,
      r.2.mem ((c.tc : Thread nD τ).loc main_v3) = Cert.Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_v3 (by decide))).trans (result_array m ρ c),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c)⟩) (run_all (F := Ideal) m ρ)

end Cert.KernelIdeal.Val

end
-- ==== Proof.RefIsSpec.lean ====
/-
  The reference program computes the specification: its result array, as the composition of its operations on the ten
  argument arrays, is `Cert.Spec.G` of them, index by index on the extended reals.

  Each weight matrix is dequantized through a reshape to groups of 64 rows, so row `n` reads the zero point and scale of
  group `n / 64`; each projection is a contraction over the hidden axis against the transposed matrix; the gate is
  `g * (1 / (1 + e^(-g)))`, which is `g * logistic g` by the definition of `Ideal.logistic`; the result is the contraction
  over the ffn axis against the transposed down matrix.
-/
import proofs.«103602_j18279380812578_2_alg».proof.Proof.Gen.ReferenceIdeal.Read
import proofs.«103602_j18279380812578_2_alg».proof.Proof.Spec
import Idealize.ShloMosaic.Lib.IdealHost

noncomputable section

open scoped BigOperators

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- Row `n`, column `k` of the gate_w dequantized matrix is the specification's entry: the reshape to groups of 64 rows
    sends row `n` to group `n / 64`, and back. -/
theorem gate_w_at (q : (⟨S14336x4096, .i32⟩ : BufTy).Contents (Elt Ideal)) (s z : (⟨S224x4096, .f32⟩ : BufTy).Contents (Elt Ideal)) (n : Fin 14336) (k : Fin 4096) :
    val_main_v8 (F := Ideal) q s z (ix2 n k) = Spec.wFH q s z n k := by
  have hn := n.isLt
  have hk := k.isLt
  have e0 : idx_main_v0 (idx_main_v8 (ix2 n k)) = ix2 n k := by
    funext a
    match a with
    | ⟨0, _⟩ =>
      refine Fin.ext ?_
      show (((n.val * 4096 + k.val) / 262144 * 64 + (n.val * 4096 + k.val) / 4096 % 64) * 4096
        + (n.val * 4096 + k.val) % 4096) / 4096 = n.val
      omega
    | ⟨1, _⟩ =>
      refine Fin.ext ?_
      show (((n.val * 4096 + k.val) / 262144 * 64 + (n.val * 4096 + k.val) / 4096 % 64) * 4096
        + (n.val * 4096 + k.val) % 4096) % 4096 = k.val
      omega
  have e1 : idx_main_v2 (idx_main_v3 (idx_main_v8 (ix2 n k))) = ix2 (Spec.grpF n) k := by
    funext a
    match a with
    | ⟨0, _⟩ =>
      refine Fin.ext ?_
      show (n.val * 4096 + k.val) / 262144 = n.val / 64
      omega
    | ⟨1, _⟩ =>
      refine Fin.ext ?_
      show (n.val * 4096 + k.val) % 4096 = k.val
      omega
  have e2 : idx_main_v5 (idx_main_v6 (idx_main_v8 (ix2 n k))) = ix2 (Spec.grpF n) k := by
    funext a
    match a with
    | ⟨0, _⟩ =>
      refine Fin.ext ?_
      show (n.val * 4096 + k.val) / 262144 = n.val / 64
      omega
    | ⟨1, _⟩ =>
      refine Fin.ext ?_
      show (n.val * 4096 + k.val) % 4096 = k.val
      omega
  rw [val_main_v8_apply, val_main_v7_apply, val_main_v4_apply, val_main_v1_apply, val_main_v0_apply,
    val_main_v3_apply, val_main_v2_apply, val_main_v6_apply, val_main_v5_apply, e0, e1, e2]
  rfl

/-- Row `n`, column `k` of the up_w dequantized matrix is the specification's entry: the reshape to groups of 64 rows
    sends row `n` to group `n / 64`, and back. -/
theorem up_w_at (q : (⟨S14336x4096, .i32⟩ : BufTy).Contents (Elt Ideal)) (s z : (⟨S224x4096, .f32⟩ : BufTy).Contents (Elt Ideal)) (n : Fin 14336) (k : Fin 4096) :
    val_main_v19 (F := Ideal) q s z (ix2 n k) = Spec.wFH q s z n k := by
  have hn := n.isLt
  have hk := k.isLt
  have e0 : idx_main_v11 (idx_main_v19 (ix2 n k)) = ix2 n k := by
    funext a
    match a with
    | ⟨0, _⟩ =>
      refine Fin.ext ?_
      show (((n.val * 4096 + k.val) / 262144 * 64 + (n.val * 4096 + k.val) / 4096 % 64) * 4096
        + (n.val * 4096 + k.val) % 4096) / 4096 = n.val
      omega
    | ⟨1, _⟩ =>
      refine Fin.ext ?_
      show (((n.val * 4096 + k.val) / 262144 * 64 + (n.val * 4096 + k.val) / 4096 % 64) * 4096
        + (n.val * 4096 + k.val) % 4096) % 4096 = k.val
      omega
  have e1 : idx_main_v13 (idx_main_v14 (idx_main_v19 (ix2 n k))) = ix2 (Spec.grpF n) k := by
    funext a
    match a with
    | ⟨0, _⟩ =>
      refine Fin.ext ?_
      show (n.val * 4096 + k.val) / 262144 = n.val / 64
      omega
    | ⟨1, _⟩ =>
      refine Fin.ext ?_
      show (n.val * 4096 + k.val) % 4096 = k.val
      omega
  have e2 : idx_main_v16 (idx_main_v17 (idx_main_v19 (ix2 n k))) = ix2 (Spec.grpF n) k := by
    funext a
    match a with
    | ⟨0, _⟩ =>
      refine Fin.ext ?_
      show (n.val * 4096 + k.val) / 262144 = n.val / 64
      omega
    | ⟨1, _⟩ =>
      refine Fin.ext ?_
      show (n.val * 4096 + k.val) % 4096 = k.val
      omega
  rw [val_main_v19_apply, val_main_v18_apply, val_main_v15_apply, val_main_v12_apply, val_main_v11_apply,
    val_main_v14_apply, val_main_v13_apply, val_main_v17_apply, val_main_v16_apply, e0, e1, e2]
  rfl

/-- Row `h`, column `f` of the dequantized down matrix is the specification's entry. -/
theorem down_w_at (q : (⟨S4096x14336, .i32⟩ : BufTy).Contents (Elt Ideal)) (s z : (⟨S64x14336, .f32⟩ : BufTy).Contents (Elt Ideal)) (h : Fin 4096) (f : Fin 14336) :
    val_main_v32 (F := Ideal) q s z (ix2 h f) = Spec.wHF q s z h f := by
  have hh := h.isLt
  have hf := f.isLt
  have e0 : idx_main_v24 (idx_main_v32 (ix2 h f)) = ix2 h f := by
    funext a
    match a with
    | ⟨0, _⟩ =>
      refine Fin.ext ?_
      show (((h.val * 14336 + f.val) / 917504 * 64 + (h.val * 14336 + f.val) / 14336 % 64) * 14336
        + (h.val * 14336 + f.val) % 14336) / 14336 = h.val
      omega
    | ⟨1, _⟩ =>
      refine Fin.ext ?_
      show (((h.val * 14336 + f.val) / 917504 * 64 + (h.val * 14336 + f.val) / 14336 % 64) * 14336
        + (h.val * 14336 + f.val) % 14336) % 14336 = f.val
      omega
  have e1 : idx_main_v26 (idx_main_v27 (idx_main_v32 (ix2 h f))) = ix2 (Spec.grpH h) f := by
    funext a
    match a with
    | ⟨0, _⟩ =>
      refine Fin.ext ?_
      show (h.val * 14336 + f.val) / 917504 = h.val / 64
      omega
    | ⟨1, _⟩ =>
      refine Fin.ext ?_
      show (h.val * 14336 + f.val) % 14336 = f.val
      omega
  have e2 : idx_main_v29 (idx_main_v30 (idx_main_v32 (ix2 h f))) = ix2 (Spec.grpH h) f := by
    funext a
    match a with
    | ⟨0, _⟩ =>
      refine Fin.ext ?_
      show (h.val * 14336 + f.val) / 917504 = h.val / 64
      omega
    | ⟨1, _⟩ =>
      refine Fin.ext ?_
      show (h.val * 14336 + f.val) % 14336 = f.val
      omega
  rw [val_main_v32_apply, val_main_v31_apply, val_main_v28_apply, val_main_v25_apply, val_main_v24_apply,
    val_main_v27_apply, val_main_v26_apply, val_main_v30_apply, val_main_v29_apply, e0, e1, e2]
  rfl

/-- The gate projection at token `t`, row `n`: the contraction over the hidden axis against the transposed dequantized matrix. -/
theorem gate_at (x : (⟨S512x4096, .f32⟩ : BufTy).Contents (Elt Ideal)) (q : (⟨S14336x4096, .i32⟩ : BufTy).Contents (Elt Ideal)) (s z : (⟨S224x4096, .f32⟩ : BufTy).Contents (Elt Ideal)) (t : Fin 512) (n : Fin 14336) :
    val_main_v10 (F := Ideal) x q s z (ix2 t n) = Spec.proj x q s z t n := by
  rw [val_main_v10_apply]
  refine Finset.sum_congr rfl fun k _ => ?_
  have el : lidx_main_v10 (ix2 t n) k = ix2 t k := by
    funext a
    match a with
    | ⟨0, _⟩ => rfl
    | ⟨1, _⟩ => rfl
  have er : idx_main_v9 (ridx_main_v10 (ix2 t n) k) = ix2 n k := by
    funext a
    match a with
    | ⟨0, _⟩ => rfl
    | ⟨1, _⟩ => rfl
  rw [val_main_v9_apply, el, er, gate_w_at]

/-- The up projection at token `t`, row `n`: the contraction over the hidden axis against the transposed dequantized matrix. -/
theorem up_at (x : (⟨S512x4096, .f32⟩ : BufTy).Contents (Elt Ideal)) (q : (⟨S14336x4096, .i32⟩ : BufTy).Contents (Elt Ideal)) (s z : (⟨S224x4096, .f32⟩ : BufTy).Contents (Elt Ideal)) (t : Fin 512) (n : Fin 14336) :
    val_main_v21 (F := Ideal) x q s z (ix2 t n) = Spec.proj x q s z t n := by
  rw [val_main_v21_apply]
  refine Finset.sum_congr rfl fun k _ => ?_
  have el : lidx_main_v21 (ix2 t n) k = ix2 t k := by
    funext a
    match a with
    | ⟨0, _⟩ => rfl
    | ⟨1, _⟩ => rfl
  have er : idx_main_v20 (ridx_main_v21 (ix2 t n) k) = ix2 n k := by
    funext a
    match a with
    | ⟨0, _⟩ => rfl
    | ⟨1, _⟩ => rfl
  rw [val_main_v20_apply, el, er, up_w_at]

/-- The gated intermediate at token `t`, row `n`: `g * (1 / (1 + e^(-g)))` is `silu g`, the constant `0x3F800000` being one. -/
theorem inter_at (x : (⟨S512x4096, .f32⟩ : BufTy).Contents (Elt Ideal)) (q1 : (⟨S14336x4096, .i32⟩ : BufTy).Contents (Elt Ideal)) (s1 z1 : (⟨S224x4096, .f32⟩ : BufTy).Contents (Elt Ideal)) (q3 : (⟨S14336x4096, .i32⟩ : BufTy).Contents (Elt Ideal)) (s3 z3 : (⟨S224x4096, .f32⟩ : BufTy).Contents (Elt Ideal))
    (t : Fin 512) (n : Fin 14336) :
    val_main_v23 (F := Ideal) x q1 s1 z1 q3 s3 z3 (ix2 t n) = Spec.inter x q1 s1 z1 q3 s3 z3 t n := by
  have h1 : FloatOps.ofBits (F := Ideal) .f32 0x3F800000#32 = (1 : EReal) := Ideal.ofBits_one_f32
  rw [val_main_v23_apply, val_main_v22_apply, val_main_call0_v5_apply, val_main_call0_v4_apply,
    val_main_call0_cst_0_apply, val_main_call0_v3_apply, val_main_call0_v2_apply, val_main_call0_cst_apply,
    val_main_call0_v1_apply, val_main_call0_v0_apply, gate_at, up_at, h1]
  rfl

/-- The reference's result array is the specification's, as functions of the ten argument arrays. -/
theorem ref_is_spec (x0 : (⟨S512x4096, .f32⟩ : BufTy).Contents (Elt Ideal)) (x1 : (⟨S14336x4096, .i32⟩ : BufTy).Contents (Elt Ideal)) (x2 x3 : (⟨S224x4096, .f32⟩ : BufTy).Contents (Elt Ideal)) (x4 : (⟨S4096x14336, .i32⟩ : BufTy).Contents (Elt Ideal)) (x5 x6 : (⟨S64x14336, .f32⟩ : BufTy).Contents (Elt Ideal))
    (x7 : (⟨S14336x4096, .i32⟩ : BufTy).Contents (Elt Ideal)) (x8 x9 : (⟨S224x4096, .f32⟩ : BufTy).Contents (Elt Ideal)) :
    val_main_v34 (F := Ideal) x0 x1 x2 x3 x4 x5 x6 x7 x8 x9 = Cert.Spec.G x0 x1 x2 x3 x4 x5 x6 x7 x8 x9 := by
  funext i
  obtain ⟨t, h, rfl⟩ : ∃ (t : Fin 512) (h : Fin 4096), i = ix2 t h := ⟨i 0, i 1, eq_ix2 i⟩
  rw [val_main_v34_apply]
  show _ = Spec.out x0 x1 x2 x3 x4 x5 x6 x7 x8 x9 t h
  refine Finset.sum_congr rfl fun f _ => ?_
  have el : lidx_main_v34 (ix2 t h) f = ix2 t f := by
    funext a
    match a with
    | ⟨0, _⟩ => rfl
    | ⟨1, _⟩ => rfl
  have er : idx_main_v33 (ridx_main_v34 (ix2 t h) f) = ix2 h f := by
    funext a
    match a with
    | ⟨0, _⟩ => rfl
    | ⟨1, _⟩ => rfl
  rw [val_main_v33_apply, el, er, inter_at, down_w_at]

/-- On every device, from any memory with zero counters: every weakly fair execution of the reference terminates with
    its result array at the specification of the ten argument arrays' launch contents, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = Cert.Spec.G
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono
    (fun _ h c => ⟨(h c).1.trans ((val_main_v34_eq _ _ _ _ _ _ _ _ _ _).trans (ref_is_spec _ _ _ _ _ _ _ _ _ _)), (h c).2⟩)
    (Cert.ReferenceIdeal.Value.run (F := Ideal) m ρ)

end Cert.RefValue

end
-- ==== Proof.lean ====
/-
  A quantized gated feed-forward block, in three pipelined kernels, against its plain reference.

  The kernel computes `out = (silu(x W1ᵀ) ⊙ (x W3ᵀ)) W2ᵀ` with 4-bit weights dequantized on the fly (one scale and zero
  point per group of 64 output rows): a gate projection over 28 column blocks, an up projection over the same blocks with
  `silu(gate)` folded in, and a down projection over an 8 × 7 grid that accumulates the 7 blocks of the ffn axis in a scratch
  buffer and writes each output block once. The reference is the same formula as five host matrix operations.

  On the extended reals the two agree: a change of float format is the identity; a matrix product into a zero accumulator is
  the plain sum; `logistic g` is by definition `1 / (1 + e^(-g))`, which is how the reference spells it; and the kernel's sum
  over the ffn axis, taken block by block from zero, is the reference's whole sum because addition of extended reals is
  associative and commutative. No step needs the inputs to be finite, so the precondition is never opened.

  The frames: the word-level kernel and its idealization are the same program text, so one proof, stated for any float
  instance, gives both — each region's body runs on its staging buffers leaving its inputs as found, the down projection's
  invariant carries the accumulator from point to point, and no host operation or region writes an argument array. The
  reference is host operations only; its frame is its run with the result dropped. Nothing was rewritten by the
  idealization, so `preserves` has nothing to state.
-/
import proofs.«103602_j18279380812578_2_alg».proof.Defs
import proofs.«103602_j18279380812578_2_alg».proof.Proof.Gen.Kernel
import proofs.«103602_j18279380812578_2_alg».proof.Proof.Gen.KernelIdeal
import proofs.«103602_j18279380812578_2_alg».proof.Proof.Gen.ReferenceIdeal
import proofs.«103602_j18279380812578_2_alg».proof.Proof.Gen.Pre_finite_inputs
import proofs.«103602_j18279380812578_2_alg».proof.Proof.Gen.ReferenceIdeal.Run
import proofs.«103602_j18279380812578_2_alg».proof.Proof.Gen.ReferenceIdeal.Read
import proofs.«103602_j18279380812578_2_alg».proof.Proof.WChain
import proofs.«103602_j18279380812578_2_alg».proof.Proof.Chain
import proofs.«103602_j18279380812578_2_alg».proof.Proof.KernelValue
import proofs.«103602_j18279380812578_2_alg».proof.Proof.RefIsSpec
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs, from memories agreeing on the arguments, end with the specification of those arguments. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩) (Cert.RefValue.run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
